-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x64 : Shape := ⟨3, ![8, 4096, 64]⟩
abbrev S_ : Shape := ⟨0, ![]⟩

class Facts : Prop where
  bcast_S_S8x4096x64 : S_.BroadcastsInDim S8x4096x64 (![] : Fin 0 → Fin S8x4096x64.rank)
  reducesTo_S8x4096x64_S_d0_1_2 : S8x4096x64.ReducesTo [0, 1, 2] S_
  h_S_ : 0 < S_.numel

variable [Facts]

def fn {F : FTy → Type} [FloatOps F] (main_arg0 : FVec F S8x4096x64 .f32) (main_arg1 : FVec F S8x4096x64 .f32) : IVec S_ 1 :=
  let main_v0 : FVec F S8x4096x64 .f32 := Host.absf main_arg0
  let main_cst : FVec F S_ .f32 := constant S_ .f32 0x7F800000#32
  let main_v1 : FVec F S8x4096x64 .f32 := broadcastInDim S8x4096x64 ![] bcast_S_S8x4096x64 main_cst
  let main_v2 : IVec S8x4096x64 1 := cmpf .olt main_v0 main_v1
  let main_c : IVec S_ 1 := constantI S_ 1 1#1
  let main_v3 : IVec S_ 1 := (fun x v => Host.reduce IntOp.andi x v reducesTo_S8x4096x64_S_d0_1_2 h_S_) main_v2 main_c
  let main_v4 : FVec F S8x4096x64 .f32 := Host.absf main_arg1
  let main_cst_0 : FVec F S_ .f32 := constant S_ .f32 0x7F800000#32
  let main_v5 : FVec F S8x4096x64 .f32 := broadcastInDim S8x4096x64 ![] bcast_S_S8x4096x64 main_cst_0
  let main_v6 : IVec S8x4096x64 1 := cmpf .olt main_v4 main_v5
  let main_c_1 : IVec S_ 1 := constantI S_ 1 1#1
  let main_v7 : IVec S_ 1 := (fun x v => Host.reduce IntOp.andi x v reducesTo_S8x4096x64_S_d0_1_2 h_S_) main_v6 main_c_1
  let main_v8 : IVec S_ 1 := andi main_v3 main_v7
  main_v8
-- ==== Kernel.lean ====
abbrev S8x4096x64 : Shape := ⟨3, ![8, 4096, 64]⟩
abbrev S8x1x4096 : Shape := ⟨3, ![8, 1, 4096]⟩
abbrev S1x1024x64 : Shape := ⟨3, ![1, 1024, 64]⟩
abbrev S1x1x1024 : Shape := ⟨3, ![1, 1, 1024]⟩
abbrev S1x1x4096 : Shape := ⟨3, ![1, 1, 4096]⟩
abbrev S1x4096 : Shape := ⟨2, ![1, 4096]⟩
abbrev S1x1024 : Shape := ⟨2, ![1, 1024]⟩
abbrev S1024x64 : Shape := ⟨2, ![1024, 64]⟩
abbrev S1024 : Shape := ⟨1, ![1024]⟩
abbrev S1024x1 : Shape := ⟨2, ![1024, 1]⟩
abbrev S64x1024 : Shape := ⟨2, ![64, 1024]⟩
abbrev S1024x1024 : Shape := ⟨2, ![1024, 1024]⟩
abbrev S8x4096 : Shape := ⟨2, ![8, 4096]⟩
abbrev S_ : Shape := ⟨0, ![]⟩
abbrev S8 : Shape := ⟨1, ![8]⟩

abbrev nBuf : Space → Nat
  | .hbm => 21
  | .vmem => 8
  | .smem => 0
  | _ => 0

abbrev bufTy : (tb : Table) → Fin (tcTables nBuf tb) → BufTy
  | .hbm, ⟨0, _⟩ => ⟨S8x4096x64, .f32⟩
  | .hbm, ⟨1, _⟩ => ⟨S8x4096x64, .f32⟩
  | .hbm, ⟨2, _⟩ => ⟨S8x1x4096, .f32⟩
  | .hbm, ⟨3, _⟩ => ⟨S8x1x4096, .f32⟩
  | .hbm, ⟨4, _⟩ => ⟨S8x4096, .f32⟩
  | .hbm, ⟨5, _⟩ => ⟨S8x4096, .f32⟩
  | .hbm, ⟨6, _⟩ => ⟨S_, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S8, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .local _ .vmem, ⟨0, _⟩ => ⟨S1x1024x64, .f32⟩
  | .local _ .vmem, ⟨1, _⟩ => ⟨S1x1024x64, .f32⟩
  | .local _ .vmem, ⟨2, _⟩ => ⟨S1x1024x64, .f32⟩
  | .local _ .vmem, ⟨3, _⟩ => ⟨S1x1024x64, .f32⟩
  | .local _ .vmem, ⟨4, _⟩ => ⟨S1x1x1024, .f32⟩
  | .local _ .vmem, ⟨5, _⟩ => ⟨S1x1x1024, .f32⟩
  | .local _ .vmem, ⟨6, _⟩ => ⟨S1x1x4096, .f32⟩
  | .local _ .vmem, ⟨7, _⟩ => ⟨S1x1x4096, .f32⟩
  | _, _ => ⟨S8x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_cst_4 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def k0_mult1 (i : grid0.Coords) : BitVec 32 :=
  let arg2 : BitVec 32 := BitVec.ofNat 32 (i 2).val
  let c1024_i32 : BitVec 32 := 1024#32
  let v40 : BitVec 32 := Scalar.muli arg2 c1024_i32
  v40
def k0_off1 (i : grid0.Coords) : Fin 3 → Nat :=
  let c0_20 : Index := 0#32
  let c0_21 : Index := 0#32
  let arg2 : BitVec 32 := BitVec.ofNat 32 (i 2).val
  let c1024_i32 : BitVec 32 := 1024#32
  let v40 : BitVec 32 := Scalar.muli arg2 c1024_i32
  let v41 : BitVec 32 := v40
  let v42 : Index := Scalar.indexCast v41
  ![0, 0, v42.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

class Facts₀ : Prop where
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  shapeCasts_S1x4096_S1x1x4096 : S1x4096.ShapeCasts S1x1x4096
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  reduces_S1024x64_S1024 : S1024x64.Reduces [1] S1024
  shapeCasts_S1024_S1024x1 : S1024.ShapeCasts S1024x1
  transposes_S1024x1_p1_0_S1x1024 : S1024x1.Transposes [1, 0] S1x1024
  bitsLt_bf16_f32 : FTy.bits .bf16 < FTy.bits .f32
  transposes_S1024x64_p1_0_S64x1024 : S1024x64.Transposes [1, 0] S64x1024
  broadcasts_S1024x1_S1024x1024 : S1024x1.Broadcasts S1024x1024
  broadcasts_S1x1024_S1024x1024 : S1x1024.Broadcasts S1024x1024
  reduces_S1024x1024_S1024 : S1024x1024.Reduces [1] S1024
  reduces_S1024x1024_S1024_2 : S1024x1024.Reduces [0] S1024
  shapeCasts_S1024_S1x1024 : S1024.ShapeCasts S1x1024
  shapeCasts_S8x1x4096_S8x4096 : S8x1x4096.ShapeCasts S8x4096
  reducesTo_S8x4096_S8_d1 : S8x4096.ReducesTo [1] S8
  h_S_ : 0 < S_.numel
  bcast_S_S8 : S_.BroadcastsInDim S8 (![] : Fin 0 → Fin S8.rank)
  reducesTo_S8_S_d0 : S8.ReducesTo [0] S_
  dot_S1024x64_S64x1024_S1024x1024_1_0_0_1_n_n_wf : DotDims.WF S1024x64 S64x1024 S1024x1024 [1] [0] [0] [1] [] []
  hrank0 : 0 < grid0.rank
  k0_mult1_dvd : ∀ i : grid0.Coords, 1024 ∣ (k0_mult1 i).toNat
  k0_off1_inb : ∀ i : grid0.Coords, ∀ a, (k0_off1 i) a + S1x1x1024.size a ≤ S1x1x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S8x4096x64.size a
  hwx0_0 : ∀ i : grid0.Coords, EltTy.bits .f32 = 32 ∨ (Rect.block (s := S8x4096x64) S1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x64.size a ≤ S8x4096x64.size a
  hwx0_1 : ∀ i : grid0.Coords, EltTy.bits .f32 = 32 ∨ (Rect.block (s := S8x4096x64) S1x1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S8x1x4096.size a
  hwx0_2 : ∀ i : grid0.Coords, EltTy.bits .f32 = 32 ∨ (Rect.block (s := S8x1x4096) S1x1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x4096.size a ≤ S8x1x4096.size a
  hwx0_3 : ∀ i : grid0.Coords, EltTy.bits .f32 = 32 ∨ (Rect.block (s := S8x1x4096) S1x1x4096.size (cc0_transform_3 i) (hinb0_3 i)).WholeWords (EltTy.packing .f32)

variable [Facts₀]

def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf

abbrev win0_0 : Pipeline.Window sig grid0 :=
  Pipeline.Window.ofSpec (Memref.whole main_arg0) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x4096x64 : Shape := ⟨3, ![8, 4096, 64]⟩
abbrev S_ : Shape := ⟨0, ![]⟩
abbrev S8x4096 : Shape := ⟨2, ![8, 4096]⟩
abbrev S8x4096x4096 : Shape := ⟨3, ![8, 4096, 4096]⟩
abbrev S8x4096x1 : Shape := ⟨3, ![8, 4096, 1]⟩
abbrev S8x1x4096 : Shape := ⟨3, ![8, 1, 4096]⟩
abbrev S8 : Shape := ⟨1, ![8]⟩

abbrev nBuf : Space → Nat
  | .hbm => 41
  | .vmem => 0
  | .smem => 0
  | _ => 0

abbrev bufTy : (tb : Table) → Fin (tcTables nBuf tb) → BufTy
  | .hbm, ⟨0, _⟩ => ⟨S8x4096x64, .f32⟩
  | .hbm, ⟨1, _⟩ => ⟨S8x4096x64, .f32⟩
  | .hbm, ⟨2, _⟩ => ⟨S8x4096x64, .f32⟩
  | .hbm, ⟨3, _⟩ => ⟨S_, .f32⟩
  | .hbm, ⟨4, _⟩ => ⟨S8x4096, .f32⟩
  | .hbm, ⟨5, _⟩ => ⟨S8x4096x64, .f32⟩
  | .hbm, ⟨6, _⟩ => ⟨S_, .f32⟩
  | .hbm, ⟨7, _⟩ => ⟨S8x4096, .f32⟩
  | .hbm, ⟨8, _⟩ => ⟨S8x4096x4096, .f32⟩
  | .hbm, ⟨9, _⟩ => ⟨S8x4096x1, .f32⟩
  | .hbm, ⟨10, _⟩ => ⟨S8x1x4096, .f32⟩
  | .hbm, ⟨11, _⟩ => ⟨S8x4096x4096, .f32⟩
  | .hbm, ⟨12, _⟩ => ⟨S8x4096x4096, .f32⟩
  | .hbm, ⟨13, _⟩ => ⟨S8x4096x4096, .f32⟩
  | .hbm, ⟨14, _⟩ => ⟨S_, .f32⟩
  | .hbm, ⟨15, _⟩ => ⟨S8x4096x4096, .f32⟩
  | .hbm, ⟨16, _⟩ => ⟨S8x4096x4096, .f32⟩
  | .hbm, ⟨17, _⟩ => ⟨S8x4096x4096, .f32⟩
  | .hbm, ⟨18, _⟩ => ⟨S_, .f32⟩
  | .hbm, ⟨19, _⟩ => ⟨S8x4096x4096, .f32⟩
  | .hbm, ⟨20, _⟩ => ⟨S8x4096x4096, .f32⟩
  | .hbm, ⟨21, _⟩ => ⟨S8x4096x4096, .f32⟩
  | .hbm, ⟨22, _⟩ => ⟨S_, .f32⟩
  | .hbm, ⟨23, _⟩ => ⟨S8x4096, .f32⟩
  | .hbm, ⟨24, _⟩ => ⟨S_, .f32⟩
  | .hbm, ⟨25, _⟩ => ⟨S8, .f32⟩
  | .hbm, ⟨26, _⟩ => ⟨S_, .f32⟩
  | .hbm, ⟨27, _⟩ => ⟨S8, .f32⟩
  | .hbm, ⟨28, _⟩ => ⟨S8, .f32⟩
  | .hbm, ⟨29, _⟩ => ⟨S_, .f32⟩
  | .hbm, ⟨30, _⟩ => ⟨S8x4096, .f32⟩
  | .hbm, ⟨31, _⟩ => ⟨S_, .f32⟩
  | .hbm, ⟨32, _⟩ => ⟨S8, .f32⟩
  | .hbm, ⟨33, _⟩ => ⟨S_, .f32⟩
  | .hbm, ⟨34, _⟩ => ⟨S8, .f32⟩
  | .hbm, ⟨35, _⟩ => ⟨S8, .f32⟩
  | .hbm, ⟨36, _⟩ => ⟨S8, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | _, _ => ⟨S8x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_v19 : Ref sig .tc := ⟨.hbm, 28, rfl⟩
abbrev main_cst_6 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_9 : Ref sig .tc := ⟨.hbm, 37, rfl⟩
abbrev main_v25 : Ref sig .tc := ⟨.hbm, 38, rfl⟩
abbrev main_cst_10 : Ref sig .tc := ⟨.hbm, 39, rfl⟩
abbrev main_v26 : Ref sig .tc := ⟨.hbm, 40, rfl⟩

abbrev nD : Nat := 1
abbrev τ : Topo := Topo.v7x

variable {F : FTy → Type} [FloatOps F]

class Facts₀ : Prop where
  reducesTo_S8x4096x64_S8x4096_d2 : S8x4096x64.ReducesTo [2] S8x4096
  h_S_ : 0 < S_.numel
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d1 : S8x4096x4096.ReducesTo [1] S8x4096
  reducesTo_S8x4096_S8_d1 : S8x4096.ReducesTo [1] S8
  bcast_S_S8 : S_.BroadcastsInDim S8 (![] : Fin 0 → Fin S8.rank)
  reducesTo_S8x4096x4096_S8x4096_d2 : S8x4096x4096.ReducesTo [2] S8x4096
  reducesTo_S8_S_d0 : S8.ReducesTo [0] S_
  dot_S8x4096x64_S8x4096x64_S8x4096x4096_2_2_1_1_0_0_wf : DotDims.WF S8x4096x64 S8x4096x64 S8x4096x4096 [2] [2] [1] [1] [0] [0]

variable [Facts₀]

def dot_S8x4096x64_S8x4096x64_S8x4096x4096_2_2_1_1_0_0 : DotDims S8x4096x64 S8x4096x64 S8x4096x4096 where
  lhsContracting := [2]
  rhsContracting := [2]
  lhsNonContracting := [1]
  rhsNonContracting := [1]
  lhsBatch := [0]
  rhsBatch := [0]
  wf := dot_S8x4096x64_S8x4096x64_S8x4096x4096_2_2_1_1_0_0_wf

class Facts : Prop extends Facts₀ where

variable [Facts]
-- ==== Proof.BitsBody.Conds.lean ====
/-
  The grid is (batch b, row block n, column block m) = 8 × 4 × 4, run in that order, so point t has
  m = t mod 4 and n = (t / 4) mod 4.  The body branches four times on the coordinates:
  it resets the column-minimum block when n = 0 and m = 0, resets the row-minimum block when m = 0,
  finishes the row block (sqrt of the positive part) when m = 3 and finishes the column block when
  n = 3 and m = 3.  Each condition is the body's own scalar chain over the coordinates; here each is
  named and decided over the grid as a residue of the point's number.
-/
import proofs.«154268_j6433861009596_2_alg».proof.Proof.Gen.Kernel.Frame
import proofs.«154268_j6433861009596_2_alg».proof.Proof.Gen.Kernel.Skeleton
import Idealize.ShloMosaic.Lib.WritesUnit

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- n = 0 and m = 0: the first point of a batch, where the column minima are reset. -/
abbrev batchStart (i : grid0.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
theorem batchStart_iff : ∀ t : Fin cfg0.N, batchStart (grid0.coords t) ↔ t.val % 16 = 0 :=
  (by decide +kernel : ∀ t : Fin grid0.N, batchStart (grid0.coords t) ↔ t.val % 16 = 0)

/-- m = 0: the first column block of a row block, where the row minima are reset. -/
abbrev rowStart (i : grid0.Coords) : Prop :=
  (Scalar.cmpi .ne (Scalar.extui (Scalar.cmpi .eq (BitVec.ofNat 32 (i 2).val) 0#32)) 0#32) = 1#1
theorem rowStart_iff : ∀ t : Fin cfg0.N, rowStart (grid0.coords t) ↔ t.val % 4 = 0 :=
  (by decide +kernel : ∀ t : Fin grid0.N, rowStart (grid0.coords t) ↔ t.val % 4 = 0)

/-- m = 3: the last column block of a row block, where the row minima are finished. -/
abbrev rowEnd (i : grid0.Coords) : Prop :=
  (Scalar.cmpi .ne (Scalar.extui (Scalar.cmpi .eq (BitVec.ofNat 32 (i 2).val) 3#32)) 0#32) = 1#1
theorem rowEnd_iff : ∀ t : Fin cfg0.N, rowEnd (grid0.coords t) ↔ t.val % 4 = 3 :=
  (by decide +kernel : ∀ t : Fin grid0.N, rowEnd (grid0.coords t) ↔ t.val % 4 = 3)

/-- n = 3 and m = 3: the last point of a batch, where the column minima are finished. -/
abbrev batchEnd (i : grid0.Coords) : Prop :=
  (Scalar.cmpi .ne (Scalar.extui (Scalar.andi (Scalar.cmpi .eq (BitVec.ofNat 32 (i 1).val) 3#32) (Scalar.cmpi .eq (BitVec.ofNat 32 (i 2).val) 3#32))) 0#32) = 1#1
theorem batchEnd_iff : ∀ t : Fin cfg0.N, batchEnd (grid0.coords t) ↔ t.val % 16 = 15 :=
  (by decide +kernel : ∀ t : Fin grid0.N, batchEnd (grid0.coords t) ↔ t.val % 16 = 15)

/-- The staging memref each window is on at point t, as the pipeline passes it to the body. -/
abbrev xMem (t : Fin cfg0.N) : Memref sig .tc .vmem S1x1024x64 .f32 := win0_0.stage (cfg0.slots t 0)
abbrev xWhole (t : Fin cfg0.N) : (xMem t).IsWhole := hstage0_0 ((cfg0.slots t 0).cast nbuf0_0)
abbrev yMem (t : Fin cfg0.N) : Memref sig .tc .vmem S1x1024x64 .f32 := win0_1.stage (cfg0.slots t 1)
abbrev yWhole (t : Fin cfg0.N) : (yMem t).IsWhole := hstage0_1 ((cfg0.slots t 1).cast nbuf0_1)
abbrev rowMem (t : Fin cfg0.N) : Memref sig .tc .vmem S1x1x1024 .f32 := win0_2.stage (cfg0.slots t 2)
abbrev rowWhole (t : Fin cfg0.N) : (rowMem t).IsWhole := hstage0_2 ((cfg0.slots t 2).cast nbuf0_2)
abbrev colMem (t : Fin cfg0.N) : Memref sig .tc .vmem S1x1x4096 .f32 := win0_3.stage (cfg0.slots t 3)
abbrev colWhole (t : Fin cfg0.N) : (colMem t).IsWhole := hstage0_3 ((cfg0.slots t 3).cast nbuf0_3)

end Cert.Kernel.Body

end
-- ==== Proof.BitsBody.RunBatchStart.lean ====
/- The body at the first point of a batch (n = 0, m = 0): both accumulators are reset before they are used, so
   nothing of what the two output buffers held before matters. -/
import proofs.«154268_j6433861009596_2_alg».proof.Proof.BitsBody.Conds

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body's run at such a point, on whole staging memrefs: the stores it makes into the row block and the column
    block, as lists of (rectangle, payload) pieces, newest first, with the proof that the body runs from the
    blocks' contents to the continuation holding the input blocks unchanged and the two output buffers with those
    pieces written. The pieces are found by running the body symbolically. -/
noncomputable def runBatchStart (c : Dev nD) (i : grid0.Coords) (arg3 : Memref sig .tc .vmem S1x1024x64 .f32) (harg3 : arg3.IsWhole) (arg4 : Memref sig .tc .vmem S1x1024x64 .f32) (harg4 : arg4.IsWhole) (arg5 : Memref sig .tc .vmem S1x1x1024 .f32) (harg5 : arg5.IsWhole) (arg6 : Memref sig .tc .vmem S1x1x4096 .f32) (harg6 : arg6.IsWhole)
    (h0 : batchStart i) (h1 : rowStart i) (h2 : ¬rowEnd i) (h3 : ¬batchEnd i)
    (x y : Vec F S1x1024x64 .f32) :
    { L : List (View.Piece (Elt F) S1x1x1024 .f32) × List (View.Piece (Elt F) S1x1x4096 .f32) //
      ∀ (r : Vec F S1x1x1024 .f32) (q : Vec F S1x1x4096 .f32) (E : Set ℕ) (K : PUnit → sProp 𝕄),
        iprop(owns (c : Thread nD τ) arg3 fullShare x ∗ owns (c : Thread nD τ) arg4 fullShare y
            ∗ owns (c : Thread nD τ) arg5 fullShare r ∗ owns (c : Thread nD τ) arg6 fullShare q
            ∗ (iprop(owns (c : Thread nD τ) arg3 fullShare x ∗ owns (c : Thread nD τ) arg4 fullShare y
                ∗ (∃ f, arg5.view.loc (c : Thread nD τ) ↦[arg5.view.set]{fullShare} arg5.view.writes (Elt F) f L.1)
                ∗ (∃ f, arg6.view.loc (c : Thread nD τ) ↦[arg6.view.set]{fullShare} arg6.view.writes (Elt F) f L.2)) -∗ K ⟨⟩))
          ⊢ wp frame (wpE (defs₀ (F := F)) Variants.none c none) E (cc0__chamfer_kernel i arg3 harg3 arg4 harg4 arg5 harg5 arg6 harg6) K } := by
  refine ⟨(?_, ?_), fun r q E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1
    obtain rfl := harg5.eq_unread hf2; obtain rfl := harg6.eq_unread hf3
    sl_exec (disch := first | exact h0 | exact h1 | exact h2 | exact h3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    iexists _; iexact H3

end Cert.Kernel.Body

end
-- ==== Proof.BitsBody.RunRowStart.lean ====
/- The body at the first column block of a later row block (m = 0, n > 0): the row minima are reset, the column
   minima go on from what the point before left. -/
import proofs.«154268_j6433861009596_2_alg».proof.Proof.BitsBody.Conds

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body's run at such a point, on whole staging memrefs: the stores it makes into the row block and the column
    block, as lists of (rectangle, payload) pieces, newest first, with the proof that the body runs from the
    blocks' contents to the continuation holding the input blocks unchanged and the two output buffers with those
    pieces written. The pieces are found by running the body symbolically. -/
noncomputable def runRowStart (c : Dev nD) (i : grid0.Coords) (arg3 : Memref sig .tc .vmem S1x1024x64 .f32) (harg3 : arg3.IsWhole) (arg4 : Memref sig .tc .vmem S1x1024x64 .f32) (harg4 : arg4.IsWhole) (arg5 : Memref sig .tc .vmem S1x1x1024 .f32) (harg5 : arg5.IsWhole) (arg6 : Memref sig .tc .vmem S1x1x4096 .f32) (harg6 : arg6.IsWhole)
    (h0 : ¬batchStart i) (h1 : rowStart i) (h2 : ¬rowEnd i) (h3 : ¬batchEnd i)
    (x y : Vec F S1x1024x64 .f32) (q : Vec F S1x1x4096 .f32) :
    { L : List (View.Piece (Elt F) S1x1x1024 .f32) × List (View.Piece (Elt F) S1x1x4096 .f32) //
      ∀ (r : Vec F S1x1x1024 .f32) (E : Set ℕ) (K : PUnit → sProp 𝕄),
        iprop(owns (c : Thread nD τ) arg3 fullShare x ∗ owns (c : Thread nD τ) arg4 fullShare y
            ∗ owns (c : Thread nD τ) arg5 fullShare r ∗ owns (c : Thread nD τ) arg6 fullShare q
            ∗ (iprop(owns (c : Thread nD τ) arg3 fullShare x ∗ owns (c : Thread nD τ) arg4 fullShare y
                ∗ (∃ f, arg5.view.loc (c : Thread nD τ) ↦[arg5.view.set]{fullShare} arg5.view.writes (Elt F) f L.1)
                ∗ (arg6.view.loc (c : Thread nD τ) ↦[arg6.view.set]{fullShare} arg6.view.writes (Elt F) (harg6.unread q) L.2)) -∗ K ⟨⟩))
          ⊢ wp frame (wpE (defs₀ (F := F)) Variants.none c none) E (cc0__chamfer_kernel i arg3 harg3 arg4 harg4 arg5 harg5 arg6 harg6) K } := by
  refine ⟨(?_, ?_), fun r E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1
    obtain rfl := harg5.eq_unread hf2; obtain rfl := harg6.eq_unread hf3
    sl_exec (disch := first | exact h0 | exact h1 | exact h2 | exact h3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    iexact H3

end Cert.Kernel.Body

end
-- ==== Proof.BitsBody.RunMid.lean ====
/- The body at a middle column block (m = 1 or 2): both accumulators go on from what the point before left. -/
import proofs.«154268_j6433861009596_2_alg».proof.Proof.BitsBody.Conds

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body's run at such a point, on whole staging memrefs: the stores it makes into the row block and the column
    block, as lists of (rectangle, payload) pieces, newest first, with the proof that the body runs from the
    blocks' contents to the continuation holding the input blocks unchanged and the two output buffers with those
    pieces written. The pieces are found by running the body symbolically. -/
noncomputable def runMid (c : Dev nD) (i : grid0.Coords) (arg3 : Memref sig .tc .vmem S1x1024x64 .f32) (harg3 : arg3.IsWhole) (arg4 : Memref sig .tc .vmem S1x1024x64 .f32) (harg4 : arg4.IsWhole) (arg5 : Memref sig .tc .vmem S1x1x1024 .f32) (harg5 : arg5.IsWhole) (arg6 : Memref sig .tc .vmem S1x1x4096 .f32) (harg6 : arg6.IsWhole)
    (h0 : ¬batchStart i) (h1 : ¬rowStart i) (h2 : ¬rowEnd i) (h3 : ¬batchEnd i)
    (x y : Vec F S1x1024x64 .f32) (r : Vec F S1x1x1024 .f32) (q : Vec F S1x1x4096 .f32) :
    { L : List (View.Piece (Elt F) S1x1x1024 .f32) × List (View.Piece (Elt F) S1x1x4096 .f32) //
      ∀ (E : Set ℕ) (K : PUnit → sProp 𝕄),
        iprop(owns (c : Thread nD τ) arg3 fullShare x ∗ owns (c : Thread nD τ) arg4 fullShare y
            ∗ owns (c : Thread nD τ) arg5 fullShare r ∗ owns (c : Thread nD τ) arg6 fullShare q
            ∗ (iprop(owns (c : Thread nD τ) arg3 fullShare x ∗ owns (c : Thread nD τ) arg4 fullShare y
                ∗ (∃ f, arg5.view.loc (c : Thread nD τ) ↦[arg5.view.set]{fullShare} arg5.view.writes (Elt F) f L.1)
                ∗ (arg6.view.loc (c : Thread nD τ) ↦[arg6.view.set]{fullShare} arg6.view.writes (Elt F) (harg6.unread q) L.2)) -∗ K ⟨⟩))
          ⊢ wp frame (wpE (defs₀ (F := F)) Variants.none c none) E (cc0__chamfer_kernel i arg3 harg3 arg4 harg4 arg5 harg5 arg6 harg6) K } := by
  refine ⟨(?_, ?_), fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1
    obtain rfl := harg5.eq_unread hf2; obtain rfl := harg6.eq_unread hf3
    sl_exec (disch := first | exact h0 | exact h1 | exact h2 | exact h3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    iexact H3

end Cert.Kernel.Body

end
-- ==== Proof.BitsBody.RunRowEnd.lean ====
/- The body at the last column block of a row block that is not the batch's last (m = 3, n < 3): the row minima
   are finished by the root of the positive part. -/
import proofs.«154268_j6433861009596_2_alg».proof.Proof.BitsBody.Conds

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body's run at such a point, on whole staging memrefs: the stores it makes into the row block and the column
    block, as lists of (rectangle, payload) pieces, newest first, with the proof that the body runs from the
    blocks' contents to the continuation holding the input blocks unchanged and the two output buffers with those
    pieces written. The pieces are found by running the body symbolically. -/
noncomputable def runRowEnd (c : Dev nD) (i : grid0.Coords) (arg3 : Memref sig .tc .vmem S1x1024x64 .f32) (harg3 : arg3.IsWhole) (arg4 : Memref sig .tc .vmem S1x1024x64 .f32) (harg4 : arg4.IsWhole) (arg5 : Memref sig .tc .vmem S1x1x1024 .f32) (harg5 : arg5.IsWhole) (arg6 : Memref sig .tc .vmem S1x1x4096 .f32) (harg6 : arg6.IsWhole)
    (h0 : ¬batchStart i) (h1 : ¬rowStart i) (h2 : rowEnd i) (h3 : ¬batchEnd i)
    (x y : Vec F S1x1024x64 .f32) (r : Vec F S1x1x1024 .f32) (q : Vec F S1x1x4096 .f32) :
    { L : List (View.Piece (Elt F) S1x1x1024 .f32) × List (View.Piece (Elt F) S1x1x4096 .f32) //
      ∀ (E : Set ℕ) (K : PUnit → sProp 𝕄),
        iprop(owns (c : Thread nD τ) arg3 fullShare x ∗ owns (c : Thread nD τ) arg4 fullShare y
            ∗ owns (c : Thread nD τ) arg5 fullShare r ∗ owns (c : Thread nD τ) arg6 fullShare q
            ∗ (iprop(owns (c : Thread nD τ) arg3 fullShare x ∗ owns (c : Thread nD τ) arg4 fullShare y
                ∗ (∃ f, arg5.view.loc (c : Thread nD τ) ↦[arg5.view.set]{fullShare} arg5.view.writes (Elt F) f L.1)
                ∗ (arg6.view.loc (c : Thread nD τ) ↦[arg6.view.set]{fullShare} arg6.view.writes (Elt F) (harg6.unread q) L.2)) -∗ K ⟨⟩))
          ⊢ wp frame (wpE (defs₀ (F := F)) Variants.none c none) E (cc0__chamfer_kernel i arg3 harg3 arg4 harg4 arg5 harg5 arg6 harg6) K } := by
  refine ⟨(?_, ?_), fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1
    obtain rfl := harg5.eq_unread hf2; obtain rfl := harg6.eq_unread hf3
    sl_exec (disch := first | exact h0 | exact h1 | exact h2 | exact h3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    iexact H3

end Cert.Kernel.Body

end
-- ==== Proof.BitsBody.RunBatchEnd.lean ====
/- The body at the last point of a batch (n = 3, m = 3): the row minima and then the column minima are finished
   by the root of the positive part; the finishing store covers the whole column block. -/
import proofs.«154268_j6433861009596_2_alg».proof.Proof.BitsBody.Conds

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body's run at such a point, on whole staging memrefs: the stores it makes into the row block and the column
    block, as lists of (rectangle, payload) pieces, newest first, with the proof that the body runs from the
    blocks' contents to the continuation holding the input blocks unchanged and the two output buffers with those
    pieces written. The pieces are found by running the body symbolically. -/
noncomputable def runBatchEnd (c : Dev nD) (i : grid0.Coords) (arg3 : Memref sig .tc .vmem S1x1024x64 .f32) (harg3 : arg3.IsWhole) (arg4 : Memref sig .tc .vmem S1x1024x64 .f32) (harg4 : arg4.IsWhole) (arg5 : Memref sig .tc .vmem S1x1x1024 .f32) (harg5 : arg5.IsWhole) (arg6 : Memref sig .tc .vmem S1x1x4096 .f32) (harg6 : arg6.IsWhole)
    (h0 : ¬batchStart i) (h1 : ¬rowStart i) (h2 : rowEnd i) (h3 : batchEnd i)
    (x y : Vec F S1x1024x64 .f32) (r : Vec F S1x1x1024 .f32) (q : Vec F S1x1x4096 .f32) :
    { L : List (View.Piece (Elt F) S1x1x1024 .f32) × List (View.Piece (Elt F) S1x1x4096 .f32) //
      ∀ (E : Set ℕ) (K : PUnit → sProp 𝕄),
        iprop(owns (c : Thread nD τ) arg3 fullShare x ∗ owns (c : Thread nD τ) arg4 fullShare y
            ∗ owns (c : Thread nD τ) arg5 fullShare r ∗ owns (c : Thread nD τ) arg6 fullShare q
            ∗ (iprop(owns (c : Thread nD τ) arg3 fullShare x ∗ owns (c : Thread nD τ) arg4 fullShare y
                ∗ (∃ f, arg5.view.loc (c : Thread nD τ) ↦[arg5.view.set]{fullShare} arg5.view.writes (Elt F) f L.1)
                ∗ (∃ f, arg6.view.loc (c : Thread nD τ) ↦[arg6.view.set]{fullShare} arg6.view.writes (Elt F) f L.2)) -∗ K ⟨⟩))
          ⊢ wp frame (wpE (defs₀ (F := F)) Variants.none c none) E (cc0__chamfer_kernel i arg3 harg3 arg4 harg4 arg5 harg5 arg6 harg6) K } := by
  refine ⟨(?_, ?_), fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1
    obtain rfl := harg5.eq_unread hf2; obtain rfl := harg6.eq_unread hf3
    sl_exec (disch := first | exact h0 | exact h1 | exact h2 | exact h3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    iexists _; iexact H3

end Cert.Kernel.Body

end
-- ==== Proof.BitsBody.Covers.lean ====
/-
  What the two output buffers hold after the body at every grid point.

  The row-minimum block (1 × 1 × 1024) is reset at m = 0 and written back after m = 3; the column-minimum
  block (1 × 1 × 4096) is reset at n = 0, m = 0 and written back after n = 3, m = 3.  In between each point
  finds what the point before left.  So the contents are defined by recursion on the point's number: the
  case the residues of t select, run on the blocks of x and y at t and on the contents left at t − 1.
-/
import proofs.«154268_j6433861009596_2_alg».proof.Proof.BitsBody.RunBatchStart
import proofs.«154268_j6433861009596_2_alg».proof.Proof.BitsBody.RunRowStart
import proofs.«154268_j6433861009596_2_alg».proof.Proof.BitsBody.RunMid
import proofs.«154268_j6433861009596_2_alg».proof.Proof.BitsBody.RunRowEnd
import proofs.«154268_j6433861009596_2_alg».proof.Proof.BitsBody.RunBatchEnd

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The contents of a row block and of a column block. -/
abbrev RowBlk (F : FTy → Type) := Vec F S1x1x1024 .f32
abbrev ColBlk (F : FTy → Type) := Vec F S1x1x4096 .f32

/-! ## Each case's run at a point, from the residues of the point's number -/

def atBatchStart (c : Dev nD) (t : Fin cfg0.N) (h : t.val % 16 = 0) :=
  runBatchStart (F := F) c (grid0.coords t) (xMem t) (xWhole t) (yMem t) (yWhole t) (rowMem t) (rowWhole t) (colMem t) (colWhole t)
    ((batchStart_iff t).mpr h) ((rowStart_iff t).mpr (by omega)) (fun h => by have := (rowEnd_iff t).mp h; omega) (fun h => by have := (batchEnd_iff t).mp h; omega) (iblk m c 0 t) (iblk m c 1 t)

def atRowStart (c : Dev nD) (t : Fin cfg0.N) (h0 : ¬t.val % 16 = 0) (h1 : t.val % 4 = 0) (q : ColBlk F) :=
  runRowStart (F := F) c (grid0.coords t) (xMem t) (xWhole t) (yMem t) (yWhole t) (rowMem t) (rowWhole t) (colMem t) (colWhole t)
    (fun h => h0 ((batchStart_iff t).mp h)) ((rowStart_iff t).mpr h1) (fun h => by have := (rowEnd_iff t).mp h; omega) (fun h => by have := (batchEnd_iff t).mp h; omega) (iblk m c 0 t) (iblk m c 1 t) q

def atMid (c : Dev nD) (t : Fin cfg0.N) (h1 : ¬t.val % 4 = 0) (h2 : ¬t.val % 4 = 3) (r : RowBlk F) (q : ColBlk F) :=
  runMid (F := F) c (grid0.coords t) (xMem t) (xWhole t) (yMem t) (yWhole t) (rowMem t) (rowWhole t) (colMem t) (colWhole t)
    (fun h => by have := (batchStart_iff t).mp h; omega) (fun h => h1 ((rowStart_iff t).mp h)) (fun h => h2 ((rowEnd_iff t).mp h)) (fun h => by have := (batchEnd_iff t).mp h; omega) (iblk m c 0 t) (iblk m c 1 t) r q

def atRowEnd (c : Dev nD) (t : Fin cfg0.N) (h2 : t.val % 4 = 3) (h3 : ¬t.val % 16 = 15) (r : RowBlk F) (q : ColBlk F) :=
  runRowEnd (F := F) c (grid0.coords t) (xMem t) (xWhole t) (yMem t) (yWhole t) (rowMem t) (rowWhole t) (colMem t) (colWhole t)
    (fun h => by have := (batchStart_iff t).mp h; omega) (fun h => by have := (rowStart_iff t).mp h; omega) ((rowEnd_iff t).mpr h2) (fun h => h3 ((batchEnd_iff t).mp h)) (iblk m c 0 t) (iblk m c 1 t) r q

def atBatchEnd (c : Dev nD) (t : Fin cfg0.N) (h3 : t.val % 16 = 15) (r : RowBlk F) (q : ColBlk F) :=
  runBatchEnd (F := F) c (grid0.coords t) (xMem t) (xWhole t) (yMem t) (yWhole t) (rowMem t) (rowWhole t) (colMem t) (colWhole t)
    (fun h => by have := (batchStart_iff t).mp h; omega) (fun h => by have := (rowStart_iff t).mp h; omega) ((rowEnd_iff t).mpr (by omega)) ((batchEnd_iff t).mpr h3) (iblk m c 0 t) (iblk m c 1 t) r q

/-! ## The stores cover the blocks they must -/

/-- In every case the row block is stored whole, so its pieces cover it. -/
theorem rowCover_batchStart (c : Dev nD) (t : Fin cfg0.N) (h : t.val % 16 = 0) (y : S1x1x1024.Idx) :
    ∃ p ∈ (atBatchStart m c t h).1.1, y ∈ p.1.set :=
  View.cover_of_tiledL (atBatchStart m c t h).1.1 S1x1x1024.size (by sl_kernel_rfl) y
theorem rowCover_rowStart (c : Dev nD) (t : Fin cfg0.N) (h0 : ¬t.val % 16 = 0) (h1 : t.val % 4 = 0) (q : ColBlk F) (y : S1x1x1024.Idx) :
    ∃ p ∈ (atRowStart m c t h0 h1 q).1.1, y ∈ p.1.set :=
  View.cover_of_tiledL (atRowStart m c t h0 h1 q).1.1 S1x1x1024.size (by sl_kernel_rfl) y
theorem rowCover_mid (c : Dev nD) (t : Fin cfg0.N) (h1 : ¬t.val % 4 = 0) (h2 : ¬t.val % 4 = 3) (r : RowBlk F) (q : ColBlk F) (y : S1x1x1024.Idx) :
    ∃ p ∈ (atMid m c t h1 h2 r q).1.1, y ∈ p.1.set :=
  View.cover_of_tiledL (atMid m c t h1 h2 r q).1.1 S1x1x1024.size (by sl_kernel_rfl) y
theorem rowCover_rowEnd (c : Dev nD) (t : Fin cfg0.N) (h2 : t.val % 4 = 3) (h3 : ¬t.val % 16 = 15) (r : RowBlk F) (q : ColBlk F) (y : S1x1x1024.Idx) :
    ∃ p ∈ (atRowEnd m c t h2 h3 r q).1.1, y ∈ p.1.set :=
  View.cover_of_tiledL (atRowEnd m c t h2 h3 r q).1.1 S1x1x1024.size (by sl_kernel_rfl) y
theorem rowCover_batchEnd (c : Dev nD) (t : Fin cfg0.N) (h3 : t.val % 16 = 15) (r : RowBlk F) (q : ColBlk F) (y : S1x1x1024.Idx) :
    ∃ p ∈ (atBatchEnd m c t h3 r q).1.1, y ∈ p.1.set :=
  View.cover_of_tiledL (atBatchEnd m c t h3 r q).1.1 S1x1x1024.size (by sl_kernel_rfl) y

/-- At a batch's first point the column block is reset whole, and at its last point finished whole. -/
theorem colCover_batchStart (c : Dev nD) (t : Fin cfg0.N) (h : t.val % 16 = 0) (y : S1x1x4096.Idx) :
    ∃ p ∈ (atBatchStart m c t h).1.2, y ∈ p.1.set :=
  View.cover_of_wholeMem (atBatchStart m c t h).1.2 (by unfold atBatchStart; sl_whole_mem) y
theorem colCover_batchEnd (c : Dev nD) (t : Fin cfg0.N) (h3 : t.val % 16 = 15) (r : RowBlk F) (q : ColBlk F) (y : S1x1x4096.Idx) :
    ∃ p ∈ (atBatchEnd m c t h3 r q).1.2, y ∈ p.1.set :=
  View.cover_of_wholeMem (atBatchEnd m c t h3 r q).1.2 (by unfold atBatchEnd; sl_whole_mem) y

end Cert.Kernel.Body

end
-- ==== Proof.BitsBody.Data.lean ====
/-
  The proof data of the pipeline and its frame run.

  After the body at point t the two input buffers hold the blocks of x and y the point reads; the row block
  and the column block hold what the recursion `outsAt` says: the case selected by the residues of t, run on
  those input blocks and, where the case goes on accumulating, on what the point before left.  With that
  data the body obligation holds at every point, so the whole program runs, leaves the arguments unchanged,
  and leaves the two result arrays at the blocks written back.
-/
import proofs.«154268_j6433861009596_2_alg».proof.Proof.BitsBody.Covers

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What one point leaves, from what the point before left -/

/-- The pair (row block, column block) after the body at point t, from the pair `prev` left before it. Only the
    cases that go on accumulating read `prev`. -/
def stepAt (c : Dev nD) (t : Fin cfg0.N) (prev : RowBlk F × ColBlk F) : RowBlk F × ColBlk F :=
  if h0 : t.val % 16 = 0 then
    (View.canon (atBatchStart m c t h0).1.1, View.canon (atBatchStart m c t h0).1.2)
  else if h1 : t.val % 4 = 0 then
    (View.canon (atRowStart m c t h0 h1 prev.2).1.1,
      (colMem t).view.read (Elt F) ((colMem t).view.writes (Elt F) ((colWhole t).unread prev.2) (atRowStart m c t h0 h1 prev.2).1.2))
  else if h2 : t.val % 4 = 3 then
    if h3 : t.val % 16 = 15 then
      (View.canon (atBatchEnd m c t h3 prev.1 prev.2).1.1, View.canon (atBatchEnd m c t h3 prev.1 prev.2).1.2)
    else
      (View.canon (atRowEnd m c t h2 h3 prev.1 prev.2).1.1,
        (colMem t).view.read (Elt F) ((colMem t).view.writes (Elt F) ((colWhole t).unread prev.2) (atRowEnd m c t h2 h3 prev.1 prev.2).1.2))
  else
    (View.canon (atMid m c t h1 h2 prev.1 prev.2).1.1,
      (colMem t).view.read (Elt F) ((colMem t).view.writes (Elt F) ((colWhole t).unread prev.2) (atMid m c t h1 h2 prev.1 prev.2).1.2))

/-- The two blocks after each point, by recursion on the point's number. -/
def outsAt (c : Dev nD) : (n : ℕ) → n < cfg0.N → RowBlk F × ColBlk F
  | 0, hn => stepAt m c ⟨0, hn⟩ (View.canon [], View.canon [])
  | n + 1, hn => stepAt m c ⟨n + 1, hn⟩ (outsAt c n (Nat.lt_of_succ_lt hn))

/-- Past the first point, `outsAt` is one step from the point before. -/
theorem outsAt_pos (c : Dev nD) (t : Fin cfg0.N) (ht : t.val ≠ 0) :
    outsAt m c t.val t.isLt = stepAt m c t (outsAt m c (t.val - 1) (Nat.lt_of_le_of_lt (Nat.sub_le _ _) t.isLt)) := by
  obtain ⟨n, hn⟩ := t
  cases n with
  | zero => exact absurd rfl ht
  | succ n => rfl

/-- The first point is one step from nothing. -/
theorem outsAt_zero (c : Dev nD) (t : Fin cfg0.N) (ht : t.val = 0) :
    outsAt m c t.val t.isLt = stepAt m c t (View.canon [], View.canon []) := by
  obtain ⟨n, hn⟩ := t
  cases n with
  | zero => rfl
  | succ n => exact absurd ht (Nat.succ_ne_zero n)

/-- At a batch's first point nothing of the past is read. -/
theorem stepAt_batchStart (c : Dev nD) (t : Fin cfg0.N) (h0 : t.val % 16 = 0) (prev : RowBlk F × ColBlk F) :
    stepAt m c t prev = (View.canon (atBatchStart m c t h0).1.1, View.canon (atBatchStart m c t h0).1.2) := by
  unfold stepAt; rw [dif_pos h0]

theorem outsAt_batchStart (c : Dev nD) (t : Fin cfg0.N) (h0 : t.val % 16 = 0) :
    outsAt m c t.val t.isLt = (View.canon (atBatchStart m c t h0).1.1, View.canon (atBatchStart m c t h0).1.2) := by
  by_cases ht : t.val = 0
  · rw [outsAt_zero m c t ht, stepAt_batchStart m c t h0]
  · rw [outsAt_pos m c t ht, stepAt_batchStart m c t h0]

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).1
    | ⟨3, _⟩ => (outsAt m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after_x (c : Dev nD) (t : Fin cfg0.N) : (dats m 0 c).after 0 t = iblk m c 0 t := by dsimp only [dats]
theorem after_y (c : Dev nD) (t : Fin cfg0.N) : (dats m 0 c).after 1 t = iblk m c 1 t := by dsimp only [dats]
theorem after_row (c : Dev nD) (t : Fin cfg0.N) : (dats m 0 c).after 2 t = (outsAt m c t.val t.isLt).1 := by dsimp only [dats]
theorem after_col (c : Dev nD) (t : Fin cfg0.N) : (dats m 0 c).after 3 t = (outsAt m c t.val t.isLt).2 := by dsimp only [dats]

/-- The inputs' buffers hold their blocks at every point. -/
theorem before_x (c : Dev nD) (t : Fin cfg0.N) (d) : (dats m 0 c).before 0 t d = iblk m c 0 t :=
  before0_0_of m (dats m 0 c) (A_eq m c 0) (after_x m c) t d
theorem before_y (c : Dev nD) (t : Fin cfg0.N) (d) : (dats m 0 c).before 1 t d = iblk m c 1 t :=
  before0_1_of m (dats m 0 c) (A_eq m c 1) (after_y m c) t d

/-- Within a row block's four points the row buffer is not written back: it holds what the point before left. -/
theorem before_row (c : Dev nD) (t : Fin cfg0.N) (h1 : ¬t.val % 4 = 0) (d) :
    (dats m 0 c).before 2 t d = (outsAt m c (t.val - 1) (Nat.lt_of_le_of_lt (Nat.sub_le _ _) t.isLt)).1 := by
  have hN : t.val < 128 := lt_of_lt_of_eq t.isLt (show cfg0.N = 128 from N_0)
  rw [Dat.before_out_kept _ 2 rfl t (by omega) (Bool.eq_false_iff.mpr fun h => by have := (flush0_2 _).mp h; dsimp only at this; omega)
    (fun _ => rfl) (fun _ _ => rfl)]
  dsimp only [dats]

/-- Within a batch's sixteen points the column buffer is not written back: it holds what the point before left. -/
theorem before_col (c : Dev nD) (t : Fin cfg0.N) (h0 : ¬t.val % 16 = 0) (d) :
    (dats m 0 c).before 3 t d = (outsAt m c (t.val - 1) (Nat.lt_of_le_of_lt (Nat.sub_le _ _) t.isLt)).2 := by
  have hN : t.val < 128 := lt_of_lt_of_eq t.isLt (show cfg0.N = 128 from N_0)
  rw [Dat.before_out_kept _ 3 rfl t (by omega) (Bool.eq_false_iff.mpr fun h => by have := (flush0_3 _).mp h; dsimp only at this; omega)
    (fun _ => rfl) (fun _ _ => rfl)]
  dsimp only [dats]

end Cert.Kernel.Body

end
-- ==== Proof.BitsBody.Frame.lean ====
/-
  The body obligation at every point, the frame run, and the frame.
-/
import proofs.«154268_j6433861009596_2_alg».proof.Proof.BitsBody.Data

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point t: the class invariant, nothing owed, each window's buffer at what the
    proof data says it holds. -/
def bodyPre (c : Dev nD) (t : Fin cfg0.N) : sProp 𝕄 :=
  iprop((dats m 0 c).Φ t.castSucc ∗ (dats m 0 c).owesAt () t.castSucc
    ∗ (∃ d, owns (c : Thread nD τ) (xMem t) fullShare ((dats m 0 c).before 0 t d))
    ∗ (∃ d, owns (c : Thread nD τ) (yMem t) fullShare ((dats m 0 c).before 1 t d))
    ∗ (∃ d, owns (c : Thread nD τ) (rowMem t) fullShare ((dats m 0 c).before 2 t d))
    ∗ (∃ d, owns (c : Thread nD τ) (colMem t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (xMem t) fullShare ((dats m 0 c).after 0 t)
    ∗ owns (c : Thread nD τ) (yMem t) fullShare ((dats m 0 c).after 1 t)
    ∗ owns (c : Thread nD τ) (rowMem t) fullShare ((dats m 0 c).after 2 t)
    ∗ owns (c : Thread nD τ) (colMem t) fullShare ((dats m 0 c).after 3 t))

set_option maxHeartbeats 2000000 in
/-- The body at any point: the residues of t say which case runs; an accumulator the case goes on with holds what
    the point before left; the case's run then gives the contents `outsAt` names. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x, before_y]
  rw [show (dats m 0 c).Φ t.succ = (dats m 0 c).Φ t.castSucc from rfl,
    show (dats m 0 c).owesAt () t.succ = (dats m 0 c).owesAt () t.castSucc from rfl,
    after_x, after_y, after_row, after_col]
  have hN : t.val < 128 := lt_of_lt_of_eq t.isLt (show cfg0.N = 128 from N_0)
  by_cases h0 : t.val % 16 = 0
  · rw [outsAt_batchStart m c t h0]
    dsimp only
    iintro ⟨HΦ, Ho, ⟨%d0, H0⟩, ⟨%d1, H1⟩, ⟨%d2, H2⟩, ⟨%d3, H3⟩⟩
    iapply ((atBatchStart m c t h0).2 _ _ Set.univ _)
    isplitl [H0]; · iexact H0
    isplitl [H1]; · iexact H1
    isplitl [H2]; · iexact H2
    isplitl [H3]; · iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_eq_canon _ _ _ (rowCover_batchStart m c t h0)
    unfold owns; iexists _; isplitr
    swap; · iexact H3
    ipureintro; exact View.read_writes_eq_canon _ _ _ (colCover_batchStart m c t h0)
  · have ht : t.val ≠ 0 := fun h => h0 (by rw [h])
    rw [outsAt_pos m c t ht]
    simp only [before_col m c t h0]
    by_cases h1 : t.val % 4 = 0
    · unfold stepAt; rw [dif_neg h0, dif_pos h1]
      dsimp only
      iintro ⟨HΦ, Ho, ⟨%d0, H0⟩, ⟨%d1, H1⟩, ⟨%d2, H2⟩, ⟨%d3, H3⟩⟩
      iapply ((atRowStart m c t h0 h1 _).2 _ Set.univ _)
      isplitl [H0]; · iexact H0
      isplitl [H1]; · iexact H1
      isplitl [H2]; · iexact H2
      isplitl [H3]; · iexact H3
      iintro ⟨H0, H1, ⟨%e2, H2⟩, H3⟩
      isplitl [HΦ]; · iexact HΦ
      isplitl [Ho]; · iexact Ho
      isplitl [H0]; · iexact H0
      isplitl [H1]; · iexact H1
      isplitl [H2]
      · unfold owns; iexists _; isplitr
        swap; · iexact H2
        ipureintro; exact View.read_writes_eq_canon _ _ _ (rowCover_rowStart m c t h0 h1 _)
      unfold owns; iexists _; isplitr
      swap; · iexact H3
      ipureintro; rfl
    · simp only [before_row m c t h1]
      by_cases h2 : t.val % 4 = 3
      · by_cases h3 : t.val % 16 = 15
        · unfold stepAt; rw [dif_neg h0, dif_neg h1, dif_pos h2, dif_pos h3]
          dsimp only
          iintro ⟨HΦ, Ho, ⟨%d0, H0⟩, ⟨%d1, H1⟩, ⟨%d2, H2⟩, ⟨%d3, H3⟩⟩
          iapply ((atBatchEnd m c t h3 _ _).2 Set.univ _)
          isplitl [H0]; · iexact H0
          isplitl [H1]; · iexact H1
          isplitl [H2]; · iexact H2
          isplitl [H3]; · iexact H3
          iintro ⟨H0, H1, ⟨%e2, H2⟩, ⟨%e3, H3⟩⟩
          isplitl [HΦ]; · iexact HΦ
          isplitl [Ho]; · iexact Ho
          isplitl [H0]; · iexact H0
          isplitl [H1]; · iexact H1
          isplitl [H2]
          · unfold owns; iexists _; isplitr
            swap; · iexact H2
            ipureintro; exact View.read_writes_eq_canon _ _ _ (rowCover_batchEnd m c t h3 _ _)
          unfold owns; iexists _; isplitr
          swap; · iexact H3
          ipureintro; exact View.read_writes_eq_canon _ _ _ (colCover_batchEnd m c t h3 _ _)
        · unfold stepAt; rw [dif_neg h0, dif_neg h1, dif_pos h2, dif_neg h3]
          dsimp only
          iintro ⟨HΦ, Ho, ⟨%d0, H0⟩, ⟨%d1, H1⟩, ⟨%d2, H2⟩, ⟨%d3, H3⟩⟩
          iapply ((atRowEnd m c t h2 h3 _ _).2 Set.univ _)
          isplitl [H0]; · iexact H0
          isplitl [H1]; · iexact H1
          isplitl [H2]; · iexact H2
          isplitl [H3]; · iexact H3
          iintro ⟨H0, H1, ⟨%e2, H2⟩, H3⟩
          isplitl [HΦ]; · iexact HΦ
          isplitl [Ho]; · iexact Ho
          isplitl [H0]; · iexact H0
          isplitl [H1]; · iexact H1
          isplitl [H2]
          · unfold owns; iexists _; isplitr
            swap; · iexact H2
            ipureintro; exact View.read_writes_eq_canon _ _ _ (rowCover_rowEnd m c t h2 h3 _ _)
          unfold owns; iexists _; isplitr
          swap; · iexact H3
          ipureintro; rfl
      · unfold stepAt; rw [dif_neg h0, dif_neg h1, dif_neg h2]
        dsimp only
        iintro ⟨HΦ, Ho, ⟨%d0, H0⟩, ⟨%d1, H1⟩, ⟨%d2, H2⟩, ⟨%d3, H3⟩⟩
        iapply ((atMid m c t h1 h2 _ _).2 Set.univ _)
        isplitl [H0]; · iexact H0
        isplitl [H1]; · iexact H1
        isplitl [H2]; · iexact H2
        isplitl [H3]; · iexact H3
        iintro ⟨H0, H1, ⟨%e2, H2⟩, H3⟩
        isplitl [HΦ]; · iexact HΦ
        isplitl [Ho]; · iexact Ho
        isplitl [H0]; · iexact H0
        isplitl [H1]; · iexact H1
        isplitl [H2]
        · unfold owns; iexists _; isplitr
          swap; · iexact H2
          ipureintro; exact View.read_writes_eq_canon _ _ _ (rowCover_mid m c t h1 h2 _ _)
        unfold owns; iexists _; isplitr
        swap; · iexact H3
        ipureintro; rfl

/-- The library's body obligation, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- From any memory with zero counters every weakly fair execution of the program terminates, with the two
    argument arrays and the two result arrays at what the library computes from the proof data, and every other
    buffer at what the operations after the region make of them. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs and leaves its two arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.IdealBody.Conds.lean ====
/-
  The grid is (batch b, row block n, column block m) = 8 × 4 × 4, run in that order, so point t has
  m = t mod 4 and n = (t / 4) mod 4.  The body branches four times on the coordinates:
  it resets the column-minimum block when n = 0 and m = 0, resets the row-minimum block when m = 0,
  finishes the row block (sqrt of the positive part) when m = 3 and finishes the column block when
  n = 3 and m = 3.  Each condition is the body's own scalar chain over the coordinates; here each is
  named and decided over the grid as a residue of the point's number.
-/
import proofs.«154268_j6433861009596_2_alg».proof.Proof.Gen.KernelIdeal.Frame
import proofs.«154268_j6433861009596_2_alg».proof.Proof.Gen.KernelIdeal.Skeleton
import Idealize.ShloMosaic.Lib.WritesUnit

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- n = 0 and m = 0: the first point of a batch, where the column minima are reset. -/
abbrev batchStart (i : grid0.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
theorem batchStart_iff : ∀ t : Fin cfg0.N, batchStart (grid0.coords t) ↔ t.val % 16 = 0 :=
  (by decide +kernel : ∀ t : Fin grid0.N, batchStart (grid0.coords t) ↔ t.val % 16 = 0)

/-- m = 0: the first column block of a row block, where the row minima are reset. -/
abbrev rowStart (i : grid0.Coords) : Prop :=
  (Scalar.cmpi .ne (Scalar.extui (Scalar.cmpi .eq (BitVec.ofNat 32 (i 2).val) 0#32)) 0#32) = 1#1
theorem rowStart_iff : ∀ t : Fin cfg0.N, rowStart (grid0.coords t) ↔ t.val % 4 = 0 :=
  (by decide +kernel : ∀ t : Fin grid0.N, rowStart (grid0.coords t) ↔ t.val % 4 = 0)

/-- m = 3: the last column block of a row block, where the row minima are finished. -/
abbrev rowEnd (i : grid0.Coords) : Prop :=
  (Scalar.cmpi .ne (Scalar.extui (Scalar.cmpi .eq (BitVec.ofNat 32 (i 2).val) 3#32)) 0#32) = 1#1
theorem rowEnd_iff : ∀ t : Fin cfg0.N, rowEnd (grid0.coords t) ↔ t.val % 4 = 3 :=
  (by decide +kernel : ∀ t : Fin grid0.N, rowEnd (grid0.coords t) ↔ t.val % 4 = 3)

/-- n = 3 and m = 3: the last point of a batch, where the column minima are finished. -/
abbrev batchEnd (i : grid0.Coords) : Prop :=
  (Scalar.cmpi .ne (Scalar.extui (Scalar.andi (Scalar.cmpi .eq (BitVec.ofNat 32 (i 1).val) 3#32) (Scalar.cmpi .eq (BitVec.ofNat 32 (i 2).val) 3#32))) 0#32) = 1#1
theorem batchEnd_iff : ∀ t : Fin cfg0.N, batchEnd (grid0.coords t) ↔ t.val % 16 = 15 :=
  (by decide +kernel : ∀ t : Fin grid0.N, batchEnd (grid0.coords t) ↔ t.val % 16 = 15)

/-- The staging memref each window is on at point t, as the pipeline passes it to the body. -/
abbrev xMem (t : Fin cfg0.N) : Memref sig .tc .vmem S1x1024x64 .f32 := win0_0.stage (cfg0.slots t 0)
abbrev xWhole (t : Fin cfg0.N) : (xMem t).IsWhole := hstage0_0 ((cfg0.slots t 0).cast nbuf0_0)
abbrev yMem (t : Fin cfg0.N) : Memref sig .tc .vmem S1x1024x64 .f32 := win0_1.stage (cfg0.slots t 1)
abbrev yWhole (t : Fin cfg0.N) : (yMem t).IsWhole := hstage0_1 ((cfg0.slots t 1).cast nbuf0_1)
abbrev rowMem (t : Fin cfg0.N) : Memref sig .tc .vmem S1x1x1024 .f32 := win0_2.stage (cfg0.slots t 2)
abbrev rowWhole (t : Fin cfg0.N) : (rowMem t).IsWhole := hstage0_2 ((cfg0.slots t 2).cast nbuf0_2)
abbrev colMem (t : Fin cfg0.N) : Memref sig .tc .vmem S1x1x4096 .f32 := win0_3.stage (cfg0.slots t 3)
abbrev colWhole (t : Fin cfg0.N) : (colMem t).IsWhole := hstage0_3 ((cfg0.slots t 3).cast nbuf0_3)

end Cert.KernelIdeal.Body

end
-- ==== Proof.IdealBody.RunBatchStart.lean ====
/- The body at the first point of a batch (n = 0, m = 0): both accumulators are reset before they are used, so
   nothing of what the two output buffers held before matters. -/
import proofs.«154268_j6433861009596_2_alg».proof.Proof.IdealBody.Conds

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body's run at such a point, on whole staging memrefs: the stores it makes into the row block and the column
    block, as lists of (rectangle, payload) pieces, newest first, with the proof that the body runs from the
    blocks' contents to the continuation holding the input blocks unchanged and the two output buffers with those
    pieces written. The pieces are found by running the body symbolically. -/
noncomputable def runBatchStart (c : Dev nD) (i : grid0.Coords) (arg3 : Memref sig .tc .vmem S1x1024x64 .f32) (harg3 : arg3.IsWhole) (arg4 : Memref sig .tc .vmem S1x1024x64 .f32) (harg4 : arg4.IsWhole) (arg5 : Memref sig .tc .vmem S1x1x1024 .f32) (harg5 : arg5.IsWhole) (arg6 : Memref sig .tc .vmem S1x1x4096 .f32) (harg6 : arg6.IsWhole)
    (h0 : batchStart i) (h1 : rowStart i) (h2 : ¬rowEnd i) (h3 : ¬batchEnd i)
    (x y : Vec F S1x1024x64 .f32) :
    { L : List (View.Piece (Elt F) S1x1x1024 .f32) × List (View.Piece (Elt F) S1x1x4096 .f32) //
      ∀ (r : Vec F S1x1x1024 .f32) (q : Vec F S1x1x4096 .f32) (E : Set ℕ) (K : PUnit → sProp 𝕄),
        iprop(owns (c : Thread nD τ) arg3 fullShare x ∗ owns (c : Thread nD τ) arg4 fullShare y
            ∗ owns (c : Thread nD τ) arg5 fullShare r ∗ owns (c : Thread nD τ) arg6 fullShare q
            ∗ (iprop(owns (c : Thread nD τ) arg3 fullShare x ∗ owns (c : Thread nD τ) arg4 fullShare y
                ∗ (∃ f, arg5.view.loc (c : Thread nD τ) ↦[arg5.view.set]{fullShare} arg5.view.writes (Elt F) f L.1)
                ∗ (∃ f, arg6.view.loc (c : Thread nD τ) ↦[arg6.view.set]{fullShare} arg6.view.writes (Elt F) f L.2)) -∗ K ⟨⟩))
          ⊢ wp frame (wpE (defs₀ (F := F)) Variants.none c none) E (cc0__chamfer_kernel i arg3 harg3 arg4 harg4 arg5 harg5 arg6 harg6) K } := by
  refine ⟨(?_, ?_), fun r q E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1
    obtain rfl := harg5.eq_unread hf2; obtain rfl := harg6.eq_unread hf3
    sl_exec (disch := first | exact h0 | exact h1 | exact h2 | exact h3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    iexists _; iexact H3

end Cert.KernelIdeal.Body

end
-- ==== Proof.IdealBody.RunRowStart.lean ====
/- The body at the first column block of a later row block (m = 0, n > 0): the row minima are reset, the column
   minima go on from what the point before left. -/
import proofs.«154268_j6433861009596_2_alg».proof.Proof.IdealBody.Conds

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body's run at such a point, on whole staging memrefs: the stores it makes into the row block and the column
    block, as lists of (rectangle, payload) pieces, newest first, with the proof that the body runs from the
    blocks' contents to the continuation holding the input blocks unchanged and the two output buffers with those
    pieces written. The pieces are found by running the body symbolically. -/
noncomputable def runRowStart (c : Dev nD) (i : grid0.Coords) (arg3 : Memref sig .tc .vmem S1x1024x64 .f32) (harg3 : arg3.IsWhole) (arg4 : Memref sig .tc .vmem S1x1024x64 .f32) (harg4 : arg4.IsWhole) (arg5 : Memref sig .tc .vmem S1x1x1024 .f32) (harg5 : arg5.IsWhole) (arg6 : Memref sig .tc .vmem S1x1x4096 .f32) (harg6 : arg6.IsWhole)
    (h0 : ¬batchStart i) (h1 : rowStart i) (h2 : ¬rowEnd i) (h3 : ¬batchEnd i)
    (x y : Vec F S1x1024x64 .f32) (q : Vec F S1x1x4096 .f32) :
    { L : List (View.Piece (Elt F) S1x1x1024 .f32) × List (View.Piece (Elt F) S1x1x4096 .f32) //
      ∀ (r : Vec F S1x1x1024 .f32) (E : Set ℕ) (K : PUnit → sProp 𝕄),
        iprop(owns (c : Thread nD τ) arg3 fullShare x ∗ owns (c : Thread nD τ) arg4 fullShare y
            ∗ owns (c : Thread nD τ) arg5 fullShare r ∗ owns (c : Thread nD τ) arg6 fullShare q
            ∗ (iprop(owns (c : Thread nD τ) arg3 fullShare x ∗ owns (c : Thread nD τ) arg4 fullShare y
                ∗ (∃ f, arg5.view.loc (c : Thread nD τ) ↦[arg5.view.set]{fullShare} arg5.view.writes (Elt F) f L.1)
                ∗ (arg6.view.loc (c : Thread nD τ) ↦[arg6.view.set]{fullShare} arg6.view.writes (Elt F) (harg6.unread q) L.2)) -∗ K ⟨⟩))
          ⊢ wp frame (wpE (defs₀ (F := F)) Variants.none c none) E (cc0__chamfer_kernel i arg3 harg3 arg4 harg4 arg5 harg5 arg6 harg6) K } := by
  refine ⟨(?_, ?_), fun r E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1
    obtain rfl := harg5.eq_unread hf2; obtain rfl := harg6.eq_unread hf3
    sl_exec (disch := first | exact h0 | exact h1 | exact h2 | exact h3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    iexact H3

end Cert.KernelIdeal.Body

end
-- ==== Proof.IdealBody.RunMid.lean ====
/- The body at a middle column block (m = 1 or 2): both accumulators go on from what the point before left. -/
import proofs.«154268_j6433861009596_2_alg».proof.Proof.IdealBody.Conds

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body's run at such a point, on whole staging memrefs: the stores it makes into the row block and the column
    block, as lists of (rectangle, payload) pieces, newest first, with the proof that the body runs from the
    blocks' contents to the continuation holding the input blocks unchanged and the two output buffers with those
    pieces written. The pieces are found by running the body symbolically. -/
noncomputable def runMid (c : Dev nD) (i : grid0.Coords) (arg3 : Memref sig .tc .vmem S1x1024x64 .f32) (harg3 : arg3.IsWhole) (arg4 : Memref sig .tc .vmem S1x1024x64 .f32) (harg4 : arg4.IsWhole) (arg5 : Memref sig .tc .vmem S1x1x1024 .f32) (harg5 : arg5.IsWhole) (arg6 : Memref sig .tc .vmem S1x1x4096 .f32) (harg6 : arg6.IsWhole)
    (h0 : ¬batchStart i) (h1 : ¬rowStart i) (h2 : ¬rowEnd i) (h3 : ¬batchEnd i)
    (x y : Vec F S1x1024x64 .f32) (r : Vec F S1x1x1024 .f32) (q : Vec F S1x1x4096 .f32) :
    { L : List (View.Piece (Elt F) S1x1x1024 .f32) × List (View.Piece (Elt F) S1x1x4096 .f32) //
      ∀ (E : Set ℕ) (K : PUnit → sProp 𝕄),
        iprop(owns (c : Thread nD τ) arg3 fullShare x ∗ owns (c : Thread nD τ) arg4 fullShare y
            ∗ owns (c : Thread nD τ) arg5 fullShare r ∗ owns (c : Thread nD τ) arg6 fullShare q
            ∗ (iprop(owns (c : Thread nD τ) arg3 fullShare x ∗ owns (c : Thread nD τ) arg4 fullShare y
                ∗ (∃ f, arg5.view.loc (c : Thread nD τ) ↦[arg5.view.set]{fullShare} arg5.view.writes (Elt F) f L.1)
                ∗ (arg6.view.loc (c : Thread nD τ) ↦[arg6.view.set]{fullShare} arg6.view.writes (Elt F) (harg6.unread q) L.2)) -∗ K ⟨⟩))
          ⊢ wp frame (wpE (defs₀ (F := F)) Variants.none c none) E (cc0__chamfer_kernel i arg3 harg3 arg4 harg4 arg5 harg5 arg6 harg6) K } := by
  refine ⟨(?_, ?_), fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1
    obtain rfl := harg5.eq_unread hf2; obtain rfl := harg6.eq_unread hf3
    sl_exec (disch := first | exact h0 | exact h1 | exact h2 | exact h3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    iexact H3

end Cert.KernelIdeal.Body

end
-- ==== Proof.IdealBody.RunRowEnd.lean ====
/- The body at the last column block of a row block that is not the batch's last (m = 3, n < 3): the row minima
   are finished by the root of the positive part. -/
import proofs.«154268_j6433861009596_2_alg».proof.Proof.IdealBody.Conds

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body's run at such a point, on whole staging memrefs: the stores it makes into the row block and the column
    block, as lists of (rectangle, payload) pieces, newest first, with the proof that the body runs from the
    blocks' contents to the continuation holding the input blocks unchanged and the two output buffers with those
    pieces written. The pieces are found by running the body symbolically. -/
noncomputable def runRowEnd (c : Dev nD) (i : grid0.Coords) (arg3 : Memref sig .tc .vmem S1x1024x64 .f32) (harg3 : arg3.IsWhole) (arg4 : Memref sig .tc .vmem S1x1024x64 .f32) (harg4 : arg4.IsWhole) (arg5 : Memref sig .tc .vmem S1x1x1024 .f32) (harg5 : arg5.IsWhole) (arg6 : Memref sig .tc .vmem S1x1x4096 .f32) (harg6 : arg6.IsWhole)
    (h0 : ¬batchStart i) (h1 : ¬rowStart i) (h2 : rowEnd i) (h3 : ¬batchEnd i)
    (x y : Vec F S1x1024x64 .f32) (r : Vec F S1x1x1024 .f32) (q : Vec F S1x1x4096 .f32) :
    { L : List (View.Piece (Elt F) S1x1x1024 .f32) × List (View.Piece (Elt F) S1x1x4096 .f32) //
      ∀ (E : Set ℕ) (K : PUnit → sProp 𝕄),
        iprop(owns (c : Thread nD τ) arg3 fullShare x ∗ owns (c : Thread nD τ) arg4 fullShare y
            ∗ owns (c : Thread nD τ) arg5 fullShare r ∗ owns (c : Thread nD τ) arg6 fullShare q
            ∗ (iprop(owns (c : Thread nD τ) arg3 fullShare x ∗ owns (c : Thread nD τ) arg4 fullShare y
                ∗ (∃ f, arg5.view.loc (c : Thread nD τ) ↦[arg5.view.set]{fullShare} arg5.view.writes (Elt F) f L.1)
                ∗ (arg6.view.loc (c : Thread nD τ) ↦[arg6.view.set]{fullShare} arg6.view.writes (Elt F) (harg6.unread q) L.2)) -∗ K ⟨⟩))
          ⊢ wp frame (wpE (defs₀ (F := F)) Variants.none c none) E (cc0__chamfer_kernel i arg3 harg3 arg4 harg4 arg5 harg5 arg6 harg6) K } := by
  refine ⟨(?_, ?_), fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1
    obtain rfl := harg5.eq_unread hf2; obtain rfl := harg6.eq_unread hf3
    sl_exec (disch := first | exact h0 | exact h1 | exact h2 | exact h3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    iexact H3

end Cert.KernelIdeal.Body

end
-- ==== Proof.IdealBody.RunBatchEnd.lean ====
/- The body at the last point of a batch (n = 3, m = 3): the row minima and then the column minima are finished
   by the root of the positive part; the finishing store covers the whole column block. -/
import proofs.«154268_j6433861009596_2_alg».proof.Proof.IdealBody.Conds

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body's run at such a point, on whole staging memrefs: the stores it makes into the row block and the column
    block, as lists of (rectangle, payload) pieces, newest first, with the proof that the body runs from the
    blocks' contents to the continuation holding the input blocks unchanged and the two output buffers with those
    pieces written. The pieces are found by running the body symbolically. -/
noncomputable def runBatchEnd (c : Dev nD) (i : grid0.Coords) (arg3 : Memref sig .tc .vmem S1x1024x64 .f32) (harg3 : arg3.IsWhole) (arg4 : Memref sig .tc .vmem S1x1024x64 .f32) (harg4 : arg4.IsWhole) (arg5 : Memref sig .tc .vmem S1x1x1024 .f32) (harg5 : arg5.IsWhole) (arg6 : Memref sig .tc .vmem S1x1x4096 .f32) (harg6 : arg6.IsWhole)
    (h0 : ¬batchStart i) (h1 : ¬rowStart i) (h2 : rowEnd i) (h3 : batchEnd i)
    (x y : Vec F S1x1024x64 .f32) (r : Vec F S1x1x1024 .f32) (q : Vec F S1x1x4096 .f32) :
    { L : List (View.Piece (Elt F) S1x1x1024 .f32) × List (View.Piece (Elt F) S1x1x4096 .f32) //
      ∀ (E : Set ℕ) (K : PUnit → sProp 𝕄),
        iprop(owns (c : Thread nD τ) arg3 fullShare x ∗ owns (c : Thread nD τ) arg4 fullShare y
            ∗ owns (c : Thread nD τ) arg5 fullShare r ∗ owns (c : Thread nD τ) arg6 fullShare q
            ∗ (iprop(owns (c : Thread nD τ) arg3 fullShare x ∗ owns (c : Thread nD τ) arg4 fullShare y
                ∗ (∃ f, arg5.view.loc (c : Thread nD τ) ↦[arg5.view.set]{fullShare} arg5.view.writes (Elt F) f L.1)
                ∗ (∃ f, arg6.view.loc (c : Thread nD τ) ↦[arg6.view.set]{fullShare} arg6.view.writes (Elt F) f L.2)) -∗ K ⟨⟩))
          ⊢ wp frame (wpE (defs₀ (F := F)) Variants.none c none) E (cc0__chamfer_kernel i arg3 harg3 arg4 harg4 arg5 harg5 arg6 harg6) K } := by
  refine ⟨(?_, ?_), fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1
    obtain rfl := harg5.eq_unread hf2; obtain rfl := harg6.eq_unread hf3
    sl_exec (disch := first | exact h0 | exact h1 | exact h2 | exact h3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    iexists _; iexact H3

end Cert.KernelIdeal.Body

end
-- ==== Proof.IdealBody.Covers.lean ====
/-
  What the two output buffers hold after the body at every grid point.

  The row-minimum block (1 × 1 × 1024) is reset at m = 0 and written back after m = 3; the column-minimum
  block (1 × 1 × 4096) is reset at n = 0, m = 0 and written back after n = 3, m = 3.  In between each point
  finds what the point before left.  So the contents are defined by recursion on the point's number: the
  case the residues of t select, run on the blocks of x and y at t and on the contents left at t − 1.
-/
import proofs.«154268_j6433861009596_2_alg».proof.Proof.IdealBody.RunBatchStart
import proofs.«154268_j6433861009596_2_alg».proof.Proof.IdealBody.RunRowStart
import proofs.«154268_j6433861009596_2_alg».proof.Proof.IdealBody.RunMid
import proofs.«154268_j6433861009596_2_alg».proof.Proof.IdealBody.RunRowEnd
import proofs.«154268_j6433861009596_2_alg».proof.Proof.IdealBody.RunBatchEnd

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The contents of a row block and of a column block. -/
abbrev RowBlk (F : FTy → Type) := Vec F S1x1x1024 .f32
abbrev ColBlk (F : FTy → Type) := Vec F S1x1x4096 .f32

/-! ## Each case's run at a point, from the residues of the point's number -/

def atBatchStart (c : Dev nD) (t : Fin cfg0.N) (h : t.val % 16 = 0) :=
  runBatchStart (F := F) c (grid0.coords t) (xMem t) (xWhole t) (yMem t) (yWhole t) (rowMem t) (rowWhole t) (colMem t) (colWhole t)
    ((batchStart_iff t).mpr h) ((rowStart_iff t).mpr (by omega)) (fun h => by have := (rowEnd_iff t).mp h; omega) (fun h => by have := (batchEnd_iff t).mp h; omega) (iblk m c 0 t) (iblk m c 1 t)

def atRowStart (c : Dev nD) (t : Fin cfg0.N) (h0 : ¬t.val % 16 = 0) (h1 : t.val % 4 = 0) (q : ColBlk F) :=
  runRowStart (F := F) c (grid0.coords t) (xMem t) (xWhole t) (yMem t) (yWhole t) (rowMem t) (rowWhole t) (colMem t) (colWhole t)
    (fun h => h0 ((batchStart_iff t).mp h)) ((rowStart_iff t).mpr h1) (fun h => by have := (rowEnd_iff t).mp h; omega) (fun h => by have := (batchEnd_iff t).mp h; omega) (iblk m c 0 t) (iblk m c 1 t) q

def atMid (c : Dev nD) (t : Fin cfg0.N) (h1 : ¬t.val % 4 = 0) (h2 : ¬t.val % 4 = 3) (r : RowBlk F) (q : ColBlk F) :=
  runMid (F := F) c (grid0.coords t) (xMem t) (xWhole t) (yMem t) (yWhole t) (rowMem t) (rowWhole t) (colMem t) (colWhole t)
    (fun h => by have := (batchStart_iff t).mp h; omega) (fun h => h1 ((rowStart_iff t).mp h)) (fun h => h2 ((rowEnd_iff t).mp h)) (fun h => by have := (batchEnd_iff t).mp h; omega) (iblk m c 0 t) (iblk m c 1 t) r q

def atRowEnd (c : Dev nD) (t : Fin cfg0.N) (h2 : t.val % 4 = 3) (h3 : ¬t.val % 16 = 15) (r : RowBlk F) (q : ColBlk F) :=
  runRowEnd (F := F) c (grid0.coords t) (xMem t) (xWhole t) (yMem t) (yWhole t) (rowMem t) (rowWhole t) (colMem t) (colWhole t)
    (fun h => by have := (batchStart_iff t).mp h; omega) (fun h => by have := (rowStart_iff t).mp h; omega) ((rowEnd_iff t).mpr h2) (fun h => h3 ((batchEnd_iff t).mp h)) (iblk m c 0 t) (iblk m c 1 t) r q

def atBatchEnd (c : Dev nD) (t : Fin cfg0.N) (h3 : t.val % 16 = 15) (r : RowBlk F) (q : ColBlk F) :=
  runBatchEnd (F := F) c (grid0.coords t) (xMem t) (xWhole t) (yMem t) (yWhole t) (rowMem t) (rowWhole t) (colMem t) (colWhole t)
    (fun h => by have := (batchStart_iff t).mp h; omega) (fun h => by have := (rowStart_iff t).mp h; omega) ((rowEnd_iff t).mpr (by omega)) ((batchEnd_iff t).mpr h3) (iblk m c 0 t) (iblk m c 1 t) r q

/-! ## The stores cover the blocks they must -/

/-- In every case the row block is stored whole, so its pieces cover it. -/
theorem rowCover_batchStart (c : Dev nD) (t : Fin cfg0.N) (h : t.val % 16 = 0) (y : S1x1x1024.Idx) :
    ∃ p ∈ (atBatchStart m c t h).1.1, y ∈ p.1.set :=
  View.cover_of_tiledL (atBatchStart m c t h).1.1 S1x1x1024.size (by sl_kernel_rfl) y
theorem rowCover_rowStart (c : Dev nD) (t : Fin cfg0.N) (h0 : ¬t.val % 16 = 0) (h1 : t.val % 4 = 0) (q : ColBlk F) (y : S1x1x1024.Idx) :
    ∃ p ∈ (atRowStart m c t h0 h1 q).1.1, y ∈ p.1.set :=
  View.cover_of_tiledL (atRowStart m c t h0 h1 q).1.1 S1x1x1024.size (by sl_kernel_rfl) y
theorem rowCover_mid (c : Dev nD) (t : Fin cfg0.N) (h1 : ¬t.val % 4 = 0) (h2 : ¬t.val % 4 = 3) (r : RowBlk F) (q : ColBlk F) (y : S1x1x1024.Idx) :
    ∃ p ∈ (atMid m c t h1 h2 r q).1.1, y ∈ p.1.set :=
  View.cover_of_tiledL (atMid m c t h1 h2 r q).1.1 S1x1x1024.size (by sl_kernel_rfl) y
theorem rowCover_rowEnd (c : Dev nD) (t : Fin cfg0.N) (h2 : t.val % 4 = 3) (h3 : ¬t.val % 16 = 15) (r : RowBlk F) (q : ColBlk F) (y : S1x1x1024.Idx) :
    ∃ p ∈ (atRowEnd m c t h2 h3 r q).1.1, y ∈ p.1.set :=
  View.cover_of_tiledL (atRowEnd m c t h2 h3 r q).1.1 S1x1x1024.size (by sl_kernel_rfl) y
theorem rowCover_batchEnd (c : Dev nD) (t : Fin cfg0.N) (h3 : t.val % 16 = 15) (r : RowBlk F) (q : ColBlk F) (y : S1x1x1024.Idx) :
    ∃ p ∈ (atBatchEnd m c t h3 r q).1.1, y ∈ p.1.set :=
  View.cover_of_tiledL (atBatchEnd m c t h3 r q).1.1 S1x1x1024.size (by sl_kernel_rfl) y

/-- At a batch's first point the column block is reset whole, and at its last point finished whole. -/
theorem colCover_batchStart (c : Dev nD) (t : Fin cfg0.N) (h : t.val % 16 = 0) (y : S1x1x4096.Idx) :
    ∃ p ∈ (atBatchStart m c t h).1.2, y ∈ p.1.set :=
  View.cover_of_wholeMem (atBatchStart m c t h).1.2 (by unfold atBatchStart; sl_whole_mem) y
theorem colCover_batchEnd (c : Dev nD) (t : Fin cfg0.N) (h3 : t.val % 16 = 15) (r : RowBlk F) (q : ColBlk F) (y : S1x1x4096.Idx) :
    ∃ p ∈ (atBatchEnd m c t h3 r q).1.2, y ∈ p.1.set :=
  View.cover_of_wholeMem (atBatchEnd m c t h3 r q).1.2 (by unfold atBatchEnd; sl_whole_mem) y

end Cert.KernelIdeal.Body

end
-- ==== Proof.IdealBody.Data.lean ====
/-
  The proof data of the pipeline and its frame run.

  After the body at point t the two input buffers hold the blocks of x and y the point reads; the row block
  and the column block hold what the recursion `outsAt` says: the case selected by the residues of t, run on
  those input blocks and, where the case goes on accumulating, on what the point before left.  With that
  data the body obligation holds at every point, so the whole program runs, leaves the arguments unchanged,
  and leaves the two result arrays at the blocks written back.
-/
import proofs.«154268_j6433861009596_2_alg».proof.Proof.IdealBody.Covers

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What one point leaves, from what the point before left -/

/-- The pair (row block, column block) after the body at point t, from the pair `prev` left before it. Only the
    cases that go on accumulating read `prev`. -/
def stepAt (c : Dev nD) (t : Fin cfg0.N) (prev : RowBlk F × ColBlk F) : RowBlk F × ColBlk F :=
  if h0 : t.val % 16 = 0 then
    (View.canon (atBatchStart m c t h0).1.1, View.canon (atBatchStart m c t h0).1.2)
  else if h1 : t.val % 4 = 0 then
    (View.canon (atRowStart m c t h0 h1 prev.2).1.1,
      (colMem t).view.read (Elt F) ((colMem t).view.writes (Elt F) ((colWhole t).unread prev.2) (atRowStart m c t h0 h1 prev.2).1.2))
  else if h2 : t.val % 4 = 3 then
    if h3 : t.val % 16 = 15 then
      (View.canon (atBatchEnd m c t h3 prev.1 prev.2).1.1, View.canon (atBatchEnd m c t h3 prev.1 prev.2).1.2)
    else
      (View.canon (atRowEnd m c t h2 h3 prev.1 prev.2).1.1,
        (colMem t).view.read (Elt F) ((colMem t).view.writes (Elt F) ((colWhole t).unread prev.2) (atRowEnd m c t h2 h3 prev.1 prev.2).1.2))
  else
    (View.canon (atMid m c t h1 h2 prev.1 prev.2).1.1,
      (colMem t).view.read (Elt F) ((colMem t).view.writes (Elt F) ((colWhole t).unread prev.2) (atMid m c t h1 h2 prev.1 prev.2).1.2))

/-- The two blocks after each point, by recursion on the point's number. -/
def outsAt (c : Dev nD) : (n : ℕ) → n < cfg0.N → RowBlk F × ColBlk F
  | 0, hn => stepAt m c ⟨0, hn⟩ (View.canon [], View.canon [])
  | n + 1, hn => stepAt m c ⟨n + 1, hn⟩ (outsAt c n (Nat.lt_of_succ_lt hn))

/-- Past the first point, `outsAt` is one step from the point before. -/
theorem outsAt_pos (c : Dev nD) (t : Fin cfg0.N) (ht : t.val ≠ 0) :
    outsAt m c t.val t.isLt = stepAt m c t (outsAt m c (t.val - 1) (Nat.lt_of_le_of_lt (Nat.sub_le _ _) t.isLt)) := by
  obtain ⟨n, hn⟩ := t
  cases n with
  | zero => exact absurd rfl ht
  | succ n => rfl

/-- The first point is one step from nothing. -/
theorem outsAt_zero (c : Dev nD) (t : Fin cfg0.N) (ht : t.val = 0) :
    outsAt m c t.val t.isLt = stepAt m c t (View.canon [], View.canon []) := by
  obtain ⟨n, hn⟩ := t
  cases n with
  | zero => rfl
  | succ n => exact absurd ht (Nat.succ_ne_zero n)

/-- At a batch's first point nothing of the past is read. -/
theorem stepAt_batchStart (c : Dev nD) (t : Fin cfg0.N) (h0 : t.val % 16 = 0) (prev : RowBlk F × ColBlk F) :
    stepAt m c t prev = (View.canon (atBatchStart m c t h0).1.1, View.canon (atBatchStart m c t h0).1.2) := by
  unfold stepAt; rw [dif_pos h0]

theorem outsAt_batchStart (c : Dev nD) (t : Fin cfg0.N) (h0 : t.val % 16 = 0) :
    outsAt m c t.val t.isLt = (View.canon (atBatchStart m c t h0).1.1, View.canon (atBatchStart m c t h0).1.2) := by
  by_cases ht : t.val = 0
  · rw [outsAt_zero m c t ht, stepAt_batchStart m c t h0]
  · rw [outsAt_pos m c t ht, stepAt_batchStart m c t h0]

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).1
    | ⟨3, _⟩ => (outsAt m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after_x (c : Dev nD) (t : Fin cfg0.N) : (dats m 0 c).after 0 t = iblk m c 0 t := by dsimp only [dats]
theorem after_y (c : Dev nD) (t : Fin cfg0.N) : (dats m 0 c).after 1 t = iblk m c 1 t := by dsimp only [dats]
theorem after_row (c : Dev nD) (t : Fin cfg0.N) : (dats m 0 c).after 2 t = (outsAt m c t.val t.isLt).1 := by dsimp only [dats]
theorem after_col (c : Dev nD) (t : Fin cfg0.N) : (dats m 0 c).after 3 t = (outsAt m c t.val t.isLt).2 := by dsimp only [dats]

/-- The inputs' buffers hold their blocks at every point. -/
theorem before_x (c : Dev nD) (t : Fin cfg0.N) (d) : (dats m 0 c).before 0 t d = iblk m c 0 t :=
  before0_0_of m (dats m 0 c) (A_eq m c 0) (after_x m c) t d
theorem before_y (c : Dev nD) (t : Fin cfg0.N) (d) : (dats m 0 c).before 1 t d = iblk m c 1 t :=
  before0_1_of m (dats m 0 c) (A_eq m c 1) (after_y m c) t d

/-- Within a row block's four points the row buffer is not written back: it holds what the point before left. -/
theorem before_row (c : Dev nD) (t : Fin cfg0.N) (h1 : ¬t.val % 4 = 0) (d) :
    (dats m 0 c).before 2 t d = (outsAt m c (t.val - 1) (Nat.lt_of_le_of_lt (Nat.sub_le _ _) t.isLt)).1 := by
  have hN : t.val < 128 := lt_of_lt_of_eq t.isLt (show cfg0.N = 128 from N_0)
  rw [Dat.before_out_kept _ 2 rfl t (by omega) (Bool.eq_false_iff.mpr fun h => by have := (flush0_2 _).mp h; dsimp only at this; omega)
    (fun _ => rfl) (fun _ _ => rfl)]
  dsimp only [dats]

/-- Within a batch's sixteen points the column buffer is not written back: it holds what the point before left. -/
theorem before_col (c : Dev nD) (t : Fin cfg0.N) (h0 : ¬t.val % 16 = 0) (d) :
    (dats m 0 c).before 3 t d = (outsAt m c (t.val - 1) (Nat.lt_of_le_of_lt (Nat.sub_le _ _) t.isLt)).2 := by
  have hN : t.val < 128 := lt_of_lt_of_eq t.isLt (show cfg0.N = 128 from N_0)
  rw [Dat.before_out_kept _ 3 rfl t (by omega) (Bool.eq_false_iff.mpr fun h => by have := (flush0_3 _).mp h; dsimp only at this; omega)
    (fun _ => rfl) (fun _ _ => rfl)]
  dsimp only [dats]

end Cert.KernelIdeal.Body

end
-- ==== Proof.IdealBody.Frame.lean ====
/-
  The body obligation at every point, the frame run, and the frame.
-/
import proofs.«154268_j6433861009596_2_alg».proof.Proof.IdealBody.Data

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point t: the class invariant, nothing owed, each window's buffer at what the
    proof data says it holds. -/
def bodyPre (c : Dev nD) (t : Fin cfg0.N) : sProp 𝕄 :=
  iprop((dats m 0 c).Φ t.castSucc ∗ (dats m 0 c).owesAt () t.castSucc
    ∗ (∃ d, owns (c : Thread nD τ) (xMem t) fullShare ((dats m 0 c).before 0 t d))
    ∗ (∃ d, owns (c : Thread nD τ) (yMem t) fullShare ((dats m 0 c).before 1 t d))
    ∗ (∃ d, owns (c : Thread nD τ) (rowMem t) fullShare ((dats m 0 c).before 2 t d))
    ∗ (∃ d, owns (c : Thread nD τ) (colMem t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (xMem t) fullShare ((dats m 0 c).after 0 t)
    ∗ owns (c : Thread nD τ) (yMem t) fullShare ((dats m 0 c).after 1 t)
    ∗ owns (c : Thread nD τ) (rowMem t) fullShare ((dats m 0 c).after 2 t)
    ∗ owns (c : Thread nD τ) (colMem t) fullShare ((dats m 0 c).after 3 t))

set_option maxHeartbeats 2000000 in
/-- The body at any point: the residues of t say which case runs; an accumulator the case goes on with holds what
    the point before left; the case's run then gives the contents `outsAt` names. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x, before_y]
  rw [show (dats m 0 c).Φ t.succ = (dats m 0 c).Φ t.castSucc from rfl,
    show (dats m 0 c).owesAt () t.succ = (dats m 0 c).owesAt () t.castSucc from rfl,
    after_x, after_y, after_row, after_col]
  have hN : t.val < 128 := lt_of_lt_of_eq t.isLt (show cfg0.N = 128 from N_0)
  by_cases h0 : t.val % 16 = 0
  · rw [outsAt_batchStart m c t h0]
    dsimp only
    iintro ⟨HΦ, Ho, ⟨%d0, H0⟩, ⟨%d1, H1⟩, ⟨%d2, H2⟩, ⟨%d3, H3⟩⟩
    iapply ((atBatchStart m c t h0).2 _ _ Set.univ _)
    isplitl [H0]; · iexact H0
    isplitl [H1]; · iexact H1
    isplitl [H2]; · iexact H2
    isplitl [H3]; · iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_eq_canon _ _ _ (rowCover_batchStart m c t h0)
    unfold owns; iexists _; isplitr
    swap; · iexact H3
    ipureintro; exact View.read_writes_eq_canon _ _ _ (colCover_batchStart m c t h0)
  · have ht : t.val ≠ 0 := fun h => h0 (by rw [h])
    rw [outsAt_pos m c t ht]
    simp only [before_col m c t h0]
    by_cases h1 : t.val % 4 = 0
    · unfold stepAt; rw [dif_neg h0, dif_pos h1]
      dsimp only
      iintro ⟨HΦ, Ho, ⟨%d0, H0⟩, ⟨%d1, H1⟩, ⟨%d2, H2⟩, ⟨%d3, H3⟩⟩
      iapply ((atRowStart m c t h0 h1 _).2 _ Set.univ _)
      isplitl [H0]; · iexact H0
      isplitl [H1]; · iexact H1
      isplitl [H2]; · iexact H2
      isplitl [H3]; · iexact H3
      iintro ⟨H0, H1, ⟨%e2, H2⟩, H3⟩
      isplitl [HΦ]; · iexact HΦ
      isplitl [Ho]; · iexact Ho
      isplitl [H0]; · iexact H0
      isplitl [H1]; · iexact H1
      isplitl [H2]
      · unfold owns; iexists _; isplitr
        swap; · iexact H2
        ipureintro; exact View.read_writes_eq_canon _ _ _ (rowCover_rowStart m c t h0 h1 _)
      unfold owns; iexists _; isplitr
      swap; · iexact H3
      ipureintro; rfl
    · simp only [before_row m c t h1]
      by_cases h2 : t.val % 4 = 3
      · by_cases h3 : t.val % 16 = 15
        · unfold stepAt; rw [dif_neg h0, dif_neg h1, dif_pos h2, dif_pos h3]
          dsimp only
          iintro ⟨HΦ, Ho, ⟨%d0, H0⟩, ⟨%d1, H1⟩, ⟨%d2, H2⟩, ⟨%d3, H3⟩⟩
          iapply ((atBatchEnd m c t h3 _ _).2 Set.univ _)
          isplitl [H0]; · iexact H0
          isplitl [H1]; · iexact H1
          isplitl [H2]; · iexact H2
          isplitl [H3]; · iexact H3
          iintro ⟨H0, H1, ⟨%e2, H2⟩, ⟨%e3, H3⟩⟩
          isplitl [HΦ]; · iexact HΦ
          isplitl [Ho]; · iexact Ho
          isplitl [H0]; · iexact H0
          isplitl [H1]; · iexact H1
          isplitl [H2]
          · unfold owns; iexists _; isplitr
            swap; · iexact H2
            ipureintro; exact View.read_writes_eq_canon _ _ _ (rowCover_batchEnd m c t h3 _ _)
          unfold owns; iexists _; isplitr
          swap; · iexact H3
          ipureintro; exact View.read_writes_eq_canon _ _ _ (colCover_batchEnd m c t h3 _ _)
        · unfold stepAt; rw [dif_neg h0, dif_neg h1, dif_pos h2, dif_neg h3]
          dsimp only
          iintro ⟨HΦ, Ho, ⟨%d0, H0⟩, ⟨%d1, H1⟩, ⟨%d2, H2⟩, ⟨%d3, H3⟩⟩
          iapply ((atRowEnd m c t h2 h3 _ _).2 Set.univ _)
          isplitl [H0]; · iexact H0
          isplitl [H1]; · iexact H1
          isplitl [H2]; · iexact H2
          isplitl [H3]; · iexact H3
          iintro ⟨H0, H1, ⟨%e2, H2⟩, H3⟩
          isplitl [HΦ]; · iexact HΦ
          isplitl [Ho]; · iexact Ho
          isplitl [H0]; · iexact H0
          isplitl [H1]; · iexact H1
          isplitl [H2]
          · unfold owns; iexists _; isplitr
            swap; · iexact H2
            ipureintro; exact View.read_writes_eq_canon _ _ _ (rowCover_rowEnd m c t h2 h3 _ _)
          unfold owns; iexists _; isplitr
          swap; · iexact H3
          ipureintro; rfl
      · unfold stepAt; rw [dif_neg h0, dif_neg h1, dif_neg h2]
        dsimp only
        iintro ⟨HΦ, Ho, ⟨%d0, H0⟩, ⟨%d1, H1⟩, ⟨%d2, H2⟩, ⟨%d3, H3⟩⟩
        iapply ((atMid m c t h1 h2 _ _).2 Set.univ _)
        isplitl [H0]; · iexact H0
        isplitl [H1]; · iexact H1
        isplitl [H2]; · iexact H2
        isplitl [H3]; · iexact H3
        iintro ⟨H0, H1, ⟨%e2, H2⟩, H3⟩
        isplitl [HΦ]; · iexact HΦ
        isplitl [Ho]; · iexact Ho
        isplitl [H0]; · iexact H0
        isplitl [H1]; · iexact H1
        isplitl [H2]
        · unfold owns; iexists _; isplitr
          swap; · iexact H2
          ipureintro; exact View.read_writes_eq_canon _ _ _ (rowCover_mid m c t h1 h2 _ _)
        unfold owns; iexists _; isplitr
        swap; · iexact H3
        ipureintro; rfl

/-- The library's body obligation, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- From any memory with zero counters every weakly fair execution of the program terminates, with the two
    argument arrays and the two result arrays at what the library computes from the proof data, and every other
    buffer at what the operations after the region make of them. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs and leaves its two arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.IdealBody.Explicit.lean ====
/-
  The contents each case leaves, as plain terms over the body's payloads.

  Every case ends the row block at `rowAcc x y r₀` — the elementwise minimum of r₀ with the row minima of this
  point's 1024 × 1024 tile of squared distances — where r₀ is the reset value at m = 0 and what the point
  before left otherwise, finished by `k0_pay3` at m = 3; and it ends the column block at `colAcc i x y q₀` —
  q₀ with the 1024 columns of this point's column block replaced by their minimum with the tile's column
  minima — where q₀ is the reset value at the batch's first point and what the point before left
  otherwise, finished by `k0_pay4` at the batch's last point.
-/
import proofs.«154268_j6433861009596_2_alg».proof.Proof.IdealBody.Data
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- r with the tile's row minima folded in. -/
def rowAcc (x y : Vec F S1x1024x64 .f32) (r : RowBlk F) : RowBlk F := k0_pay1 (k0_pay9 x y) r

/-- q with the tile's column minima folded into the columns of column block m = i 2. -/
def colAcc (i : grid0.Coords) (x y : Vec F S1x1024x64 .f32) (q : ColBlk F) : ColBlk F := fun j =>
  if h : ∀ a, (k0_off1 i) a ≤ (j a).val ∧ (j a).val < (k0_off1 i) a + S1x1x1024.size a then
    k0_pay2 (k0_pay8 x y) (View.ld q (Rect.unit (s := S1x1x4096) (k0_off1 i) S1x1x1024.size (Facts₀.k0_off1_inb i)))
      (Rect.unitLocal (s := S1x1x4096) (off := k0_off1 i) (size := S1x1x1024.size) j h)
  else q j

theorem zero3 : (![0, 0, 0] : Fin 3 → ℕ) = fun _ => 0 := by
  funext a; match a with | ⟨0, _⟩ => rfl | ⟨1, _⟩ => rfl | ⟨2, _⟩ => rfl

/-- One store of the slice over contents that read q leaves `colAcc`. -/
theorem read_slice_store (i : grid0.Coords) {arg6 : Memref sig .tc .vmem S1x1x4096 .f32} (harg6 : arg6.IsWhole)
    (f : arg6.view.ty.Contents (Elt F)) (x y : Vec F S1x1024x64 .f32) (q : ColBlk F) (hq : arg6.view.read (Elt F) f = q) :
    arg6.view.read (Elt F) (arg6.view.writes (Elt F) f
      [⟨Rect.unit (s := S1x1x4096) (k0_off1 i) S1x1x1024.size (Facts₀.k0_off1_inb i),
        k0_pay2 (k0_pay8 x y) (View.readAt (Elt F) arg6.view (Rect.unit (s := S1x1x4096) (k0_off1 i) S1x1x1024.size (Facts₀.k0_off1_inb i)) f)⟩])
      = colAcc i x y q := by
  funext j
  rw [View.read_writes_cons_unit _ _ _ _ [] j rfl, View.writes_nil, View.readAt_eq_ld, hq]
  rfl

theorem mid_row (c : Dev nD) (i : grid0.Coords) (arg3 : Memref sig .tc .vmem S1x1024x64 .f32) (harg3 : arg3.IsWhole) (arg4 : Memref sig .tc .vmem S1x1024x64 .f32) (harg4 : arg4.IsWhole) (arg5 : Memref sig .tc .vmem S1x1x1024 .f32) (harg5 : arg5.IsWhole) (arg6 : Memref sig .tc .vmem S1x1x4096 .f32) (harg6 : arg6.IsWhole)
    (h0 : ¬batchStart i) (h1 : ¬rowStart i) (h2 : ¬rowEnd i) (h3 : ¬batchEnd i)
    (x y : Vec F S1x1024x64 .f32) (r : RowBlk F) (q : ColBlk F) :
    View.canon (runMid c i arg3 harg3 arg4 harg4 arg5 harg5 arg6 harg6 h0 h1 h2 h3 x y r q).1.1 = rowAcc x y r := by
  unfold runMid; dsimp only; sl_unfold_words
  rw [View.canon_unit_zero zero3]
  simp only [View.readAt_eq_ld, harg3.read_unread, harg4.read_unread, harg5.read_unread,
    View.ld_unit_zero (S := S1x1024x64) zero3, View.ld_unit_zero (S := S1x1x1024) zero3]
  rfl

theorem mid_col (c : Dev nD) (i : grid0.Coords) (arg3 : Memref sig .tc .vmem S1x1024x64 .f32) (harg3 : arg3.IsWhole) (arg4 : Memref sig .tc .vmem S1x1024x64 .f32) (harg4 : arg4.IsWhole) (arg5 : Memref sig .tc .vmem S1x1x1024 .f32) (harg5 : arg5.IsWhole) (arg6 : Memref sig .tc .vmem S1x1x4096 .f32) (harg6 : arg6.IsWhole)
    (h0 : ¬batchStart i) (h1 : ¬rowStart i) (h2 : ¬rowEnd i) (h3 : ¬batchEnd i)
    (x y : Vec F S1x1024x64 .f32) (r : RowBlk F) (q : ColBlk F) :
    arg6.view.read (Elt F) (arg6.view.writes (Elt F) (harg6.unread q)
      (runMid c i arg3 harg3 arg4 harg4 arg5 harg5 arg6 harg6 h0 h1 h2 h3 x y r q).1.2) = colAcc i x y q := by
  unfold runMid; dsimp only; sl_unfold_words
  simp only [View.readAt_eq_ld, harg3.read_unread, harg4.read_unread, View.ld_unit_zero (S := S1x1024x64) zero3]
  exact read_slice_store i harg6 _ x y q (harg6.read_unread q)

end Cert.KernelIdeal.Body

end
-- ==== Proof.Spec.lean ====
/-
  The Chamfer distance between two batches of point clouds, as the two programs compute it.

  Clouds x, y : 8 batches × 4096 points × 64 coordinates.  For points r of x and c of y in batch b the
  squared distance is written |x_r|² + |y_c|² − 2⟨x_r, y_c⟩.  One program forms it as
  (|x_r|² + |y_c|²) − 2·⟨x_r, y_c⟩ and takes sqrt(max(·, 0)) of every pair before minimising;
  the other forms (|x_r|² + |y_c|²) + Σ_k x_rk·(y_ck·(−2)), minimises first and takes
  sqrt(max(·, 0)) of the minimum.  This module only names these terms; the laws joining them are in
  SpecLaws.
-/
import Idealize.ShloMosaic.PureOps.Ideal
import Idealize.ShloMosaic.Lib.ValueIdx

noncomputable section

open scoped BigOperators

namespace Cert.Chamfer

open Idealize.ShloMosaic Idealize.ShloMosaic.ValueIdx

/-- A batch of point clouds: 8 × 4096 points × 64 coordinates. -/
abbrev Cloud : Shape := ⟨3, ![8, 4096, 64]⟩

/-- The words the programs spell their constants with, read at the extended reals. -/
def zeroW : EReal := Ideal.ofBits .f32 0x00000000#32
def twoW : EReal := Ideal.ofBits .f32 0x40000000#32
def negTwoW : EReal := Ideal.ofBits .f32 0xC0000000#32
def infW : EReal := Ideal.ofBits .f32 0x7F800000#32

/-- |p|² of point r of batch b, summed from the zero word. -/
def norm2 (x : Cloud.Idx → EReal) (b : Fin 8) (r : Fin 4096) : EReal :=
  zeroW + ∑ k : Fin 64, x (ix3 b r k) * x (ix3 b r k)

/-- ⟨x_r, y_c⟩ in batch b. -/
def dot (x y : Cloud.Idx → EReal) (b : Fin 8) (r c : Fin 4096) : EReal :=
  ∑ k : Fin 64, x (ix3 b r k) * y (ix3 b c k)

/-- The squared distance as (|x_r|² + |y_c|²) − 2·⟨x_r, y_c⟩. -/
def sqSub (x y : Cloud.Idx → EReal) (b : Fin 8) (r c : Fin 4096) : EReal :=
  (norm2 x b r + norm2 y b c) - twoW * dot x y b r c

/-- The squared distance as (|x_r|² + |y_c|²) + Σ_k x_rk·(y_ck·(−2)). -/
def sqAdd (x y : Cloud.Idx → EReal) (b : Fin 8) (r c : Fin 4096) : EReal :=
  (norm2 x b r + norm2 y b c) + ∑ k : Fin 64, x (ix3 b r k) * (y (ix3 b c k) * negTwoW)

/-- sqrt of the positive part. -/
def root (v : EReal) : EReal := Ideal.sqrt (max v zeroW)

/-- Nearest-neighbour distance from point r of x to the cloud y: root taken pair by pair, then the minimum. -/
def rowPairwise (x y : Cloud.Idx → EReal) (b : Fin 8) (r : Fin 4096) : EReal := ⨅ c : Fin 4096, root (sqSub x y b r c)
/-- Nearest-neighbour distance from point c of y to the cloud x, likewise. -/
def colPairwise (x y : Cloud.Idx → EReal) (b : Fin 8) (c : Fin 4096) : EReal := ⨅ r : Fin 4096, root (sqSub x y b r c)

/-- The same two distances with the minimum taken over squared distances first and the root once. -/
def rowMinFirst (x y : Cloud.Idx → EReal) (b : Fin 8) (r : Fin 4096) : EReal := root (⨅ c : Fin 4096, sqAdd x y b r c)
def colMinFirst (x y : Cloud.Idx → EReal) (b : Fin 8) (c : Fin 4096) : EReal := root (⨅ r : Fin 4096, sqAdd x y b r c)

/-- Every coordinate is a real number. -/
def AllReal (x : Cloud.Idx → EReal) : Prop := ∀ i, ∃ v : ℝ, x i = (v : EReal)

end Cert.Chamfer

end
-- ==== Proof.LibMinReduce.lean ====
/-
  A law of the ideal instance, for any shapes and any float type: a minimum taken along ONE axis of an array is, at
  each index of the result, the minimum over that axis's coordinates of the array's entries, started from the
  accumulator's value — the counterpart for minima of the library's single-axis law for maxima. With it a row
  minimum or a column minimum reads as a fold of `min` over a `Fin`, which a proof can bound member by member.
-/
import Idealize.ShloMosaic.PureOps.Ideal.Laws

noncomputable section

namespace Cert.Lib.MinReduce

open Idealize.ShloMosaic

/-- A minimum taken along one axis, at the ideal instance, is the minimum over that axis's coordinates from the
    accumulator's value: at result index `j` the fold of `min` over `k` of the source at `j` with `k` inserted on the
    reduced axis. -/
theorem multiReduction_min_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

end Cert.Lib.MinReduce

end
-- ==== Proof.LibColumnLayout.lean ====
/-
  COLUMN FORMS OF THE LAYOUT OPERATIONS, READ AT AN INDEX GIVEN BY COORDINATES. A sum over the last axis kept as a
  column (`keepdims`) is a vector `[a]` cast to `[a, 1]` and then broadcast along the new unit axis to `[a, b]`:
  at `(i, j)` both read the vector at `i`. The two lemmas below say so for indices written `ix1` / `ix2`, for any
  element type and any extents; they are the column counterparts of the row forms `shapeCast_a_1a_apply` and
  `broadcastTo_1b_ab_apply`.
-/
import Idealize.ShloMosaic.Lib.Pipeline.Value
import Idealize.ShloMosaic.Lib.ValueIdx

namespace Idealize.ShloMosaic.ColumnLayout

open Idealize.ShloMosaic Idealize.ShloMosaic.ValueIdx

variable {α : Type}

/-- An `[a]` array cast to the column `[a, 1]` reads, at `(i, u)`, the operand at `i`, whatever the unit coordinate
    `u`: the two row-major positions are `i` and `i * 1 + u` with `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry in row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.ColumnLayout
-- ==== Proof.IdealValue.Payloads.lean ====
/-
  The kernel body's arithmetic read at an index, at the ideal instance.

  One grid point holds a block X of 1024 points of the first cloud and a block Y of 1024 points of the second, 64
  coordinates each. The body forms, for every pair (i, j), the squared distance written
  (|X_i|² + |Y_j|²) + Σ_k X_ik · (Y_jk · (−2)), takes its minimum over i for each j and over j for each i, and folds
  these minima into two running rows by a pointwise minimum; the last visits take sqrt(max(·, 0)) of a running row.
  Each theorem below reads one stored value of the body at an index given by coordinates.
-/
import proofs.«154268_j6433861009596_2_alg».proof.Proof.Gen.KernelIdeal.Skeleton
import proofs.«154268_j6433861009596_2_alg».proof.Proof.Spec
import proofs.«154268_j6433861009596_2_alg».proof.Proof.LibMinReduce
import proofs.«154268_j6433861009596_2_alg».proof.Proof.LibColumnLayout
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.Chamfer.Payloads

open Idealize.ShloMosaic Cert.KernelIdeal Cert.KernelIdeal.Gen Idealize.ShloMosaic.ValueIdx

/-! ## The words the body spells its constants with -/

/-- The word 0x7F800000 reads as +∞. -/
theorem infW_eq_top : Ideal.ofBits .f32 0x7F800000#32 = (⊤ : EReal) := by
  simp [Ideal.ofBits, Ideal.ieee]

/-! ## The running rows: a pointwise minimum, and the root of the positive part -/

/-- The running row of minima over the second cloud's blocks, folded with this block's row of minima. -/
theorem pay1_apply (v : FVec Ideal S1x1024 .f32) (r : Vec Ideal S1x1x1024 .f32) (i : Fin 1024) :
    k0_pay1 (F := Ideal) v r (ix3 0 0 i) = min (r (ix3 0 0 i)) (v (ix2 0 i)) := by
  unfold k0_pay1
  refine (shapeCast_ab_1ab_apply _ _ 0 0 i).trans ?_
  rw [minimumf_apply, shapeCast_1ab_ab_apply]

/-- The running row of minima over the first cloud's blocks, folded with this block's row of minima. -/
theorem pay2_apply (v : FVec Ideal S1x1024 .f32) (q : Vec Ideal S1x1x1024 .f32) (j : Fin 1024) :
    k0_pay2 (F := Ideal) v q (ix3 0 0 j) = min (q (ix3 0 0 j)) (v (ix2 0 j)) := by
  unfold k0_pay2
  refine (shapeCast_ab_1ab_apply _ _ 0 0 j).trans ?_
  rw [minimumf_apply, shapeCast_1ab_ab_apply]

/-- The last visit of a row of 1024 minima: the root of the positive part, entry by entry. -/
theorem pay3_apply (r : Vec Ideal S1x1x1024 .f32) (i : Fin 1024) :
    k0_pay3 (F := Ideal) r (ix3 0 0 i) = Cert.Chamfer.root (r (ix3 0 0 i)) := by
  unfold k0_pay3
  refine (shapeCast_ab_1ab_apply _ _ 0 0 i).trans ?_
  show Ideal.sqrt (max (shapeCast S1x1024 r shapeCasts_S1x1x1024_S1x1024 (ix2 0 i)) (Ideal.ofBits .f32 0x00000000#32)) = _
  rw [shapeCast_1ab_ab_apply]
  rfl

/-- The last visit of a row of 4096 minima: the root of the positive part, entry by entry. -/
theorem pay4_apply (q : Vec Ideal S1x1x4096 .f32) (j : Fin 4096) :
    k0_pay4 (F := Ideal) q (ix3 0 0 j) = Cert.Chamfer.root (q (ix3 0 0 j)) := by
  unfold k0_pay4
  refine (shapeCast_ab_1ab_apply _ _ 0 0 j).trans ?_
  show Ideal.sqrt (max (shapeCast S1x4096 q shapeCasts_S1x1x4096_S1x4096 (ix2 0 j)) (Ideal.ofBits .f32 0x00000000#32)) = _
  rw [shapeCast_1ab_ab_apply]
  rfl

/-- The first visit fills the row of 4096 minima with +∞. -/
theorem pay5_apply (j : Fin 4096) : k0_pay5 (F := Ideal) (ix3 0 0 j) = ⊤ := by
  unfold k0_pay5
  refine (shapeCast_ab_1ab_apply _ _ 0 0 j).trans ?_
  exact infW_eq_top

/-- The first visit fills the row of 1024 minima with +∞. -/
theorem pay6_apply (i : Fin 1024) : k0_pay6 (F := Ideal) (ix3 0 0 i) = ⊤ := by
  unfold k0_pay6
  refine (shapeCast_ab_1ab_apply _ _ 0 0 i).trans ?_
  exact infW_eq_top

/-! ## One lemma per operation that is not pointwise -/

/-- A fold of `min` from +∞ over every member of a finite type is the infimum. -/
theorem fold_min_top {ι : Type} [Fintype ι] (g : ι → EReal) :
    (Finset.univ : Finset ι).fold min ⊤ g = ⨅ a, g a := by
  rw [← Finset.inf_univ_eq_iInf]
  rfl

/-- The sum along a row of a 1024 × 64 array, started from the zero word. -/
theorem rowSum_apply (src : FVec Ideal S1024x64 .f32) (p : Fin 1024) :
    multiReduction (F := Ideal) .add [1] S1024 src 0x00000000#32 reduces_S1024x64_S1024 (.inl rfl) rfl (ix1 p)
      = ∑ k : Fin 64, src (ix2 p k) := by
  refine (Ideal.multiReduction_add_single src 0x00000000#32 reduces_S1024x64_S1024 (.inl rfl) rfl (ix1 p)).trans ?_
  refine Finset.sum_congr rfl fun k _ => congrArg src ?_
  exact funext fun a => Fin.ext (by match a with | ⟨0, _⟩ => rfl | ⟨1, _⟩ => rfl)

/-- The minimum down a column of a 1024 × 1024 array, started from the word of +∞. -/
theorem colMin_apply (src : FVec Ideal S1024x1024 .f32) (j : Fin 1024) :
    multiReduction (F := Ideal) .minimumf [0] S1024 src 0x7F800000#32 reduces_S1024x1024_S1024_2 (.inl rfl) rfl (ix1 j)
      = ⨅ i : Fin 1024, src (ix2 i j) := by
  refine (Cert.Lib.MinReduce.multiReduction_min_single src 0x7F800000#32 reduces_S1024x1024_S1024_2 (.inl rfl) rfl (ix1 j)).trans ?_
  show (Finset.univ : Finset (Fin 1024)).fold min (Ideal.ofBits .f32 0x7F800000#32) _ = _
  rw [infW_eq_top]
  refine (fold_min_top (ι := Fin 1024) _).trans ?_
  refine iInf_congr fun i => congrArg src ?_
  exact funext fun a => Fin.ext (by match a with | ⟨0, _⟩ => rfl | ⟨1, _⟩ => rfl)

/-- The minimum along a row of a 1024 × 1024 array, started from the word of +∞. -/
theorem rowMin_apply (src : FVec Ideal S1024x1024 .f32) (i : Fin 1024) :
    multiReduction (F := Ideal) .minimumf [1] S1024 src 0x7F800000#32 reduces_S1024x1024_S1024 (.inl rfl) rfl (ix1 i)
      = ⨅ j : Fin 1024, src (ix2 i j) := by
  refine (Cert.Lib.MinReduce.multiReduction_min_single src 0x7F800000#32 reduces_S1024x1024_S1024 (.inl rfl) rfl (ix1 i)).trans ?_
  show (Finset.univ : Finset (Fin 1024)).fold min (Ideal.ofBits .f32 0x7F800000#32) _ = _
  rw [infW_eq_top]
  refine (fold_min_top (ι := Fin 1024) _).trans ?_
  refine iInf_congr fun j => congrArg src ?_
  exact funext fun a => Fin.ext (by match a with | ⟨0, _⟩ => rfl | ⟨1, _⟩ => rfl)

/-- The product's left operand is read in the result's row … -/
theorem lhs_row (i : S1024x1024.Idx) (q : dot_S1024x64_S64x1024_S1024x1024_1_0_0_1_n_n.contr.Idx) :
    (dot_S1024x64_S64x1024_S1024x1024_1_0_0_1_n_n.lhsIdx i q 0).val = (i 0).val := by
  unfold DotDims.lhsIdx
  rw [dif_neg (show ¬(0 : Fin S1024x64.rank) ∈ dot_S1024x64_S64x1024_S1024x1024_1_0_0_1_n_n.lhsBatch by decide), dif_pos (show (0 : Fin S1024x64.rank) ∈ dot_S1024x64_S64x1024_S1024x1024_1_0_0_1_n_n.lhsNonContracting by decide)]
  rfl

/-- … and its right operand in the result's column. -/
theorem rhs_col (i : S1024x1024.Idx) (q : dot_S1024x64_S64x1024_S1024x1024_1_0_0_1_n_n.contr.Idx) :
    (dot_S1024x64_S64x1024_S1024x1024_1_0_0_1_n_n.rhsIdx i q 1).val = (i 1).val := by
  unfold DotDims.rhsIdx
  rw [dif_neg (show ¬(1 : Fin S64x1024.rank) ∈ dot_S1024x64_S64x1024_S1024x1024_1_0_0_1_n_n.rhsBatch by decide), dif_pos (show (1 : Fin S64x1024.rank) ∈ dot_S1024x64_S64x1024_S1024x1024_1_0_0_1_n_n.rhsNonContracting by decide)]
  rfl

/-- The product of a 1024 × 64 array with a 64 × 1024 array into the zero array, at `(i, j)`. -/
theorem matmul_ix2_apply (A : FVec Ideal S1024x64 .bf16) (B : FVec Ideal S64x1024 .bf16) (i j : Fin 1024) :
    matmul (F := Ideal) dot_S1024x64_S64x1024_S1024x1024_1_0_0_1_n_n none A B (constant (F := Ideal) S1024x1024 .f32 0x00000000#32) (ix2 i j)
      = ∑ k : Fin 64, A (ix2 i k) * B (ix2 k j) := by
  simp only [matmul]
  rw [Ideal.matmul_constant_zero_apply, ← Equiv.sum_comp (contrEquiv1 dot_S1024x64_S64x1024_S1024x1024_1_0_0_1_n_n 64 rfl rfl).symm]
  refine Finset.sum_congr rfl fun k _ => ?_
  have hk := contrEquiv1_symm_val dot_S1024x64_S64x1024_S1024x1024_1_0_0_1_n_n 64 rfl rfl k
  have el : dot_S1024x64_S64x1024_S1024x1024_1_0_0_1_n_n.lhsIdx (ix2 i j) ((contrEquiv1 dot_S1024x64_S64x1024_S1024x1024_1_0_0_1_n_n 64 rfl rfl).symm k) = ix2 i k := funext fun a => Fin.ext (by
    match a with
    | ⟨0, _⟩ => exact lhs_row _ _
    | ⟨1, _⟩ => exact (dot_S1024x64_S64x1024_S1024x1024_1_0_0_1_n_n.lhsIdx_val_of_single rfl _ _).trans hk)
  have er : dot_S1024x64_S64x1024_S1024x1024_1_0_0_1_n_n.rhsIdx (ix2 i j) ((contrEquiv1 dot_S1024x64_S64x1024_S1024x1024_1_0_0_1_n_n 64 rfl rfl).symm k) = ix2 k j := funext fun a => Fin.ext (by
    match a with
    | ⟨0, _⟩ => exact (dot_S1024x64_S64x1024_S1024x1024_1_0_0_1_n_n.rhsIdx_val_of_single rfl _ _).trans hk
    | ⟨1, _⟩ => exact rhs_col _ _)
  rw [el, er]

/-! ## The three terms of the squared distance -/

/-- The squared norms of the rows of a block, kept as a column and spread along the rows of the square. -/
theorem normCol_apply (Z : FVec Ideal S1024x64 .f32) (i j : Fin 1024) :
    broadcastTo S1024x1024 (shapeCast S1024x1 (multiReduction (F := Ideal) .add [1] S1024 (mulf Z Z) 0x00000000#32 reduces_S1024x64_S1024 (.inl rfl) rfl) shapeCasts_S1024_S1024x1) broadcasts_S1024x1_S1024x1024 (ix2 i j)
      = ∑ k : Fin 64, Z (ix2 i k) * Z (ix2 i k) := by
  rw [ColumnLayout.broadcastTo_a1_ab_apply, ColumnLayout.shapeCast_a_a1_apply, rowSum_apply]
  rfl

/-- The same column turned into a row and spread down the columns of the square. -/
theorem normRow_apply (Z : FVec Ideal S1024x64 .f32) (i j : Fin 1024) :
    broadcastTo S1024x1024 (transpose S1x1024 [1, 0] (shapeCast S1024x1 (multiReduction (F := Ideal) .add [1] S1024 (mulf Z Z) 0x00000000#32 reduces_S1024x64_S1024 (.inl rfl) rfl) shapeCasts_S1024_S1024x1) transposes_S1024x1_p1_0_S1x1024) broadcasts_S1x1024_S1024x1024 (ix2 i j)
      = ∑ k : Fin 64, Z (ix2 j k) * Z (ix2 j k) := by
  rw [broadcastTo_1b_ab_apply, transpose_ix2_apply, ColumnLayout.shapeCast_a_a1_apply, rowSum_apply]
  rfl

/-- The cross term: the first block times the transposed second block scaled by `c`. -/
theorem cross_apply (P Q : FVec Ideal S1024x64 .f32) (c : Ideal .f32) (i j : Fin 1024) :
    matmul (F := Ideal) dot_S1024x64_S64x1024_S1024x1024_1_0_0_1_n_n none (truncf .bf16 P bitsLt_bf16_f32)
        (transpose S64x1024 [1, 0] (truncf .bf16 (mulf Q (broadcast S1024x64 c)) bitsLt_bf16_f32) transposes_S1024x64_p1_0_S64x1024)
        (constant (F := Ideal) S1024x1024 .f32 0x00000000#32) (ix2 i j)
      = ∑ k : Fin 64, P (ix2 i k) * (Q (ix2 j k) * c) := by
  rw [matmul_ix2_apply]
  refine Finset.sum_congr rfl fun k _ => ?_
  rw [transpose_ix2_apply]
  rfl

/-! ## The square of squared distances, and its two rows of minima -/

/-- The squared distance between point `i` of the block `X` and point `j` of the block `Y`, as the body forms it. -/
def sqBlk (X Y : Vec Ideal S1x1024x64 .f32) (i j : Fin 1024) : EReal :=
  ((Cert.Chamfer.zeroW + ∑ k : Fin 64, X (ix3 0 i k) * X (ix3 0 i k))
    + (Cert.Chamfer.zeroW + ∑ k : Fin 64, Y (ix3 0 j k) * Y (ix3 0 j k)))
    + ∑ k : Fin 64, X (ix3 0 i k) * (Y (ix3 0 j k) * Cert.Chamfer.negTwoW)

/-- The square of the body at `(i, j)` is that squared distance. -/
theorem pay7_apply (X Y : Vec Ideal S1x1024x64 .f32) (i j : Fin 1024) :
    k0_pay7 (F := Ideal) X Y (ix2 i j) = sqBlk X Y i j := by
  unfold k0_pay7 sqBlk
  dsimp only
  rw [addf_apply, addf_apply, normCol_apply, normRow_apply, cross_apply]
  simp only [shapeCast_1ab_ab_apply, Cert.Chamfer.zeroW, Ideal.ofBits_zero_f32, zero_add]
  rfl

/-- The minimum down each column of the square: for point `j` of `Y`, over the points of `X`. -/
theorem pay8_apply (X Y : Vec Ideal S1x1024x64 .f32) (j : Fin 1024) :
    k0_pay8 (F := Ideal) X Y (ix2 0 j) = ⨅ i : Fin 1024, sqBlk X Y i j := by
  unfold k0_pay8
  refine (shapeCast_a_1a_apply _ _ 0 j).trans ?_
  refine (colMin_apply (k0_pay7 X Y) j).trans ?_
  exact iInf_congr fun i => pay7_apply X Y i j

/-- The minimum along each row of the square, kept as a column and turned into a row: for point `i` of `X`, over
    the points of `Y`. -/
theorem pay9_apply (X Y : Vec Ideal S1x1024x64 .f32) (i : Fin 1024) :
    k0_pay9 (F := Ideal) X Y (ix2 0 i) = ⨅ j : Fin 1024, sqBlk X Y i j := by
  unfold k0_pay9
  refine (transpose_ix2_apply _ _ 0 i).trans ?_
  refine (ColumnLayout.shapeCast_a_a1_apply _ _ i 0).trans ?_
  refine (rowMin_apply (k0_pay7 X Y) i).trans ?_
  exact iInf_congr fun j => pay7_apply X Y i j

end Cert.Chamfer.Payloads

end
-- ==== Proof.IdealValue.Blocks.lean ====
/-
  Which elements of the argument arrays each grid point's blocks are.

  The grid is 8 × 4 × 4; point t has coordinates (t / 16, t / 4 % 4, t % 4).  The block of the
  first cloud at t is rows (t / 4 % 4)·1024 … of batch t / 16, the block of the second cloud
  rows (t % 4)·1024 … of the same batch; on every axis an element of a block sits in its array at
  the block index times the block size plus its coordinate inside the block.
-/
import proofs.«154268_j6433861009596_2_alg».proof.Proof.Gen.KernelIdeal.Frame
import Idealize.ShloMosaic.Lib.ValueIdx
import Idealize.ShloMosaic.Lib.Pipeline.Value

set_option maxRecDepth 16384

noncomputable section

namespace Cert.Chamfer.Blocks

open Cert.KernelIdeal Cert.KernelIdeal.Gen Idealize.ShloMosaic Idealize.ShloMosaic.ValueIdx
open Idealize.SL Idealize.SL.Sem

variable {F : FTy → Type} [FloatOps F]
variable (m : (ℓ : Loc nD τ sig) → Buf (Elt F) ℓ)

/-! ### The grid's coordinates and the block indices, decided over the 128 points -/

/-- Point t has coordinates (t / 16, t / 4 % 4, t % 4). -/
theorem coords_eq : ∀ t : Fin cfg0.N, (grid0.coords t 0).val = t.val / 16 ∧ (grid0.coords t 1).val = t.val / 4 % 4
    ∧ (grid0.coords t 2).val = t.val % 4 :=
  (by decide +kernel : ∀ t : Fin grid0.N, (grid0.coords t 0).val = t.val / 16 ∧ (grid0.coords t 1).val = t.val / 4 % 4
    ∧ (grid0.coords t 2).val = t.val % 4)

/-- The offsets of the column accumulator's slice at point t: lanes (t % 4)·1024 …. -/
theorem off_eq (t : Fin cfg0.N) : k0_off1 (grid0.coords t) = ![0, 0, t.val % 4 * 1024] := by
  rw [k0_off1_eq, (coords_eq t).2.2, Nat.mul_comm]

/-- The block indices of the four windows at point t. -/
theorem idx_facts : ∀ t : Fin cfg0.N,
    win0_0.index t (0 : Fin 3) = t.val / 16 ∧ win0_0.index t (1 : Fin 3) = t.val / 4 % 4 ∧ win0_0.index t (2 : Fin 3) = 0
    ∧ win0_1.index t (0 : Fin 3) = t.val / 16 ∧ win0_1.index t (1 : Fin 3) = t.val % 4 ∧ win0_1.index t (2 : Fin 3) = 0
    ∧ win0_2.index t (0 : Fin 3) = t.val / 16 ∧ win0_2.index t (1 : Fin 3) = 0 ∧ win0_2.index t (2 : Fin 3) = t.val / 4 % 4
    ∧ win0_3.index t (0 : Fin 3) = t.val / 16 ∧ win0_3.index t (1 : Fin 3) = 0 ∧ win0_3.index t (2 : Fin 3) = 0 :=
  (by decide +kernel : ∀ t : Fin grid0.N, _)

/-! ### The input blocks, element by element -/

/-- Element (0, i, k) of the first cloud's block at point t is element (t / 16, (t / 4 % 4)·1024 + i, k) of the cloud. -/
theorem xblk (c : Dev nD) (t : Fin cfg0.N) (i : Fin 1024) (k : Fin 64) (hb : t.val / 16 < 8)
    (hr : t.val / 4 % 4 * 1024 + i.val < 4096) :
    iblk m c 0 t (ix3 0 i k) = V m c main_arg0 (ix3 ⟨t.val / 16, hb⟩ ⟨t.val / 4 % 4 * 1024 + i.val, hr⟩ k) := by
  obtain ⟨e0, e1, e2, -⟩ := idx_facts t
  show V m c main_arg0 (((cfg0.win 0).blk t).view.emb (ix3 0 i k)) = V m c main_arg0 _
  refine congrArg (V m c main_arg0) ?_
  funext a; apply Fin.ext
  match a with
  | ⟨0, _⟩ => show win0_0.index t (0 : Fin 3) * 1 + 1 * 0 = t.val / 16; omega
  | ⟨1, _⟩ => show win0_0.index t (1 : Fin 3) * 1024 + 1 * i.val = t.val / 4 % 4 * 1024 + i.val; omega
  | ⟨2, _⟩ => show win0_0.index t (2 : Fin 3) * 64 + 1 * k.val = k.val; omega

/-- Element (0, j, k) of the second cloud's block at point t is element (t / 16, (t % 4)·1024 + j, k) of the cloud. -/
theorem yblk (c : Dev nD) (t : Fin cfg0.N) (j : Fin 1024) (k : Fin 64) (hb : t.val / 16 < 8)
    (hr : t.val % 4 * 1024 + j.val < 4096) :
    iblk m c 1 t (ix3 0 j k) = V m c main_arg1 (ix3 ⟨t.val / 16, hb⟩ ⟨t.val % 4 * 1024 + j.val, hr⟩ k) := by
  obtain ⟨-, -, -, e0, e1, e2, -⟩ := idx_facts t
  show V m c main_arg1 (((cfg0.win 1).blk t).view.emb (ix3 0 j k)) = V m c main_arg1 _
  refine congrArg (V m c main_arg1) ?_
  funext a; apply Fin.ext
  match a with
  | ⟨0, _⟩ => show win0_1.index t (0 : Fin 3) * 1 + 1 * 0 = t.val / 16; omega
  | ⟨1, _⟩ => show win0_1.index t (1 : Fin 3) * 1024 + 1 * j.val = t.val % 4 * 1024 + j.val; omega
  | ⟨2, _⟩ => show win0_1.index t (2 : Fin 3) * 64 + 1 * k.val = k.val; omega

/-! ### Where a written-back block lands -/

/-- Element y of the row output's block at point t lands at (t / 16, 0, (t / 4 % 4)·1024 + y₂) of its array. -/
theorem rowEmb (t : Fin cfg0.N) (y : ((cfg0.win 2).xblock (cfg0.grid.coords t)).Idx) :
    ((((cfg0.win 2).blk t).view.emb y) 0).val = t.val / 16
    ∧ ((((cfg0.win 2).blk t).view.emb y) 1).val = 0
    ∧ ((((cfg0.win 2).blk t).view.emb y) 2).val = t.val / 4 % 4 * 1024 + (y 2).val := by
  obtain ⟨-, -, -, -, -, -, e0, e1, e2, -⟩ := idx_facts t
  have h0 : (y 0).val < 1 := (y 0).isLt
  have h1 : (y 1).val < 1 := (y 1).isLt
  refine ⟨?_, ?_, ?_⟩
  · show win0_2.index t (0 : Fin 3) * 1 + 1 * (y 0).val = t.val / 16; omega
  · show win0_2.index t (1 : Fin 3) * 1 + 1 * (y 1).val = 0; omega
  · show win0_2.index t (2 : Fin 3) * 1024 + 1 * (y 2).val = t.val / 4 % 4 * 1024 + (y 2).val; omega

/-- Element y of the column output's block at point t lands at (t / 16, 0, y₂) of its array. -/
theorem colEmb (t : Fin cfg0.N) (y : ((cfg0.win 3).xblock (cfg0.grid.coords t)).Idx) :
    ((((cfg0.win 3).blk t).view.emb y) 0).val = t.val / 16
    ∧ ((((cfg0.win 3).blk t).view.emb y) 1).val = 0
    ∧ ((((cfg0.win 3).blk t).view.emb y) 2).val = (y 2).val := by
  obtain ⟨-, -, -, -, -, -, -, -, -, e0, e1, e2⟩ := idx_facts t
  have h0 : (y 0).val < 1 := (y 0).isLt
  have h1 : (y 1).val < 1 := (y 1).isLt
  refine ⟨?_, ?_, ?_⟩
  · show win0_3.index t (0 : Fin 3) * 1 + 1 * (y 0).val = t.val / 16; omega
  · show win0_3.index t (1 : Fin 3) * 1 + 1 * (y 1).val = 0; omega
  · show win0_3.index t (2 : Fin 3) * 4096 + 1 * (y 2).val = (y 2).val; omega

end Cert.Chamfer.Blocks

end
-- ==== Proof.IdealValue.InfLemmas.lean ====
/-
  Minima over a part of a finite index set, in a complete linear order.

  A running minimum over the columns seen so far is written `⨅ c, ⨅ _ : P c, g c`: the infimum over the
  indices that satisfy P, which is ⊤ when none does.  Folding in the minimum over a further part Q gives
  the minimum over P ∨ Q; a tile of 1024 consecutive indices is the part `c / 1024 = k`.
-/
import Mathlib.Order.CompleteLattice.Basic
import Mathlib.Order.ConditionallyCompleteLattice.Basic
import Mathlib.Data.EReal.Basic

namespace Cert.Chamfer.Inf

variable {α : Type} [CompleteLinearOrder α] {ι : Type}

/-- The minimum over P folded with the minimum over Q is the minimum over any R that is P or Q. -/
theorem min_part (g : ι → α) (P Q R : ι → Prop) (h : ∀ c, R c ↔ P c ∨ Q c) :
    min (⨅ c, ⨅ _ : P c, g c) (⨅ c, ⨅ _ : Q c, g c) = ⨅ c, ⨅ _ : R c, g c := by
  apply le_antisymm
  · refine le_iInf fun c => le_iInf fun hr => ?_
    rcases (h c).mp hr with hp | hq
    · exact (min_le_left _ _).trans (iInf_le_of_le c (iInf_le _ hp))
    · exact (min_le_right _ _).trans (iInf_le_of_le c (iInf_le _ hq))
  · refine le_min ?_ ?_
    · exact le_iInf fun c => le_iInf fun hp => iInf_le_of_le c (iInf_le _ ((h c).mpr (Or.inl hp)))
    · exact le_iInf fun c => le_iInf fun hq => iInf_le_of_le c (iInf_le _ ((h c).mpr (Or.inr hq)))

/-- The minimum over an empty part is ⊤. -/
theorem part_empty (g : ι → α) (P : ι → Prop) (h : ∀ c, ¬P c) : (⨅ c, ⨅ _ : P c, g c) = ⊤ :=
  top_unique (le_iInf fun c => le_iInf fun hp => absurd hp (h c))

/-- The minimum over the whole index set. -/
theorem part_univ (g : ι → α) (P : ι → Prop) (h : ∀ c, P c) : (⨅ c, ⨅ _ : P c, g c) = ⨅ c, g c :=
  le_antisymm (le_iInf fun c => iInf_le_of_le c (iInf_le _ (h c))) (le_iInf fun c => le_iInf fun _ => iInf_le _ c)

/-- Two parts with the same members have the same minimum. -/
theorem part_congr (g : ι → α) (P Q : ι → Prop) (h : ∀ c, P c ↔ Q c) : (⨅ c, ⨅ _ : P c, g c) = ⨅ c, ⨅ _ : Q c, g c := by
  have : P = Q := funext fun c => propext (h c)
  rw [this]

/-- Starting from ⊤: the minimum over Q alone. -/
theorem min_top_part (g : ι → α) (Q R : ι → Prop) (h : ∀ c, R c ↔ Q c) :
    min ⊤ (⨅ c, ⨅ _ : Q c, g c) = ⨅ c, ⨅ _ : R c, g c := by
  rw [min_eq_right le_top]; exact (part_congr g R Q h).symm

/-- A tile of 1024 consecutive indices of 4096, as a part: the minimum over the tile's local indices is the
    minimum over the global indices whose quotient by 1024 is the tile's number. -/
theorem tile (g : Fin 4096 → α) (k : ℕ) (hk : k < 4) (e : Fin 1024 → Fin 4096) (he : ∀ l, (e l).val = k * 1024 + l.val) :
    (⨅ l : Fin 1024, g (e l)) = ⨅ c : Fin 4096, ⨅ _ : c.val / 1024 = k, g c := by
  apply le_antisymm
  · refine le_iInf fun c => le_iInf fun hc => ?_
    have hlt : c.val - k * 1024 < 1024 := by have := c.isLt; omega
    refine (iInf_le _ ⟨c.val - k * 1024, hlt⟩).trans (le_of_eq ?_)
    congr 1; apply Fin.ext; rw [he]; show k * 1024 + (c.val - k * 1024) = c.val; omega
  · refine le_iInf fun l => ?_
    have hq : (e l).val / 1024 = k := by rw [he]; have := l.isLt; omega
    exact iInf_le_of_le (e l) (iInf_le _ hq)

end Cert.Chamfer.Inf
-- ==== Proof.IdealValue.Tile.lean ====
/-
  One grid point's tile of squared distances inside the whole problem.

  Point t = (b, n, mm) works on rows n·1024 … of cloud x and rows mm·1024 … of cloud y of batch b.
  Its 1024 × 1024 tile is the squared distances between those points, so the tile's row minima are the
  minima over the columns whose quotient by 1024 is mm, and its column minima the minima over the rows
  whose quotient by 1024 is n.  Folding them into the running minima is an elementwise `min`; for the
  column block only the 1024 lanes of column block mm change.
-/
import proofs.«154268_j6433861009596_2_alg».proof.Proof.IdealBody.Explicit
import proofs.«154268_j6433861009596_2_alg».proof.Proof.IdealValue.Payloads
import proofs.«154268_j6433861009596_2_alg».proof.Proof.IdealValue.Blocks
import proofs.«154268_j6433861009596_2_alg».proof.Proof.IdealValue.InfLemmas
import proofs.«154268_j6433861009596_2_alg».proof.Proof.Spec

set_option maxRecDepth 16384

noncomputable section

open scoped BigOperators

namespace Cert.Chamfer.Sweep

open Idealize.ShloMosaic Idealize.ShloMosaic.ValueIdx Idealize.SL Idealize.SL.Sem
open Cert.KernelIdeal Cert.KernelIdeal.Gen Cert.KernelIdeal.Body Cert.Chamfer Cert.Chamfer.Payloads Cert.Chamfer.Blocks
open Idealize.ShloMosaic.Pipeline (Dat)

variable (m : (ℓ : Loc nD τ sig) → Buf (Elt Ideal) ℓ) (c : Dev nD)

/-- The two clouds as the region finds them. -/
def xArr : Cloud.Idx → EReal := V m c main_arg0
def yArr : Cloud.Idx → EReal := V m c main_arg1

/-- The squared distance in batch b between point r of x and point k of y, with natural-number indices (⊤ outside
    the arrays, which never happens at a grid point). -/
def sqN (b r k : ℕ) : EReal :=
  if h : b < 8 ∧ r < 4096 ∧ k < 4096 then sqAdd (xArr m c) (yArr m c) ⟨b, h.1⟩ ⟨r, h.2.1⟩ ⟨k, h.2.2⟩ else ⊤

theorem sqN_eq (b : Fin 8) (r k : Fin 4096) : sqN m c b.val r.val k.val = sqAdd (xArr m c) (yArr m c) b r k := by
  unfold sqN; rw [dif_pos ⟨b.isLt, r.isLt, k.isLt⟩]

/-- An entry of the tile at point t is the squared distance between the tile's row and column in the whole problem. -/
theorem sqBlk_eq (t : Fin cfg0.N) (i j : Fin 1024) :
    sqBlk (iblk m c 0 t) (iblk m c 1 t) i j = sqN m c (t.val / 16) (t.val / 4 % 4 * 1024 + i.val) (t.val % 4 * 1024 + j.val) := by
  have hN : t.val < 128 := lt_of_lt_of_eq t.isLt (show cfg0.N = 128 from N_0)
  have hb : t.val / 16 < 8 := by omega
  have hr : t.val / 4 % 4 * 1024 + i.val < 4096 := by have := i.isLt; omega
  have hk : t.val % 4 * 1024 + j.val < 4096 := by have := j.isLt; omega
  have hx : ∀ k : Fin 64, iblk m c 0 t (ix3 0 i k) = xArr m c (ix3 ⟨t.val / 16, hb⟩ ⟨t.val / 4 % 4 * 1024 + i.val, hr⟩ k) :=
    fun k => xblk m c t i k hb hr
  have hy : ∀ k : Fin 64, iblk m c 1 t (ix3 0 j k) = yArr m c (ix3 ⟨t.val / 16, hb⟩ ⟨t.val % 4 * 1024 + j.val, hk⟩ k) :=
    fun k => yblk m c t j k hb hk
  unfold sqN; rw [dif_pos ⟨hb, hr, hk⟩]
  unfold sqBlk sqAdd norm2
  simp only [hx, hy]

/-- The tile's row minimum at local row i: the minimum over the columns of column block t % 4. -/
theorem tile_row (t : Fin cfg0.N) (i : Fin 1024) :
    (⨅ j : Fin 1024, sqBlk (iblk m c 0 t) (iblk m c 1 t) i j)
      = ⨅ k : Fin 4096, ⨅ _ : k.val / 1024 = t.val % 4, sqN m c (t.val / 16) (t.val / 4 % 4 * 1024 + i.val) k.val := by
  have hN : t.val < 128 := lt_of_lt_of_eq t.isLt (show cfg0.N = 128 from N_0)
  simp only [sqBlk_eq]
  exact Inf.tile (fun k : Fin 4096 => sqN m c (t.val / 16) (t.val / 4 % 4 * 1024 + i.val) k.val) (t.val % 4) (by omega)
    (fun l => ⟨t.val % 4 * 1024 + l.val, by have := l.isLt; omega⟩) (fun l => rfl)

/-- The tile's column minimum at local column j: the minimum over the rows of row block t / 4 % 4. -/
theorem tile_col (t : Fin cfg0.N) (j : Fin 1024) :
    (⨅ i : Fin 1024, sqBlk (iblk m c 0 t) (iblk m c 1 t) i j)
      = ⨅ r : Fin 4096, ⨅ _ : r.val / 1024 = t.val / 4 % 4, sqN m c (t.val / 16) r.val (t.val % 4 * 1024 + j.val) := by
  have hN : t.val < 128 := lt_of_lt_of_eq t.isLt (show cfg0.N = 128 from N_0)
  simp only [sqBlk_eq]
  exact Inf.tile (fun r : Fin 4096 => sqN m c (t.val / 16) r.val (t.val % 4 * 1024 + j.val)) (t.val / 4 % 4) (by omega)
    (fun l => ⟨t.val / 4 % 4 * 1024 + l.val, by have := l.isLt; omega⟩) (fun l => rfl)

/-- Folding the tile into a row block: lane i becomes its minimum with the tile's row minimum. -/
theorem rowAcc_apply (X Y : Vec Ideal S1x1024x64 .f32) (r : RowBlk Ideal) (i : Fin 1024) :
    rowAcc X Y r (ix3 0 0 i) = min (r (ix3 0 0 i)) (⨅ j : Fin 1024, sqBlk X Y i j) := by
  unfold rowAcc; rw [pay1_apply, pay9_apply]

/-- Folding the tile into a column block at point t: a lane of column block t % 4 becomes its minimum with the
    tile's column minimum, every other lane is kept. -/
theorem colAcc_apply (t : Fin cfg0.N) (X Y : Vec Ideal S1x1024x64 .f32) (q : ColBlk Ideal) (k : Fin 4096) :
    colAcc (grid0.coords t) X Y q (ix3 0 0 k)
      = if h : k.val / 1024 = t.val % 4 then
          min (q (ix3 0 0 k)) (⨅ i : Fin 1024, sqBlk X Y i ⟨k.val - t.val % 4 * 1024, by have := k.isLt; omega⟩)
        else q (ix3 0 0 k) := by
  have hoff := off_eq t
  have h0 : k0_off1 (grid0.coords t) 0 = 0 := by rw [hoff]; rfl
  have h1 : k0_off1 (grid0.coords t) 1 = 0 := by rw [hoff]; rfl
  have h2 : k0_off1 (grid0.coords t) 2 = t.val % 4 * 1024 := by rw [hoff]; rfl
  unfold colAcc
  by_cases hk : k.val / 1024 = t.val % 4
  · have hin : ∀ a, (k0_off1 (grid0.coords t)) a ≤ ((ix3 (0 : Fin 1) (0 : Fin 1) k : S1x1x4096.Idx) a).val
        ∧ ((ix3 (0 : Fin 1) (0 : Fin 1) k : S1x1x4096.Idx) a).val < (k0_off1 (grid0.coords t)) a + S1x1x1024.size a := by
      intro a
      match a with
      | ⟨0, _⟩ => rw [hoff]; show (0 : ℕ) ≤ 0 ∧ (0 : ℕ) < 0 + 1; omega
      | ⟨1, _⟩ => rw [hoff]; show (0 : ℕ) ≤ 0 ∧ (0 : ℕ) < 0 + 1; omega
      | ⟨2, _⟩ => rw [hoff]; show t.val % 4 * 1024 ≤ k.val ∧ k.val < t.val % 4 * 1024 + 1024; omega
    rw [dif_pos hin, dif_pos hk]
    have hloc : Rect.unitLocal (s := S1x1x4096) (off := k0_off1 (grid0.coords t)) (size := S1x1x1024.size) (ix3 0 0 k) hin
        = (ix3 (0 : Fin 1) (0 : Fin 1) (⟨k.val - t.val % 4 * 1024, by have := k.isLt; omega⟩ : Fin 1024) : S1x1x1024.Idx) := by
      funext a; apply Fin.ext
      match a with
      | ⟨0, _⟩ => rw [Rect.unitLocal_val, hoff]; rfl
      | ⟨1, _⟩ => rw [Rect.unitLocal_val, hoff]; rfl
      | ⟨2, _⟩ => rw [Rect.unitLocal_val, hoff]; rfl
    rw [hloc, pay2_apply, pay8_apply]
    congr 1
    show q _ = q _
    congr 1
    funext a; apply Fin.ext
    match a with
    | ⟨0, _⟩ => show k0_off1 (grid0.coords t) 0 + 1 * 0 = 0; rw [h0]
    | ⟨1, _⟩ => show k0_off1 (grid0.coords t) 1 + 1 * 0 = 0; rw [h1]
    | ⟨2, _⟩ => show k0_off1 (grid0.coords t) 2 + 1 * (k.val - t.val % 4 * 1024) = k.val; rw [h2]; omega
  · have hout : ¬∀ a, (k0_off1 (grid0.coords t)) a ≤ ((ix3 (0 : Fin 1) (0 : Fin 1) k : S1x1x4096.Idx) a).val
        ∧ ((ix3 (0 : Fin 1) (0 : Fin 1) k : S1x1x4096.Idx) a).val < (k0_off1 (grid0.coords t)) a + S1x1x1024.size a := by
      intro hall
      have := hall 2
      rw [h2] at this
      have h3 : t.val % 4 * 1024 ≤ k.val ∧ k.val < t.val % 4 * 1024 + 1024 := this
      omega
    rw [dif_neg hout, dif_neg hk]

end Cert.Chamfer.Sweep

end
-- ==== Proof.IdealBody.Explicit2.lean ====
/-
  The contents the four remaining cases leave, and one point's step in plain form.

  At a batch's first point both blocks start from the reset value; at the first column block of a later row block
  only the row block does; at the last column block of a row block the row block is finished by `k0_pay3`; at a
  batch's last point the column block is finished by `k0_pay4` as well. With the middle case these are the five
  cases of the recursion on the point's number, so the step from one point to the next is one term whose
  conditions are residues of that number.
-/
import proofs.«154268_j6433861009596_2_alg».proof.Proof.IdealBody.Explicit

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- A store of the slice over a whole store of `w`, whatever was there before, leaves `colAcc` of `w`: the whole
    store makes the earlier contents irrelevant, and the slice store then folds the tile's column minima into `w`. -/
theorem canon_slice_over_whole (i : grid0.Coords) {arg6 : Memref sig .tc .vmem S1x1x4096 .f32} (harg6 : arg6.IsWhole)
    (x y : Vec F S1x1024x64 .f32) (w : ColBlk F)
    (inb0 : ∀ a, (![0, 0, 0] : Fin 3 → ℕ) a + S1x1x4096.size a ≤ S1x1x4096.size a) :
    View.canon
      [⟨Rect.unit (s := S1x1x4096) (k0_off1 i) S1x1x1024.size (Facts₀.k0_off1_inb i),
        k0_pay2 (k0_pay8 x y) (View.readAt (Elt F) arg6.view (Rect.unit (s := S1x1x4096) (k0_off1 i) S1x1x1024.size (Facts₀.k0_off1_inb i))
          (arg6.view.writes (Elt F) arg6.view.junk [⟨Rect.unit (s := S1x1x4096) ![0, 0, 0] S1x1x4096.size inb0, w⟩]))⟩,
       ⟨Rect.unit (s := S1x1x4096) ![0, 0, 0] S1x1x4096.size inb0, w⟩]
      = colAcc i x y w := by
  rw [← View.read_writes_junk_eq_canon arg6.view]
  rw [show ∀ (P P0 : View.Piece (Elt F) S1x1x4096 .f32), arg6.view.writes (Elt F) arg6.view.junk [P, P0]
        = arg6.view.writes (Elt F) (arg6.view.writes (Elt F) arg6.view.junk [P0]) [P] from fun _ _ => rfl]
  exact read_slice_store i harg6 _ x y w (by rw [View.read_writes_junk_eq_canon, View.canon_unit_zero zero3])

/-! ## The first point of a batch: both blocks are reset before they are used -/

theorem batchStart_row (c : Dev nD) (i : grid0.Coords) (arg3 : Memref sig .tc .vmem S1x1024x64 .f32) (harg3 : arg3.IsWhole) (arg4 : Memref sig .tc .vmem S1x1024x64 .f32) (harg4 : arg4.IsWhole) (arg5 : Memref sig .tc .vmem S1x1x1024 .f32) (harg5 : arg5.IsWhole) (arg6 : Memref sig .tc .vmem S1x1x4096 .f32) (harg6 : arg6.IsWhole)
    (h0 : batchStart i) (h1 : rowStart i) (h2 : ¬rowEnd i) (h3 : ¬batchEnd i)
    (x y : Vec F S1x1024x64 .f32) :
    View.canon (runBatchStart c i arg3 harg3 arg4 harg4 arg5 harg5 arg6 harg6 h0 h1 h2 h3 x y).1.1 = rowAcc x y k0_pay6 := by
  unfold runBatchStart; dsimp only; sl_unfold_words
  rw [View.canon_cons_unit_zero zero3, View.readCov_unit_zero _ zero3]
  simp only [View.readAt_eq_ld, harg3.read_unread, harg4.read_unread, View.ld_unit_zero (S := S1x1024x64) zero3]
  rfl

theorem batchStart_col (c : Dev nD) (i : grid0.Coords) (arg3 : Memref sig .tc .vmem S1x1024x64 .f32) (harg3 : arg3.IsWhole) (arg4 : Memref sig .tc .vmem S1x1024x64 .f32) (harg4 : arg4.IsWhole) (arg5 : Memref sig .tc .vmem S1x1x1024 .f32) (harg5 : arg5.IsWhole) (arg6 : Memref sig .tc .vmem S1x1x4096 .f32) (harg6 : arg6.IsWhole)
    (h0 : batchStart i) (h1 : rowStart i) (h2 : ¬rowEnd i) (h3 : ¬batchEnd i)
    (x y : Vec F S1x1024x64 .f32) :
    View.canon (runBatchStart c i arg3 harg3 arg4 harg4 arg5 harg5 arg6 harg6 h0 h1 h2 h3 x y).1.2 = colAcc i x y k0_pay5 := by
  unfold runBatchStart; dsimp only; sl_unfold_words
  simp only [View.readAt_eq_ld, harg3.read_unread, harg4.read_unread, View.ld_unit_zero (S := S1x1024x64) zero3]
  exact canon_slice_over_whole i harg6 x y k0_pay5 _

/-! ## The first column block of a later row block: the row block is reset, the column block goes on -/

theorem rowStart_row (c : Dev nD) (i : grid0.Coords) (arg3 : Memref sig .tc .vmem S1x1024x64 .f32) (harg3 : arg3.IsWhole) (arg4 : Memref sig .tc .vmem S1x1024x64 .f32) (harg4 : arg4.IsWhole) (arg5 : Memref sig .tc .vmem S1x1x1024 .f32) (harg5 : arg5.IsWhole) (arg6 : Memref sig .tc .vmem S1x1x4096 .f32) (harg6 : arg6.IsWhole)
    (h0 : ¬batchStart i) (h1 : rowStart i) (h2 : ¬rowEnd i) (h3 : ¬batchEnd i)
    (x y : Vec F S1x1024x64 .f32) (q : ColBlk F) :
    View.canon (runRowStart c i arg3 harg3 arg4 harg4 arg5 harg5 arg6 harg6 h0 h1 h2 h3 x y q).1.1 = rowAcc x y k0_pay6 := by
  unfold runRowStart; dsimp only; sl_unfold_words
  rw [View.canon_cons_unit_zero zero3, View.readCov_unit_zero _ zero3]
  simp only [View.readAt_eq_ld, harg3.read_unread, harg4.read_unread, View.ld_unit_zero (S := S1x1024x64) zero3]
  rfl

theorem rowStart_col (c : Dev nD) (i : grid0.Coords) (arg3 : Memref sig .tc .vmem S1x1024x64 .f32) (harg3 : arg3.IsWhole) (arg4 : Memref sig .tc .vmem S1x1024x64 .f32) (harg4 : arg4.IsWhole) (arg5 : Memref sig .tc .vmem S1x1x1024 .f32) (harg5 : arg5.IsWhole) (arg6 : Memref sig .tc .vmem S1x1x4096 .f32) (harg6 : arg6.IsWhole)
    (h0 : ¬batchStart i) (h1 : rowStart i) (h2 : ¬rowEnd i) (h3 : ¬batchEnd i)
    (x y : Vec F S1x1024x64 .f32) (q : ColBlk F) :
    arg6.view.read (Elt F) (arg6.view.writes (Elt F) (harg6.unread q)
      (runRowStart c i arg3 harg3 arg4 harg4 arg5 harg5 arg6 harg6 h0 h1 h2 h3 x y q).1.2) = colAcc i x y q := by
  unfold runRowStart; dsimp only; sl_unfold_words
  simp only [View.readAt_eq_ld, harg3.read_unread, harg4.read_unread, View.ld_unit_zero (S := S1x1024x64) zero3]
  exact read_slice_store i harg6 _ x y q (harg6.read_unread q)

/-! ## The last column block of a row block that is not the batch's last: the row block is finished -/

theorem rowEnd_row (c : Dev nD) (i : grid0.Coords) (arg3 : Memref sig .tc .vmem S1x1024x64 .f32) (harg3 : arg3.IsWhole) (arg4 : Memref sig .tc .vmem S1x1024x64 .f32) (harg4 : arg4.IsWhole) (arg5 : Memref sig .tc .vmem S1x1x1024 .f32) (harg5 : arg5.IsWhole) (arg6 : Memref sig .tc .vmem S1x1x4096 .f32) (harg6 : arg6.IsWhole)
    (h0 : ¬batchStart i) (h1 : ¬rowStart i) (h2 : rowEnd i) (h3 : ¬batchEnd i)
    (x y : Vec F S1x1024x64 .f32) (r : RowBlk F) (q : ColBlk F) :
    View.canon (runRowEnd c i arg3 harg3 arg4 harg4 arg5 harg5 arg6 harg6 h0 h1 h2 h3 x y r q).1.1 = k0_pay3 (rowAcc x y r) := by
  unfold runRowEnd; dsimp only; sl_unfold_words
  rw [View.canon_cons_unit_zero zero3, View.readCov_unit_zero _ zero3]
  simp only [View.readAt_eq_ld, harg3.read_unread, harg4.read_unread, harg5.read_unread,
    View.ld_unit_zero (S := S1x1024x64) zero3, View.ld_unit_zero (S := S1x1x1024) zero3]
  rfl

theorem rowEnd_col (c : Dev nD) (i : grid0.Coords) (arg3 : Memref sig .tc .vmem S1x1024x64 .f32) (harg3 : arg3.IsWhole) (arg4 : Memref sig .tc .vmem S1x1024x64 .f32) (harg4 : arg4.IsWhole) (arg5 : Memref sig .tc .vmem S1x1x1024 .f32) (harg5 : arg5.IsWhole) (arg6 : Memref sig .tc .vmem S1x1x4096 .f32) (harg6 : arg6.IsWhole)
    (h0 : ¬batchStart i) (h1 : ¬rowStart i) (h2 : rowEnd i) (h3 : ¬batchEnd i)
    (x y : Vec F S1x1024x64 .f32) (r : RowBlk F) (q : ColBlk F) :
    arg6.view.read (Elt F) (arg6.view.writes (Elt F) (harg6.unread q)
      (runRowEnd c i arg3 harg3 arg4 harg4 arg5 harg5 arg6 harg6 h0 h1 h2 h3 x y r q).1.2) = colAcc i x y q := by
  unfold runRowEnd; dsimp only; sl_unfold_words
  simp only [View.readAt_eq_ld, harg3.read_unread, harg4.read_unread, View.ld_unit_zero (S := S1x1024x64) zero3]
  exact read_slice_store i harg6 _ x y q (harg6.read_unread q)

/-! ## The last point of a batch: both blocks are finished -/

theorem batchEnd_row (c : Dev nD) (i : grid0.Coords) (arg3 : Memref sig .tc .vmem S1x1024x64 .f32) (harg3 : arg3.IsWhole) (arg4 : Memref sig .tc .vmem S1x1024x64 .f32) (harg4 : arg4.IsWhole) (arg5 : Memref sig .tc .vmem S1x1x1024 .f32) (harg5 : arg5.IsWhole) (arg6 : Memref sig .tc .vmem S1x1x4096 .f32) (harg6 : arg6.IsWhole)
    (h0 : ¬batchStart i) (h1 : ¬rowStart i) (h2 : rowEnd i) (h3 : batchEnd i)
    (x y : Vec F S1x1024x64 .f32) (r : RowBlk F) (q : ColBlk F) :
    View.canon (runBatchEnd c i arg3 harg3 arg4 harg4 arg5 harg5 arg6 harg6 h0 h1 h2 h3 x y r q).1.1 = k0_pay3 (rowAcc x y r) := by
  unfold runBatchEnd; dsimp only; sl_unfold_words
  rw [View.canon_cons_unit_zero zero3, View.readCov_unit_zero _ zero3]
  simp only [View.readAt_eq_ld, harg3.read_unread, harg4.read_unread, harg5.read_unread,
    View.ld_unit_zero (S := S1x1024x64) zero3, View.ld_unit_zero (S := S1x1x1024) zero3]
  rfl

theorem batchEnd_col (c : Dev nD) (i : grid0.Coords) (arg3 : Memref sig .tc .vmem S1x1024x64 .f32) (harg3 : arg3.IsWhole) (arg4 : Memref sig .tc .vmem S1x1024x64 .f32) (harg4 : arg4.IsWhole) (arg5 : Memref sig .tc .vmem S1x1x1024 .f32) (harg5 : arg5.IsWhole) (arg6 : Memref sig .tc .vmem S1x1x4096 .f32) (harg6 : arg6.IsWhole)
    (h0 : ¬batchStart i) (h1 : ¬rowStart i) (h2 : rowEnd i) (h3 : batchEnd i)
    (x y : Vec F S1x1024x64 .f32) (r : RowBlk F) (q : ColBlk F) :
    View.canon (runBatchEnd c i arg3 harg3 arg4 harg4 arg5 harg5 arg6 harg6 h0 h1 h2 h3 x y r q).1.2 = k0_pay4 (colAcc i x y q) := by
  unfold runBatchEnd; dsimp only; sl_unfold_words
  rw [View.canon_cons_unit_zero zero3]
  simp only [View.readAt_eq_ld, harg3.read_unread, harg4.read_unread,
    View.ld_unit_zero (S := S1x1024x64) zero3, View.ld_unit_zero (S := S1x1x4096) zero3]
  exact congrArg k0_pay4 (read_slice_store i harg6 _ x y q (harg6.read_unread q))

/-! ## One point's step in plain form -/

variable (m : (ℓ : Loc nD τ sig) → Buf (Elt F) ℓ)

/-- What point t leaves from what the point before left: the row block goes on from the reset value at m = 0 and
    from `prev.1` otherwise, and is finished at m = 3; the column block goes on from the reset value at the batch's
    first point and from `prev.2` otherwise, and is finished at the batch's last point. -/
def stepPlain (c : Dev nD) (t : Fin cfg0.N) (prev : RowBlk F × ColBlk F) : RowBlk F × ColBlk F :=
  (if t.val % 4 = 3 then k0_pay3 (rowAcc (iblk m c 0 t) (iblk m c 1 t) (if t.val % 4 = 0 then k0_pay6 else prev.1))
    else rowAcc (iblk m c 0 t) (iblk m c 1 t) (if t.val % 4 = 0 then k0_pay6 else prev.1),
   if t.val % 16 = 15 then k0_pay4 (colAcc (grid0.coords t) (iblk m c 0 t) (iblk m c 1 t) (if t.val % 16 = 0 then k0_pay5 else prev.2))
    else colAcc (grid0.coords t) (iblk m c 0 t) (iblk m c 1 t) (if t.val % 16 = 0 then k0_pay5 else prev.2))

theorem stepAt_eq (c : Dev nD) (t : Fin cfg0.N) (prev : RowBlk F × ColBlk F) : stepAt m c t prev = stepPlain m c t prev := by
  unfold stepAt stepPlain
  by_cases h0 : t.val % 16 = 0
  · have e0 : t.val % 4 = 0 := by omega
    have n3 : ¬t.val % 4 = 3 := by omega
    have n15 : ¬t.val % 16 = 15 := by omega
    rw [dif_pos h0, if_neg n3, if_pos e0, if_neg n15, if_pos h0]
    unfold atBatchStart
    exact congrArg₂ Prod.mk
      (batchStart_row c (grid0.coords t) (xMem t) (xWhole t) (yMem t) (yWhole t) (rowMem t) (rowWhole t) (colMem t) (colWhole t) _ _ _ _ (iblk m c 0 t) (iblk m c 1 t))
      (batchStart_col c (grid0.coords t) (xMem t) (xWhole t) (yMem t) (yWhole t) (rowMem t) (rowWhole t) (colMem t) (colWhole t) _ _ _ _ (iblk m c 0 t) (iblk m c 1 t))
  · by_cases h1 : t.val % 4 = 0
    · have n3 : ¬t.val % 4 = 3 := by omega
      have n15 : ¬t.val % 16 = 15 := by omega
      rw [dif_neg h0, dif_pos h1, if_neg n3, if_pos h1, if_neg n15, if_neg h0]
      unfold atRowStart
      exact congrArg₂ Prod.mk
        (rowStart_row c (grid0.coords t) (xMem t) (xWhole t) (yMem t) (yWhole t) (rowMem t) (rowWhole t) (colMem t) (colWhole t) _ _ _ _ (iblk m c 0 t) (iblk m c 1 t) prev.2)
        (rowStart_col c (grid0.coords t) (xMem t) (xWhole t) (yMem t) (yWhole t) (rowMem t) (rowWhole t) (colMem t) (colWhole t) _ _ _ _ (iblk m c 0 t) (iblk m c 1 t) prev.2)
    · by_cases h2 : t.val % 4 = 3
      · by_cases h3 : t.val % 16 = 15
        · rw [dif_neg h0, dif_neg h1, dif_pos h2, dif_pos h3, if_pos h2, if_neg h1, if_pos h3, if_neg h0]
          unfold atBatchEnd
          exact congrArg₂ Prod.mk
            (batchEnd_row c (grid0.coords t) (xMem t) (xWhole t) (yMem t) (yWhole t) (rowMem t) (rowWhole t) (colMem t) (colWhole t) _ _ _ _ (iblk m c 0 t) (iblk m c 1 t) prev.1 prev.2)
            (batchEnd_col c (grid0.coords t) (xMem t) (xWhole t) (yMem t) (yWhole t) (rowMem t) (rowWhole t) (colMem t) (colWhole t) _ _ _ _ (iblk m c 0 t) (iblk m c 1 t) prev.1 prev.2)
        · rw [dif_neg h0, dif_neg h1, dif_pos h2, dif_neg h3, if_pos h2, if_neg h1, if_neg h3, if_neg h0]
          unfold atRowEnd
          exact congrArg₂ Prod.mk
            (rowEnd_row c (grid0.coords t) (xMem t) (xWhole t) (yMem t) (yWhole t) (rowMem t) (rowWhole t) (colMem t) (colWhole t) _ _ _ _ (iblk m c 0 t) (iblk m c 1 t) prev.1 prev.2)
            (rowEnd_col c (grid0.coords t) (xMem t) (xWhole t) (yMem t) (yWhole t) (rowMem t) (rowWhole t) (colMem t) (colWhole t) _ _ _ _ (iblk m c 0 t) (iblk m c 1 t) prev.1 prev.2)
      · have n15 : ¬t.val % 16 = 15 := by omega
        rw [dif_neg h0, dif_neg h1, dif_neg h2, if_neg h2, if_neg h1, if_neg n15, if_neg h0]
        unfold atMid
        exact congrArg₂ Prod.mk
          (mid_row c (grid0.coords t) (xMem t) (xWhole t) (yMem t) (yWhole t) (rowMem t) (rowWhole t) (colMem t) (colWhole t) _ _ _ _ (iblk m c 0 t) (iblk m c 1 t) prev.1 prev.2)
          (mid_col c (grid0.coords t) (xMem t) (xWhole t) (yMem t) (yWhole t) (rowMem t) (rowWhole t) (colMem t) (colWhole t) _ _ _ _ (iblk m c 0 t) (iblk m c 1 t) prev.1 prev.2)

end Cert.KernelIdeal.Body

end
-- ==== Proof.IdealValue.Sweep.lean ====
/-
  The running minima, point by point.

  Number the sixteen points of a batch s = 4·n + mm.  After point s the row block of row block n holds, in
  lane i, the minimum of the squared distances from point n·1024 + i of x to the points of y in column
  blocks 0 … mm; the column block holds, in lane k, the minimum over the points of x whose (row block,
  k's column block) pair comes no later than s in the sweep.  Both are proved by induction on the point's
  number from the one-step description of the body; at mm = 3 (and at s = 15) the finishing root is
  applied, and the minimum is then over all columns (all rows).
-/
import proofs.«154268_j6433861009596_2_alg».proof.Proof.IdealValue.Tile
import proofs.«154268_j6433861009596_2_alg».proof.Proof.IdealBody.Explicit2

set_option maxRecDepth 16384

noncomputable section

open scoped BigOperators

namespace Cert.Chamfer.Sweep

open Idealize.ShloMosaic Idealize.ShloMosaic.ValueIdx Idealize.SL Idealize.SL.Sem
open Cert.KernelIdeal Cert.KernelIdeal.Gen Cert.KernelIdeal.Body Cert.Chamfer Cert.Chamfer.Payloads Cert.Chamfer.Blocks
open Idealize.ShloMosaic.Pipeline (Dat)

variable (m : (ℓ : Loc nD τ sig) → Buf (Elt Ideal) ℓ) (c : Dev nD)

/-- The running row minimum after point t, lane i, before any finishing. -/
def rowPre (t i : ℕ) : EReal :=
  ⨅ k : Fin 4096, ⨅ _ : k.val / 1024 ≤ t % 4, sqN m c (t / 16) (t / 4 % 4 * 1024 + i) k.val

/-- The running column minimum after point t, lane k, before any finishing. -/
def colPre (t k : ℕ) : EReal :=
  ⨅ r : Fin 4096, ⨅ _ : r.val / 1024 * 4 + k / 1024 ≤ t % 16, sqN m c (t / 16) r.val k

/-- One step of the row block. -/
theorem row_step (t : Fin cfg0.N) (pr : RowBlk Ideal) (pc : ColBlk Ideal)
    (hprev : ¬t.val % 4 = 0 → ∀ i : Fin 1024, pr (ix3 0 0 i) = rowPre m c (t.val - 1) i.val) (i : Fin 1024) :
    (stepPlain m c t (pr, pc)).1 (ix3 0 0 i) = if t.val % 4 = 3 then root (rowPre m c t.val i.val) else rowPre m c t.val i.val := by
  have hN : t.val < 128 := lt_of_lt_of_eq t.isLt (show cfg0.N = 128 from N_0)
  have key : rowAcc (iblk m c 0 t) (iblk m c 1 t) (if t.val % 4 = 0 then (k0_pay6 (F := Ideal) : RowBlk Ideal) else pr) (ix3 0 0 i) = rowPre m c t.val i.val := by
    rw [rowAcc_apply, tile_row]
    unfold rowPre
    by_cases h0 : t.val % 4 = 0
    · rw [if_pos h0, pay6_apply]
      exact Inf.min_top_part (fun k : Fin 4096 => sqN m c (t.val / 16) (t.val / 4 % 4 * 1024 + i.val) k.val)
        (fun k => k.val / 1024 = t.val % 4) (fun k => k.val / 1024 ≤ t.val % 4) (fun k => by omega)
    · rw [if_neg h0, hprev h0 i]
      unfold rowPre
      have e1 : (t.val - 1) / 16 = t.val / 16 := by omega
      have e2 : (t.val - 1) / 4 % 4 = t.val / 4 % 4 := by omega
      rw [e1, e2]
      exact Inf.min_part (fun k : Fin 4096 => sqN m c (t.val / 16) (t.val / 4 % 4 * 1024 + i.val) k.val)
        (fun k => k.val / 1024 ≤ (t.val - 1) % 4) (fun k => k.val / 1024 = t.val % 4) (fun k => k.val / 1024 ≤ t.val % 4)
        (fun k => by omega)
  unfold stepPlain
  dsimp only
  by_cases h3 : t.val % 4 = 3
  · rw [if_pos h3, if_pos h3, pay3_apply, key]
  · rw [if_neg h3, if_neg h3, key]

/-- One step of the column block. -/
theorem col_step (t : Fin cfg0.N) (pr : RowBlk Ideal) (pc : ColBlk Ideal)
    (hprev : ¬t.val % 16 = 0 → ∀ k : Fin 4096, pc (ix3 0 0 k) = colPre m c (t.val - 1) k.val) (k : Fin 4096) :
    (stepPlain m c t (pr, pc)).2 (ix3 0 0 k) = if t.val % 16 = 15 then root (colPre m c t.val k.val) else colPre m c t.val k.val := by
  have hN : t.val < 128 := lt_of_lt_of_eq t.isLt (show cfg0.N = 128 from N_0)
  have hk4 : k.val < 4096 := k.isLt
  have key : colAcc (grid0.coords t) (iblk m c 0 t) (iblk m c 1 t) (if t.val % 16 = 0 then (k0_pay5 (F := Ideal) : ColBlk Ideal) else pc) (ix3 0 0 k) = colPre m c t.val k.val := by
    rw [colAcc_apply]
    unfold colPre
    have e1 : (t.val - 1) / 16 = t.val / 16 ∨ t.val % 16 = 0 := by omega
    by_cases hk : k.val / 1024 = t.val % 4
    · rw [dif_pos hk, tile_col]
      have hj : t.val % 4 * 1024 + (k.val - t.val % 4 * 1024) = k.val := by omega
      show min _ (⨅ r : Fin 4096, ⨅ _ : r.val / 1024 = t.val / 4 % 4, sqN m c (t.val / 16) r.val (t.val % 4 * 1024 + (k.val - t.val % 4 * 1024))) = _
      rw [hj]
      by_cases h0 : t.val % 16 = 0
      · rw [if_pos h0, pay5_apply]
        exact Inf.min_top_part (fun r : Fin 4096 => sqN m c (t.val / 16) r.val k.val)
          (fun r => r.val / 1024 = t.val / 4 % 4) (fun r => r.val / 1024 * 4 + k.val / 1024 ≤ t.val % 16)
          (fun r => by have := r.isLt; omega)
      · rw [if_neg h0, hprev h0 k]
        unfold colPre
        have e : (t.val - 1) / 16 = t.val / 16 := by omega
        rw [e]
        exact Inf.min_part (fun r : Fin 4096 => sqN m c (t.val / 16) r.val k.val)
          (fun r => r.val / 1024 * 4 + k.val / 1024 ≤ (t.val - 1) % 16) (fun r => r.val / 1024 = t.val / 4 % 4)
          (fun r => r.val / 1024 * 4 + k.val / 1024 ≤ t.val % 16) (fun r => by have := r.isLt; omega)
    · rw [dif_neg hk]
      by_cases h0 : t.val % 16 = 0
      · rw [if_pos h0, pay5_apply]
        exact (Inf.part_empty (fun r : Fin 4096 => sqN m c (t.val / 16) r.val k.val)
          (fun r => r.val / 1024 * 4 + k.val / 1024 ≤ t.val % 16) (fun r => by have := r.isLt; omega)).symm
      · rw [if_neg h0, hprev h0 k]
        unfold colPre
        have e : (t.val - 1) / 16 = t.val / 16 := by omega
        rw [e]
        exact Inf.part_congr (fun r : Fin 4096 => sqN m c (t.val / 16) r.val k.val)
          (fun r => r.val / 1024 * 4 + k.val / 1024 ≤ (t.val - 1) % 16) (fun r => r.val / 1024 * 4 + k.val / 1024 ≤ t.val % 16)
          (fun r => by have := r.isLt; omega)
  unfold stepPlain
  dsimp only
  by_cases h3 : t.val % 16 = 15
  · rw [if_pos h3, if_pos h3, pay4_apply, key]
  · rw [if_neg h3, if_neg h3, key]

/-- After every point the two blocks hold the running minima, finished where the body finishes them. -/
theorem sweep : ∀ (n : ℕ) (hn : n < cfg0.N),
    (∀ i : Fin 1024, (outsAt m c n hn).1 (ix3 0 0 i) = if n % 4 = 3 then root (rowPre m c n i.val) else rowPre m c n i.val)
    ∧ (∀ k : Fin 4096, (outsAt m c n hn).2 (ix3 0 0 k) = if n % 16 = 15 then root (colPre m c n k.val) else colPre m c n k.val)
  | 0, hn => by
    have e : outsAt m c 0 hn = stepPlain m c ⟨0, hn⟩ (View.canon [], View.canon []) :=
      (show outsAt m c 0 hn = stepAt m c ⟨0, hn⟩ (View.canon [], View.canon []) from rfl).trans (stepAt_eq m c ⟨0, hn⟩ _)
    rw [e]
    exact ⟨fun i => row_step m c ⟨0, hn⟩ _ _ (fun h => absurd rfl h) i, fun k => col_step m c ⟨0, hn⟩ _ _ (fun h => absurd rfl h) k⟩
  | n + 1, hn => by
    obtain ⟨ihr, ihc⟩ := sweep n (Nat.lt_of_succ_lt hn)
    have e : outsAt m c (n + 1) hn = stepPlain m c ⟨n + 1, hn⟩ ((outsAt m c n (Nat.lt_of_succ_lt hn)).1, (outsAt m c n (Nat.lt_of_succ_lt hn)).2) :=
      (show outsAt m c (n + 1) hn = stepAt m c ⟨n + 1, hn⟩ (outsAt m c n (Nat.lt_of_succ_lt hn)) from rfl).trans (stepAt_eq m c ⟨n + 1, hn⟩ _)
    rw [e]
    refine ⟨fun i => row_step m c ⟨n + 1, hn⟩ _ _ (fun h i' => ?_) i, fun k => col_step m c ⟨n + 1, hn⟩ _ _ (fun h k' => ?_) k⟩
    · have h' : ¬n % 4 = 3 := fun h3 => h (by show (n + 1) % 4 = 0; omega)
      rw [ihr i', if_neg h']; rfl
    · have h' : ¬n % 16 = 15 := fun h3 => h (by show (n + 1) % 16 = 0; omega)
      rw [ihc k', if_neg h']; rfl

end Cert.Chamfer.Sweep

end
-- ==== Proof.IdealValue.Cover.lean ====
/-
  The written-back blocks cover the two result arrays.

  The row result [8, 1, 4096] is written back in blocks [1, 1, 1024] at block index
  (t / 16, 0, t / 4 % 4) by the points with t % 4 = 3; the column result [8, 1, 4096] in blocks
  [1, 1, 4096] at block index (t / 16, 0, 0) by the points with t % 16 = 15.  An index (b, 0, l)
  lies in the block of point 16·b + 4·(l / 1024) + 3, respectively 16·b + 15.
-/
import proofs.«154268_j6433861009596_2_alg».proof.Proof.IdealValue.Blocks
import proofs.«154268_j6433861009596_2_alg».proof.Proof.Gen.KernelIdeal.Points

set_option maxRecDepth 16384

noncomputable section

namespace Cert.Chamfer.Cover

open Cert.KernelIdeal Cert.KernelIdeal.Gen Idealize.ShloMosaic Idealize.ShloMosaic.ValueIdx
open Idealize.SL Idealize.SL.Sem
open Cert.Chamfer.Blocks

/-! ### Membership in a point's block, axis by axis -/

/-- An index of the row result is in point t's block iff each coordinate is in the block's range on its axis. -/
theorem mem_row (t : Fin cfg0.N) (i : S8x1x4096.Idx) :
    i ∈ ((cfg0.win 2).blk t).view.set ↔ ∀ a : Fin 3, win0_2.index t a * S1x1x1024.size a ≤ (i a).val
      ∧ (i a).val < win0_2.index t a * S1x1x1024.size a + S1x1x1024.size a := by
  show i ∈ ((View.whole main_v0_0).slice (win0_2.rect t)).set ↔ _
  rw [View.set_slice_whole, Rect.mem_set_unit]
  exact Iff.rfl

/-- An index of the column result is in point t's block iff each coordinate is in the block's range on its axis. -/
theorem mem_col (t : Fin cfg0.N) (i : S8x1x4096.Idx) :
    i ∈ ((cfg0.win 3).blk t).view.set ↔ ∀ a : Fin 3, win0_3.index t a * S1x1x4096.size a ≤ (i a).val
      ∧ (i a).val < win0_3.index t a * S1x1x4096.size a + S1x1x4096.size a := by
  show i ∈ ((View.whole main_v0_1).slice (win0_3.rect t)).set ↔ _
  rw [View.set_slice_whole, Rect.mem_set_unit]
  exact Iff.rfl

/-! ### The covers -/

/-- Every index (b, 0, l) of the row result is in the block written back at point 16·b + 4·(l / 1024) + 3. -/
theorem cover_row : ∀ i : S8x1x4096.Idx, ∃ t : Fin cfg0.N, (cfg0.win 2).flush t = true ∧ i ∈ ((cfg0.win 2).blk t).view.set := by
  intro i
  have hi0 : (i 0).val < 8 := (i 0).isLt
  have hi1 : (i 1).val < 1 := (i 1).isLt
  have hi2 : (i 2).val < 4096 := (i 2).isLt
  obtain ⟨t, htv⟩ : ∃ t : Fin cfg0.N, t.val = (i 0).val * 16 + (i 2).val / 1024 * 4 + 3 :=
    ⟨⟨(i 0).val * 16 + (i 2).val / 1024 * 4 + 3, lt_of_lt_of_eq (by omega) N_0.symm⟩, rfl⟩
  obtain ⟨-, -, -, -, -, -, e0, e1, e2, -⟩ := idx_facts t
  refine ⟨t, (flush0_2 t).mpr (by omega), ?_⟩
  rw [mem_row]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1 ≤ (i 1).val ∧ (i 1).val < win0_2.index t (1 : Fin 3) * 1 + 1; omega
  | ⟨2, _⟩ => show win0_2.index t (2 : Fin 3) * 1024 ≤ (i 2).val ∧ (i 2).val < win0_2.index t (2 : Fin 3) * 1024 + 1024; omega

/-- Every index (b, 0, l) of the column result is in the block written back at point 16·b + 15. -/
theorem cover_col : ∀ i : S8x1x4096.Idx, ∃ t : Fin cfg0.N, (cfg0.win 3).flush t = true ∧ i ∈ ((cfg0.win 3).blk t).view.set := by
  intro i
  have hi0 : (i 0).val < 8 := (i 0).isLt
  have hi1 : (i 1).val < 1 := (i 1).isLt
  have hi2 : (i 2).val < 4096 := (i 2).isLt
  obtain ⟨t, htv⟩ : ∃ t : Fin cfg0.N, t.val = (i 0).val * 16 + 15 :=
    ⟨⟨(i 0).val * 16 + 15, lt_of_lt_of_eq (by omega) N_0.symm⟩, rfl⟩
  obtain ⟨-, -, -, -, -, -, -, -, -, e0, e1, e2⟩ := idx_facts t
  refine ⟨t, (flush0_3 t).mpr (by omega), ?_⟩
  rw [mem_col]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1 ≤ (i 1).val ∧ (i 1).val < win0_3.index t (1 : Fin 3) * 1 + 1; omega
  | ⟨2, _⟩ => show win0_3.index t (2 : Fin 3) * 4096 ≤ (i 2).val ∧ (i 2).val < win0_3.index t (2 : Fin 3) * 4096 + 4096; omega

/-! ### The same covers at the index type of each window's array as a device holds it -/

theorem cover_row_at (c : Dev nD) : ∀ i : ((cfg0.win 2).arr.view.loc (c.tc : Thread nD τ)).2.ty.Idx,
    ∃ t : Fin cfg0.N, (cfg0.win 2).flush t = true ∧ i ∈ ((cfg0.win 2).blk t).view.set :=
  cover_row

theorem cover_col_at (c : Dev nD) : ∀ i : ((cfg0.win 3).arr.view.loc (c.tc : Thread nD τ)).2.ty.Idx,
    ∃ t : Fin cfg0.N, (cfg0.win 3).flush t = true ∧ i ∈ ((cfg0.win 3).blk t).view.set :=
  cover_col

end Cert.Chamfer.Cover

end
-- ==== Proof.IdealValue.Final.lean ====
/-
  The two result arrays after the run.

  The row block is written back after the last column block (mm = 3) and then holds, in lane i, the root of
  the minimum over ALL 4096 columns; the blocks written back at the points t ≡ 3 (mod 4) tile the row
  result, so it ends holding, at (b, 0, r), the nearest-neighbour distance from point r of x (minimum taken
  first, root once).  Likewise the column block is written back at the last point of each batch.
-/
import proofs.«154268_j6433861009596_2_alg».proof.Proof.IdealValue.Sweep
import proofs.«154268_j6433861009596_2_alg».proof.Proof.IdealValue.Cover
import proofs.«154268_j6433861009596_2_alg».proof.Proof.IdealBody.Frame
import Idealize.ShloMosaic.Lib.Pipeline.Value

set_option maxRecDepth 16384

noncomputable section

open scoped BigOperators

namespace Cert.Chamfer.Final

open Idealize.ShloMosaic Idealize.ShloMosaic.ValueIdx Idealize.SL Idealize.SL.Sem
open Cert.KernelIdeal Cert.KernelIdeal.Gen Cert.KernelIdeal.Body Cert.Chamfer Cert.Chamfer.Payloads Cert.Chamfer.Blocks
open Idealize.ShloMosaic.Pipeline (Dat)

variable (m : (ℓ : Loc nD τ sig) → Buf (Elt Ideal) ℓ) (c : Dev nD)

open Cert.Chamfer.Sweep

/-- The row result and the column result as whole arrays, over natural-number indices. -/
def rowG : S8x1x4096.Idx → EReal := fun i => root (⨅ k : Fin 4096, sqN m c (i 0).val (i 2).val k.val)
def colG : S8x1x4096.Idx → EReal := fun i => root (⨅ r : Fin 4096, sqN m c (i 0).val r.val (i 2).val)

theorem rowG_apply (b : Fin 8) (r : Fin 4096) : rowG m c (ix3 b (0 : Fin 1) r) = rowMinFirst (xArr m c) (yArr m c) b r := by
  unfold rowG rowMinFirst
  simp only [← sqN_eq]
theorem colG_apply (b : Fin 8) (k : Fin 4096) : colG m c (ix3 b (0 : Fin 1) k) = colMinFirst (xArr m c) (yArr m c) b k := by
  unfold colG colMinFirst
  simp only [← sqN_eq]

/-- An index of a 1 × 1 × n block is (0, 0, its last coordinate). -/
theorem blk_idx {n : ℕ} (y : (⟨3, ![1, 1, n]⟩ : Shape).Idx) : y = ix3 (0 : Fin 1) (0 : Fin 1) (y 2) := by
  funext a
  match a with
  | ⟨0, _⟩ => exact Subsingleton.elim (α := Fin 1) _ _
  | ⟨1, _⟩ => exact Subsingleton.elim (α := Fin 1) _ _
  | ⟨2, _⟩ => rfl

/-- What a point with mm = 3 writes back is its block of the row result. -/
theorem flushed_row (t : Fin cfg0.N) (hf : (cfg0.win 2).flush t = true) :
    (dats m 0 c).flushed 2 t = ((cfg0.win 2).blk t).view.read (Elt Ideal) (rowG m c) := by
  have h3 : t.val % 4 = 3 := (flush0_2 t).mp hf
  have hN : t.val < 128 := lt_of_lt_of_eq t.isLt (show cfg0.N = 128 from N_0)
  show (cfg0.win 2).cut (grid0.coords t) ((dats m 0 c).after 2 t) = _
  rw [after_row]
  funext y
  show (outsAt m c t.val t.isLt).1 y = rowG m c (((cfg0.win 2).blk t).view.emb y)
  obtain ⟨e0, e1, e2⟩ := rowEmb t y
  have hy : (outsAt m c t.val t.isLt).1 y = (outsAt m c t.val t.isLt).1 (ix3 (0 : Fin 1) (0 : Fin 1) (y 2)) :=
    congrArg _ (blk_idx (n := 1024) y)
  rw [hy, (sweep m c t.val t.isLt).1 (y 2), if_pos h3]
  unfold rowG rowPre
  rw [e0, e2]
  congr 1
  exact Inf.part_univ (fun k : Fin 4096 => sqN m c (t.val / 16) (t.val / 4 % 4 * 1024 + (y 2).val) k.val)
    (fun k => k.val / 1024 ≤ t.val % 4) (fun k => by have := k.isLt; omega)

/-- What the last point of a batch writes back is its block of the column result. -/
theorem flushed_col (t : Fin cfg0.N) (hf : (cfg0.win 3).flush t = true) :
    (dats m 0 c).flushed 3 t = ((cfg0.win 3).blk t).view.read (Elt Ideal) (colG m c) := by
  have h3 : t.val % 16 = 15 := (flush0_3 t).mp hf
  have hN : t.val < 128 := lt_of_lt_of_eq t.isLt (show cfg0.N = 128 from N_0)
  show (cfg0.win 3).cut (grid0.coords t) ((dats m 0 c).after 3 t) = _
  rw [after_col]
  funext y
  show (outsAt m c t.val t.isLt).2 y = colG m c (((cfg0.win 3).blk t).view.emb y)
  obtain ⟨e0, e1, e2⟩ := colEmb t y
  have hy : (outsAt m c t.val t.isLt).2 y = (outsAt m c t.val t.isLt).2 (ix3 (0 : Fin 1) (0 : Fin 1) (y 2)) :=
    congrArg _ (blk_idx (n := 4096) y)
  rw [hy, (sweep m c t.val t.isLt).2 (y 2), if_pos h3]
  unfold colG colPre
  rw [e0, e2]
  congr 1
  exact Inf.part_univ (fun r : Fin 4096 => sqN m c (t.val / 16) r.val (y 2).val)
    (fun r => r.val / 1024 * 4 + (y 2).val / 1024 ≤ t.val % 16) (fun r => by have := r.isLt; have hy2 : (y 2).val < 4096 := (y 2).isLt; omega)

/-- The row result after the run. -/
theorem final_row : (dats m 0 c).arrAt 2 cfg0.N = rowG m c :=
  (dats m 0 c).arrAt_eq_of_cover 2 (rowG m c) (fun t hf => flushed_row m c t hf) (Cover.cover_row_at c)

/-- The column result after the run. -/
theorem final_col : (dats m 0 c).arrAt 3 cfg0.N = colG m c :=
  (dats m 0 c).arrAt_eq_of_cover 3 (colG m c) (fun t hf => flushed_col m c t hf) (Cover.cover_col_at c)

end Cert.Chamfer.Final

end
-- ==== Proof.IdealValue.KernelRun.lean ====
/-
  The program's run, re-posted at the result buffer.

  After the region the two result arrays hold what the proof data computes from the blocks written
  back; every other buffer holds what it held before.  The seventeen operations after the region
  then compute the result buffer from that valuation.  The run of the whole program therefore ends
  with the result buffer at those operations applied to the valuation, and the two arguments
  unchanged.
-/
import proofs.«154268_j6433861009596_2_alg».proof.Proof.IdealBody.Frame
import Idealize.ShloMosaic.Lib.Pipeline.Frame
import Idealize.ShloMosaic.Lib.Pipeline.FrameSuffix

set_option maxRecDepth 16384

noncomputable section

namespace Cert.Chamfer.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Body

variable {F : FTy → Type} [FloatOps F]

variable (m : (ℓ : Loc nD τ sig) → Buf (Elt F) ℓ) (ρ : Dev nD → PrngReg)

/-- What a device's buffers hold when the region is left: the four windows' arrays at what the proof data
    computes after the last point, every other buffer at its contents when the region was entered. -/
def finalVal (c : Dev nD) : Valuation τ sig (Elt F) :=
  Pipeline.withArrays spec0 c (V0 m c) fun w => (dats m 0 c).arrAt w cfg0.N

/-- The result buffer is unscoped and is no window's array. -/
theorem main_v11_rest : main_v11 ∈ Pipeline.restRefs sig spec0 :=
  Pipeline.mem_restRefs_of main_v11 rfl (fun w => by fin_cases w <;> decide)

/-- What the frame run says of a buffer that is no window's array, spelled over `finalVal`. -/
theorem afterTail_eq (c : Dev nD) (b : Ref sig .tc) :
    Pipeline.afterTail₀ cfgs (dats m) 0 (V0 m) [hostOps1] c b
      = StableHlo.after (hostOps1 (F := F)) (finalVal m c) (Proc.devRef .tc b) := by
  unfold Pipeline.afterTail₀ finalVal
  simp only [List.flatten_cons, List.flatten_nil, List.append_nil]

/-- Every weakly fair execution of the program terminates with the result buffer at the operations after the
    region applied to `finalVal`, and the two arguments unchanged. -/
theorem kernel_run : θ_run defs (onTc (τ := τ) (main (F := F))) ⟨m, fun _ => 0, ρ⟩ (fun r => ∀ c : Dev nD,
      r.2.mem ((c.tc : Thread nD τ).loc main_v11) = StableHlo.after (hostOps1 (F := F)) (finalVal m c) (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨((h c).2 main_v11 main_v11_rest).trans (afterTail_eq m c main_v11),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

/-- At the row result's array `finalVal` is what the proof data computes after the last point. -/
theorem finalVal_row (c : Dev nD) : finalVal m c (Proc.devRef .tc main_v0_0) = (dats m 0 c).arrAt 2 cfg0.N :=
  Pipeline.withArrays_arr spec0 launch0.win.arr_inj c _ _ 2

/-- At the column result's array likewise. -/
theorem finalVal_col (c : Dev nD) : finalVal m c (Proc.devRef .tc main_v0_1) = (dats m 0 c).arrAt 3 cfg0.N :=
  Pipeline.withArrays_arr spec0 launch0.win.arr_inj c _ _ 3

end Cert.Chamfer.KernelRun

end
-- ==== Proof.Tail.lean ====
/-
  The arithmetic both programs end with: from the array A of nearest-neighbour distances of the
  y-points and the array B of those of the x-points (each 8 × 4096), the mean over the batch of
  (mean of A's row + mean of B's row), every sum taken from the zero word and every mean a division
  by the word for 4096, the last by the word for 8.  The arithmetic is named once and never opened.
-/
import proofs.«154268_j6433861009596_2_alg».proof.Proof.Gen.KernelIdeal.Frame
import proofs.«154268_j6433861009596_2_alg».proof.Proof.Gen.ReferenceIdeal.Read
import Idealize.ShloMosaic.Lib.StableHlo.Run
import Idealize.ShloMosaic.Lib.Pipeline.Value
import Idealize.ShloMosaic.Lib.ValueIdx

noncomputable section

namespace Cert.Chamfer.Tail

open Idealize.ShloMosaic Idealize.ShloMosaic.ValueIdx Idealize.ShloMosaic.StableHlo

/-- The shared ending: ((Σ_b (Σ_c A[b,c] / 4096 + Σ_r B[b,r] / 4096)) / 8), as the reference spells it. -/
def meanOfMeans (A B : FVec Ideal Cert.ReferenceIdeal.S8x4096 .f32) :
    (⟨Cert.ReferenceIdeal.S_, .f32⟩ : BufTy).Contents (Elt Ideal) :=
  Host.divf (F := Ideal)
    (Host.reduceAdd (F := Ideal)
      (addf (F := Ideal)
        (Host.divf (F := Ideal)
          (Host.reduceAdd (F := Ideal) A (constant (F := Ideal) Cert.ReferenceIdeal.S_ .f32 0x00000000#32)
            Cert.ReferenceIdeal.Facts₀.reducesTo_S8x4096_S8_d1 Cert.ReferenceIdeal.Facts₀.h_S_)
          (broadcastInDim Cert.ReferenceIdeal.S8 ![] Cert.ReferenceIdeal.Facts₀.bcast_S_S8
            (constant (F := Ideal) Cert.ReferenceIdeal.S_ .f32 0x45800000#32)))
        (Host.divf (F := Ideal)
          (Host.reduceAdd (F := Ideal) B (constant (F := Ideal) Cert.ReferenceIdeal.S_ .f32 0x00000000#32)
            Cert.ReferenceIdeal.Facts₀.reducesTo_S8x4096_S8_d1 Cert.ReferenceIdeal.Facts₀.h_S_)
          (broadcastInDim Cert.ReferenceIdeal.S8 ![] Cert.ReferenceIdeal.Facts₀.bcast_S_S8
            (constant (F := Ideal) Cert.ReferenceIdeal.S_ .f32 0x45800000#32))))
      (constant (F := Ideal) Cert.ReferenceIdeal.S_ .f32 0x00000000#32)
      Cert.ReferenceIdeal.Facts₀.reducesTo_S8_S_d0 Cert.ReferenceIdeal.Facts₀.h_S_)
    (constant (F := Ideal) Cert.ReferenceIdeal.S_ .f32 0x41000000#32)

/-- The reference's result is the shared ending of its two arrays of minima. -/
theorem ref_tail (x0 x1 : (⟨Cert.ReferenceIdeal.S8x4096x64, .f32⟩ : BufTy).Contents (Elt Ideal)) :
    Cert.ReferenceIdeal.Read.val_main_v26 (F := Ideal) x0 x1
      = meanOfMeans (Cert.ReferenceIdeal.Read.val_main_v16 (F := Ideal) x0 x1)
          (Cert.ReferenceIdeal.Read.val_main_v20 (F := Ideal) x0 x1) := by
  rfl

/-- An [8, 1, 4096] array viewed as [8, 4096] reads, at (b, c), the operand at (b, 0, c). -/
theorem reshape_apply (Z : (⟨3, ![8, 1, 4096]⟩ : Shape).Idx → EReal)
    (h : (⟨3, ![8, 1, 4096]⟩ : Shape).ShapeCasts (⟨2, ![8, 4096]⟩ : Shape)) (b : Fin 8) (c : Fin 4096) :
    shapeCast (⟨2, ![8, 4096]⟩ : Shape) Z h (ix2 b c) = Z (ix3 b (0 : Fin 1) c) :=
  shapeCast_apply Z h _ _ (by
    rw [Shape.rowMajor_val_three, Shape.rowMajor_val_two]
    show (b.val * 1 + 0) * 4096 + c.val = b.val * 4096 + c.val
    omega)

/-- Two [8, 4096] arrays that agree at every (b, c) are equal. -/
theorem ext2 (A A' : FVec Ideal Cert.ReferenceIdeal.S8x4096 .f32)
    (h : ∀ (b : Fin 8) (c : Fin 4096), A (ix2 b c) = A' (ix2 b c)) : A = A' :=
  funext fun j => by rw [eq_ix2 j]; exact h (j 0) (j 1)

/-- The kernel program's ending, run from any contents W of its buffers, is the shared ending of its two results
    viewed as [8, 4096] arrays: the result over the y-points first, the result over the x-points second. -/
theorem ker_tail (W : Valuation Cert.KernelIdeal.τ Cert.KernelIdeal.sig (Elt Ideal)) :
    StableHlo.after (Cert.KernelIdeal.Gen.hostOps1 (F := Ideal)) W (Proc.devRef .tc Cert.KernelIdeal.main_v11)
      = meanOfMeans
          (shapeCast Cert.KernelIdeal.S8x4096
            (W (Proc.devRef .tc Cert.KernelIdeal.main_v0_1) : Cert.KernelIdeal.S8x1x4096.Idx → EReal)
            Cert.KernelIdeal.Facts₀.shapeCasts_S8x1x4096_S8x4096)
          (shapeCast Cert.KernelIdeal.S8x4096
            (W (Proc.devRef .tc Cert.KernelIdeal.main_v0_0) : Cert.KernelIdeal.S8x1x4096.Idx → EReal)
            Cert.KernelIdeal.Facts₀.shapeCasts_S8x1x4096_S8x4096) := by
  after_results
  rfl

end Cert.Chamfer.Tail

end
-- ==== Proof.RefValue.lean ====
/-
  The reference program's two nearest-neighbour minima, read at an index.

  The reference forms, for every pair (r, c) of points of batch b, the distance
  sqrt(max((|x_r|² + |y_c|²) − 2·⟨x_r, y_c⟩, 0)), and then takes the minimum over r (for every c)
  and the minimum over c (for every r), each from +∞.  A minimum from +∞ over all 4096 points is the
  infimum over them.
-/
import proofs.«154268_j6433861009596_2_alg».proof.Proof.Gen.ReferenceIdeal.Read
import proofs.«154268_j6433861009596_2_alg».proof.Proof.Spec

noncomputable section

open scoped BigOperators

namespace Cert.Chamfer.RefValue

open Cert.ReferenceIdeal Cert.ReferenceIdeal.Gen Cert.ReferenceIdeal.Read Idealize.ShloMosaic Idealize.ShloMosaic.ValueIdx

/-! ## The index functions of the generated reading, at coordinates -/

theorem idx_x (b : Fin 8) (r c : Fin 4096) (k : Fin 64) :
    idx_main_v1 (idx_main_v5 (idx_main_v7 (ix3 b r c))) k = ix3 b r k :=
  funext fun a => Fin.ext (by match a with | ⟨0, _⟩ => rfl | ⟨1, _⟩ => rfl | ⟨2, _⟩ => rfl)

theorem idx_y (b : Fin 8) (r c : Fin 4096) (k : Fin 64) :
    idx_main_v3 (idx_main_v6 (idx_main_v8 (ix3 b r c))) k = ix3 b c k :=
  funext fun a => Fin.ext (by match a with | ⟨0, _⟩ => rfl | ⟨1, _⟩ => rfl | ⟨2, _⟩ => rfl)

theorem lidx_xy (b : Fin 8) (r c : Fin 4096) (k : Fin 64) :
    lidx_main_v4 (ix3 b r c) k = ix3 b r k :=
  funext fun a => Fin.ext (by match a with | ⟨0, _⟩ => rfl | ⟨1, _⟩ => rfl | ⟨2, _⟩ => rfl)

theorem ridx_xy (b : Fin 8) (r c : Fin 4096) (k : Fin 64) :
    ridx_main_v4 (ix3 b r c) k = ix3 b c k :=
  funext fun a => Fin.ext (by match a with | ⟨0, _⟩ => rfl | ⟨1, _⟩ => rfl | ⟨2, _⟩ => rfl)

/-! ## The distance of one pair -/

/-- The reference's distance array at (b, r, c) is the root of the squared distance of x_r and y_c. -/
theorem pair_apply (x0 x1 : (⟨S8x4096x64, .f32⟩ : BufTy).Contents (Elt Ideal)) (b : Fin 8) (r c : Fin 4096) :
    val_main_v15 (F := Ideal) x0 x1 (ix3 b r c) = root (sqSub x0 x1 b r c) := by
  rw [val_main_v15_apply, val_main_v14_apply, val_main_v13_apply, val_main_cst_2_apply, val_main_v12_apply,
    val_main_v11_apply, val_main_v10_apply, val_main_cst_1_apply, val_main_v4_apply, val_main_v9_apply,
    val_main_v8_apply, val_main_v6_apply, val_main_v3_apply, val_main_cst_0_apply,
    val_main_v7_apply, val_main_v5_apply, val_main_v1_apply, val_main_cst_apply]
  simp only [val_main_v0_apply, val_main_v2_apply, idx_x, idx_y, lidx_xy, ridx_xy, Ideal.ofBits_def, Ideal.addf_def,
    Ideal.subf_def, Ideal.mulf_def, Ideal.maximumf_def, Ideal.hostUnary_sqrt_def]
  rfl

/-! ## A minimum from +∞ over all the points is the infimum -/

/-- The word 0x7F800000 reads as +∞. -/
theorem infWord : Ideal.ofBits .f32 0x7F800000#32 = (⊤ : EReal) := by
  simp [Ideal.ofBits, Ideal.ieee]

/-- Folding `min` from +∞ over every index is the infimum of the family. -/
theorem fold_min_top (n : Nat) (f : Fin n → EReal) :
    (Finset.univ : Finset (Fin n)).fold min (⊤ : EReal) f = ⨅ k, f k := by
  apply le_antisymm
  · exact le_iInf fun k => (Finset.fold_min_le _).2 (Or.inr ⟨k, Finset.mem_univ _, le_rfl⟩)
  · exact (Finset.le_fold_min _).2 ⟨le_top, fun k _ => iInf_le f k⟩

/-- Putting x-point `k` back into the reduced index (b, c) gives (b, k, c). -/
theorem lift_d1 (h : S8x4096x4096.Reduces [1] S8x4096) (b : Fin 8) (c : Fin 4096) (k : Fin (S8x4096x4096.size 1)) :
    h.lift (ix2 b c) k = ix3 b (⟨k.val, k.isLt⟩ : Fin 4096) c := by
  funext a; apply Fin.ext
  fin_cases a <;> rfl

/-- Putting y-point `k` back into the reduced index (b, r) gives (b, r, k). -/
theorem lift_d2 (h : S8x4096x4096.Reduces [2] S8x4096) (b : Fin 8) (r : Fin 4096) (k : Fin (S8x4096x4096.size 2)) :
    h.lift (ix2 b r) k = ix3 b r (⟨k.val, k.isLt⟩ : Fin 4096) := by
  funext a; apply Fin.ext
  fin_cases a <;> rfl

/-- The minimum over the x-points, from +∞, of any array of pairs. -/
theorem reduce_min_d1 (y : FVec Ideal S8x4096x4096 .f32) (b : Fin 8) (c : Fin 4096) :
    Host.reduce FloatOps.minimumf y (val_main_cst_3 (F := Ideal)) Facts₀.reducesTo_S8x4096x4096_S8x4096_d1 Facts₀.h_S_ (ix2 b c)
      = ⨅ r : Fin 4096, y (ix3 b r c) := by
  have h : S8x4096x4096.Reduces [1] S8x4096 := by decide
  rw [Host.reduce_eq_fold_single FloatOps.minimumf y _ Facts₀.reducesTo_S8x4096x4096_S8x4096_d1 h Facts₀.h_S_]
  rw [val_main_cst_3_apply, Ideal.ofBits_def, infWord]
  have hf : (y ∘ h.lift (ix2 b c)) = fun k : Fin 4096 => y (ix3 b k c) := funext fun k => congrArg y (lift_d1 h b c k)
  refine Eq.trans ?_ (fold_min_top 4096 fun k => y (ix3 b k c))
  exact congrArg (fun f => Finset.fold min (⊤ : EReal) f (Finset.univ : Finset (Fin 4096))) hf

/-- The minimum over the y-points, from +∞, of any array of pairs. -/
theorem reduce_min_d2 (y : FVec Ideal S8x4096x4096 .f32) (b : Fin 8) (r : Fin 4096) :
    Host.reduce FloatOps.minimumf y (val_main_cst_6 (F := Ideal)) Facts₀.reducesTo_S8x4096x4096_S8x4096_d2 Facts₀.h_S_ (ix2 b r)
      = ⨅ c : Fin 4096, y (ix3 b r c) := by
  have h : S8x4096x4096.Reduces [2] S8x4096 := by decide
  rw [Host.reduce_eq_fold_single FloatOps.minimumf y _ Facts₀.reducesTo_S8x4096x4096_S8x4096_d2 h Facts₀.h_S_]
  rw [val_main_cst_6_apply, Ideal.ofBits_def, infWord]
  have hf : (y ∘ h.lift (ix2 b r)) = fun k : Fin 4096 => y (ix3 b r k) := funext fun k => congrArg y (lift_d2 h b r k)
  refine Eq.trans ?_ (fold_min_top 4096 fun k => y (ix3 b r k))
  exact congrArg (fun f => Finset.fold min (⊤ : EReal) f (Finset.univ : Finset (Fin 4096))) hf

/-! ## The two minima of the reference -/

/-- The reference's minimum over the x-points at (b, c) is the nearest-neighbour distance of y_c to the cloud x. -/
theorem ref_col (x0 x1 : (⟨S8x4096x64, .f32⟩ : BufTy).Contents (Elt Ideal)) (b : Fin 8) (c : Fin 4096) :
    val_main_v16 (F := Ideal) x0 x1 (ix2 b c) = colPairwise x0 x1 b c := by
  unfold val_main_v16 colPairwise
  exact (reduce_min_d1 (val_main_v15 (F := Ideal) x0 x1) b c).trans (iInf_congr fun r => pair_apply x0 x1 b r c)

/-- The reference's minimum over the y-points at (b, r) is the nearest-neighbour distance of x_r to the cloud y. -/
theorem ref_row (x0 x1 : (⟨S8x4096x64, .f32⟩ : BufTy).Contents (Elt Ideal)) (b : Fin 8) (r : Fin 4096) :
    val_main_v20 (F := Ideal) x0 x1 (ix2 b r) = rowPairwise x0 x1 b r := by
  unfold val_main_v20 rowPairwise
  exact (reduce_min_d2 (val_main_v15 (F := Ideal) x0 x1) b r).trans (iInf_congr fun c => pair_apply x0 x1 b r c)

end Cert.Chamfer.RefValue

end
-- ==== Proof.SpecLaws.lean ====
/-
  The laws joining the two forms of the Chamfer distance named in Spec.

  On real inputs the two spellings of the squared distance agree (real algebra under the
  coercion), the root of the positive part is monotone, a monotone map commutes with the
  minimum of a finite nonempty family, and hence taking the root pair by pair and then
  minimising equals minimising first and taking the root once.
-/
import proofs.«154268_j6433861009596_2_alg».proof.Proof.Spec
import Idealize.ShloMosaic.PureOps.Ideal
import Idealize.ShloMosaic.PureOps.Ideal.Laws

noncomputable section

open scoped BigOperators

namespace Cert.Chamfer

open Idealize.ShloMosaic Idealize.ShloMosaic.ValueIdx

/-! ### The constant words -/

theorem zeroW_eq : zeroW = 0 := by
  unfold zeroW; exact Ideal.ofBits_zero_f32

theorem twoW_eq : twoW = ((2 : ℝ) : EReal) := by
  unfold twoW; simp [Ideal.ofBits, Ideal.ieee, -EReal.coe_mul]; norm_num

theorem negTwoW_eq : negTwoW = ((-2 : ℝ) : EReal) := by
  unfold negTwoW; simp [Ideal.ofBits, Ideal.ieee, -EReal.coe_mul]; norm_num

theorem infW_eq : infW = ⊤ := by
  unfold infW; simp [Ideal.ofBits, Ideal.ieee]

/-! ### The two spellings of the squared distance -/

/-- The coercion of the reals into the extended reals commutes with finite sums. -/
theorem coe_finset_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- On real inputs, adding Σ_k x_rk·(y_ck·(−2)) is subtracting 2·⟨x_r, y_c⟩: both are the real
    number −2·Σ_k x_rk·y_ck under the coercion. -/
theorem sqAdd_eq_sqSub (x y : Cloud.Idx → EReal) (hx : AllReal x) (hy : AllReal y)
    (b : Fin 8) (r c : Fin 4096) : sqAdd x y b r c = sqSub x y b r c := by
  choose xr hxr using hx
  choose yr hyr using hy
  unfold sqAdd sqSub dot
  rw [twoW_eq, negTwoW_eq]
  have h1 : ∑ k : Fin 64, x (ix3 b r k) * (y (ix3 b c k) * ((-2 : ℝ) : EReal))
      = ((-(2 * ∑ k : Fin 64, xr (ix3 b r k) * yr (ix3 b c k)) : ℝ) : EReal) := by
    rw [Finset.mul_sum, ← Finset.sum_neg_distrib, coe_finset_sum]
    refine Finset.sum_congr rfl fun k _ => ?_
    rw [hxr, hyr, ← EReal.coe_mul, ← EReal.coe_mul]
    congr 1; ring
  have h2 : ((2 : ℝ) : EReal) * ∑ k : Fin 64, x (ix3 b r k) * y (ix3 b c k)
      = ((2 * ∑ k : Fin 64, xr (ix3 b r k) * yr (ix3 b c k) : ℝ) : EReal) := by
    rw [EReal.coe_mul, coe_finset_sum]
    congr 1
    refine Finset.sum_congr rfl fun k _ => ?_
    rw [hxr, hyr, EReal.coe_mul]
  rw [h1, h2, sub_eq_add_neg, EReal.coe_neg]

/-! ### The root of the positive part -/

/-- The square root of the extended reals (⊥ below zero) is monotone. -/
theorem sqrt_mono : Monotone Ideal.sqrt := by
  intro a b hab
  induction a using EReal.rec with
  | bot => rw [Ideal.sqrt_bot]; exact bot_le
  | top => rw [top_le_iff.mp hab]
  | coe r =>
    induction b using EReal.rec with
    | bot => exact absurd hab (not_le.mpr (EReal.bot_lt_coe r))
    | top => rw [Ideal.sqrt_top]; exact le_top
    | coe s =>
      have hrs : r ≤ s := EReal.coe_le_coe_iff.mp hab
      rw [Ideal.sqrt_coe, Ideal.sqrt_coe]
      by_cases hr : r < 0
      · rw [if_pos hr]; exact bot_le
      · have hs : ¬ s < 0 := not_lt.mpr (le_trans (not_lt.mp hr) hrs)
        rw [if_neg hr, if_neg hs]
        exact EReal.coe_le_coe_iff.mpr (Real.sqrt_le_sqrt hrs)

theorem root_mono : Monotone root := by
  intro a b hab
  unfold root
  exact sqrt_mono (max_le_max hab le_rfl)

/-- A monotone map of a linear order commutes with the minimum of a nonempty finite family: the
    infimum is attained at some index. -/
theorem root_iInf {ι : Type} [Fintype ι] [Nonempty ι] (f : ι → EReal) :
    root (⨅ i, f i) = ⨅ i, root (f i) := by
  obtain ⟨i₀, h₀⟩ := Finite.exists_min f
  have hf : ⨅ i, f i = f i₀ := le_antisymm (iInf_le f i₀) (le_iInf h₀)
  rw [hf]
  exact le_antisymm (le_iInf fun i => root_mono (h₀ i)) (iInf_le (fun i => root (f i)) i₀)

/-! ### Root pair by pair against root of the minimum -/

theorem rowMinFirst_eq (x y : Cloud.Idx → EReal) (hx : AllReal x) (hy : AllReal y)
    (b : Fin 8) (r : Fin 4096) : rowMinFirst x y b r = rowPairwise x y b r := by
  unfold rowMinFirst rowPairwise
  rw [root_iInf]
  exact iInf_congr fun c => by rw [sqAdd_eq_sqSub x y hx hy]

theorem colMinFirst_eq (x y : Cloud.Idx → EReal) (hx : AllReal x) (hy : AllReal y)
    (b : Fin 8) (c : Fin 4096) : colMinFirst x y b c = colPairwise x y b c := by
  unfold colMinFirst colPairwise
  rw [root_iInf]
  exact iInf_congr fun r => by rw [sqAdd_eq_sqSub x y hx hy]

end Cert.Chamfer

end
-- ==== Proof.IdealValue.ResultEq.lean ====
/-
  The two programs' results agree: both apply the same ending to two arrays of nearest-neighbour
  distances, and those arrays agree entry by entry.  The kernel program's arrays hold the distances
  with the minimum taken over squared distances first and the root once; the reference's hold them
  with the root taken pair by pair; on real inputs the two are equal.
-/
import proofs.«154268_j6433861009596_2_alg».proof.Proof.Tail
import proofs.«154268_j6433861009596_2_alg».proof.Proof.RefValue
import proofs.«154268_j6433861009596_2_alg».proof.Proof.SpecLaws

noncomputable section

namespace Cert.Chamfer.ResultEq

open Idealize.ShloMosaic Idealize.ShloMosaic.ValueIdx Idealize.ShloMosaic.StableHlo

/-- If the kernel program's two results hold, at (b, 0, ·), the row and column distances of the clouds x and y,
    then its ending gives the reference's result on x and y. -/
theorem result_eq (x y : Cert.Chamfer.Cloud.Idx → EReal) (hx : AllReal x) (hy : AllReal y)
    (W : Valuation Cert.KernelIdeal.τ Cert.KernelIdeal.sig (Elt Ideal))
    (hrow : ∀ (b : Fin 8) (r : Fin 4096),
      (W (Proc.devRef .tc Cert.KernelIdeal.main_v0_0) : Cert.KernelIdeal.S8x1x4096.Idx → EReal) (ix3 b (0 : Fin 1) r)
        = rowMinFirst x y b r)
    (hcol : ∀ (b : Fin 8) (k : Fin 4096),
      (W (Proc.devRef .tc Cert.KernelIdeal.main_v0_1) : Cert.KernelIdeal.S8x1x4096.Idx → EReal) (ix3 b (0 : Fin 1) k)
        = colMinFirst x y b k) :
    StableHlo.after (Cert.KernelIdeal.Gen.hostOps1 (F := Ideal)) W (Proc.devRef .tc Cert.KernelIdeal.main_v11)
      = Cert.ReferenceIdeal.Read.val_main_v26 (F := Ideal) x y := by
  refine (Tail.ker_tail W).trans (Eq.trans ?_ (Tail.ref_tail x y).symm)
  refine congrArg₂ Tail.meanOfMeans (Tail.ext2 _ _ fun b c => ?_) (Tail.ext2 _ _ fun b r => ?_)
  · refine (Tail.reshape_apply _ _ b c).trans ?_
    rw [hcol b c, colMinFirst_eq x y hx hy b c]
    exact (RefValue.ref_col x y b c).symm
  · refine (Tail.reshape_apply _ _ b r).trans ?_
    rw [hrow b r, rowMinFirst_eq x y hx hy b r]
    exact (RefValue.ref_row x y b r).symm

end Cert.Chamfer.ResultEq

end
-- ==== Proof.FiniteInputs.lean ====
/-
  Finiteness of the inputs.

  The printed predicate is jnp.all(|input1| < inf) & jnp.all(|input2| < inf).  If it evaluates to
  true at the extended reals, every coordinate of both clouds is a real number: neither ⊥ nor ⊤
  has absolute value (max x (−x)) strictly below ⊤.
-/
import proofs.«154268_j6433861009596_2_alg».proof.Pre_finite_inputs
import proofs.«154268_j6433861009596_2_alg».proof.Proof.Spec
import Idealize.ShloMosaic.Lib.ReduceAll
import Idealize.ShloMosaic.PureOps.Ideal
import Idealize.ShloMosaic.PureOps.Ideal.Laws

noncomputable section

namespace Cert.Chamfer.FiniteInputs

open Idealize.ShloMosaic Idealize.ShloMosaic.ValueIdx

variable [Cert.Pre_finite_inputs.Facts]

/-- The scalar shape has one index. -/
instance : Subsingleton Cert.Pre_finite_inputs.S_.Idx := ⟨fun a b => funext fun d => d.elim0⟩

/-- An extended real whose absolute value max x (−x) is strictly below the word of +∞ is a real
    number: at ⊥ and at ⊤ the absolute value is ⊤. -/
theorem real_of_abs_lt_inf (x : EReal)
    (h : Ideal.cmp .olt (max x (-x)) (Ideal.ofBits .f32 0x7F800000#32) = 1#1) :
    ∃ v : ℝ, x = (v : EReal) := by
  have hinf : Ideal.ofBits .f32 0x7F800000#32 = ⊤ := by simp [Ideal.ofBits, Ideal.ieee]
  rw [hinf] at h
  induction x using EReal.rec with
  | bot => exact absurd h (by simp [Ideal.cmp])
  | top => exact absurd h (by simp [Ideal.cmp])
  | coe r => exact ⟨r, rfl⟩

/-- If the printed predicate holds of two clouds, both are real everywhere. -/
theorem allReal_of_pre (a0 a1 : FVec Ideal Cert.Pre_finite_inputs.S8x4096x64 .f32)
    (h : Cert.Pre_finite_inputs.fn (F := Ideal) a0 a1 = (fun _ => 1#1)) :
    Cert.Chamfer.AllReal a0 ∧ Cert.Chamfer.AllReal a1 := by
  have h0 := congrFun h ValueIdx.ix0
  dsimp only [Cert.Pre_finite_inputs.fn] at h0
  obtain ⟨hA, hB⟩ := IntOp.andi_eq_one.1 h0
  refine ⟨fun i => ?_, fun i => ?_⟩
  · exact real_of_abs_lt_inf (a0 i) (Host.reduce_andi_all _ _ _ _ _ hA i)
  · exact real_of_abs_lt_inf (a1 i) (Host.reduce_andi_all _ _ _ _ _ hB i)

end Cert.Chamfer.FiniteInputs

end
-- ==== Proof.lean ====
/-
  Chamfer distance between two batches of point clouds x, y : 8 × 4096 points × 64 coordinates.

  The reference forms the squared distance of every pair as (|x_r|² + |y_c|²) − 2·⟨x_r, y_c⟩, takes
  sqrt(max(·, 0)) of every pair, and minimises over the columns (for every point of x) and over the rows (for
  every point of y); the result is the mean over the batches of the sum of the two mean nearest-neighbour
  distances.  The kernel sweeps 1024 × 1024 tiles, forms each pair's squared distance as
  (|x_r|² + |y_c|²) + Σ_k x_rk·(y_ck·(−2)), keeps running minima of the SQUARED distances in its two output
  blocks, and applies sqrt(max(·, 0)) once, to the finished minima; the same means follow on the host.

  Over the extended reals the two agree when every input is a real number: the two forms of a pair's squared
  distance are then one real number, and v ↦ sqrt(max(v, 0)) is monotone, so it commutes with a minimum over a
  finite nonempty family.  The means are the same operations on both sides and are never opened.

  The proof follows the computation.  `BitsBody` / `IdealBody`: the kernel body run symbolically in each of the
  five control cases the grid meets, the contents of the two output blocks after every point, the body
  obligation, and the frame run (both programs, one text).  `IdealValue`: the body's arithmetic at an index,
  the running minima point by point, the result arrays from the blocks written back, the host tail.
  `RefValue`: the reference read at an index.  `SpecLaws`, `FiniteInputs`: the two laws and the reals.
-/
import proofs.«154268_j6433861009596_2_alg».proof.Defs
import proofs.«154268_j6433861009596_2_alg».proof.Proof.Gen.Kernel
import proofs.«154268_j6433861009596_2_alg».proof.Proof.Gen.KernelIdeal
import proofs.«154268_j6433861009596_2_alg».proof.Proof.Gen.ReferenceIdeal
import proofs.«154268_j6433861009596_2_alg».proof.Proof.Gen.Pre_finite_inputs
import proofs.«154268_j6433861009596_2_alg».proof.Proof.Gen.ReferenceIdeal.Run
import proofs.«154268_j6433861009596_2_alg».proof.Proof.Gen.ReferenceIdeal.Read
import proofs.«154268_j6433861009596_2_alg».proof.Proof.BitsBody.Frame
import proofs.«154268_j6433861009596_2_alg».proof.Proof.IdealBody.Frame
import proofs.«154268_j6433861009596_2_alg».proof.Proof.IdealValue.Final
import proofs.«154268_j6433861009596_2_alg».proof.Proof.IdealValue.KernelRun
import proofs.«154268_j6433861009596_2_alg».proof.Proof.IdealValue.ResultEq
import proofs.«154268_j6433861009596_2_alg».proof.Proof.FiniteInputs
import Idealize.ShloMosaic.Adequacy
import Idealize.ShloMosaic.Init

noncomputable section

namespace Cert.Proof

open Idealize.ShloMosaic Idealize.SL.Sem

/-- The three programs run and leave their arguments unchanged. -/
theorem frame_kernel : Cert.frame_Kernel :=
  fun m ρ _ => Cert.Kernel.Body.frame m ρ
theorem frame_kernelIdeal : Cert.frame_KernelIdeal :=
  fun m ρ _ => Cert.KernelIdeal.Body.frame m ρ
theorem frame_reference : Cert.frame_ReferenceIdeal :=
  fun m ρ _ => (θ_run Cert.ReferenceIdeal.defs _ _).mono (fun _ h c => (h c).2) (Cert.ReferenceIdeal.Value.run (F := Ideal) m ρ)

/-- Both idealized programs end at the reference's term of the arguments: the reference by its own run, the
    kernel because its two result arrays hold the nearest-neighbour distances with the minimum taken first,
    which for real inputs are the reference's, and the host tail is the same on both sides. -/
theorem algebraic : Cert.algebraic_KernelIdeal_ReferenceIdeal := by
  intro m ρ m' ρ' hpre hagree
  refine ⟨fun c => Cert.ReferenceIdeal.Read.val_main_v26 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun r h c => ⟨(h c).1.trans ?_, (h c).2⟩)
      (Cert.Chamfer.KernelRun.kernel_run (F := Ideal) m ρ)
    obtain ⟨hx, hy⟩ := Cert.Chamfer.FiniteInputs.allReal_of_pre _ _ (hpre c)
    exact Cert.Chamfer.ResultEq.result_eq (Cert.Chamfer.Sweep.xArr m c) (Cert.Chamfer.Sweep.yArr m c) hx hy
      (Cert.Chamfer.KernelRun.finalVal m c)
      (fun b r => by
        rw [Cert.Chamfer.KernelRun.finalVal_row, Cert.Chamfer.Final.final_row]
        exact Cert.Chamfer.Final.rowG_apply m c b r)
      (fun b k => by
        rw [Cert.Chamfer.KernelRun.finalVal_col, Cert.Chamfer.Final.final_col]
        exact Cert.Chamfer.Final.colG_apply m c b k)
  · refine (θ_run Cert.ReferenceIdeal.defs _ _).mono (fun _ h c => ⟨(h c).1.trans ?_, (h c).2⟩)
      (Cert.ReferenceIdeal.Value.run (F := Ideal) m' ρ')
    rw [(hagree c).1, (hagree c).2]
    exact Cert.ReferenceIdeal.Read.val_main_v26_eq _ _

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
